-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg16
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x2 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x165 .f32) (main_arg1 : IVec S2x1600000 32) (main_arg2 : FVec F S165x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S1x128 : Shape := ⟨2, ![1, 128]⟩
abbrev S100000x128 : Shape := ⟨2, ![100000, 128]⟩
abbrev S4000x165 : Shape := ⟨2, ![4000, 165]⟩
abbrev S4000x128 : Shape := ⟨2, ![4000, 128]⟩
abbrev S1600000x128 : Shape := ⟨2, ![1600000, 128]⟩
abbrev S1x2 : Shape := ⟨2, ![1, 2]⟩

abbrev nBuf : Space → Nat
  | .hbm => 77
  | .vmem => 34
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x165, .f32⟩
  | .hbm, ⟨31, _⟩ => ⟨S_, .f32⟩
  | .hbm, ⟨32, _⟩ => ⟨S100000x165, .f32⟩
  | .hbm, ⟨33, _⟩ => ⟨S1600000x1, .i32⟩
  | .hbm, ⟨34, _⟩ => ⟨S100000x165, .f32⟩
  | .hbm, ⟨35, _⟩ => ⟨S1x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x2, .f32⟩
  | .hbm, ⟨75, _⟩ => ⟨S1x2, .f32⟩
  | .hbm, ⟨76, _⟩ => ⟨S1x2, .f32⟩
  | .local _ .vmem, ⟨0, _⟩ => ⟨S4000x165, .f32⟩
  | .local _ .vmem, ⟨1, _⟩ => ⟨S4000x165, .f32⟩
  | .local _ .vmem, ⟨2, _⟩ => ⟨S4000x165, .f32⟩
  | .local _ .vmem, ⟨3, _⟩ => ⟨S4000x165, .f32⟩
  | .local _ .vmem, ⟨4, _⟩ => ⟨S165x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S1x128, .f32⟩
  | .local _ .vmem, ⟨33, _⟩ => ⟨S1x128, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  shapeCasts_S128_S1x128 : S128.ShapeCasts S1x128
  inb_S4000x165_S4000x165_0_0 : ∀ a, (![0, 0] : Fin 2 → Nat) a + S4000x165.size a ≤ S4000x165.size a
  h_S4000x165 : 0 < S4000x165.numel
  shapeCasts_S4000x165_S4000x165 : S4000x165.ShapeCasts S4000x165
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S4000x128_S4000x128 : S4000x128.ShapeCasts S4000x128
  reduces_S4000x128_S128 : S4000x128.Reduces [0] S128
  bcast_S128_S1x128_1 : S128.BroadcastsInDim S1x128 (![1] : Fin 1 → Fin S1x128.rank)
  bcast_S2_S1x2_1 : S2.BroadcastsInDim S1x2 (![1] : Fin 1 → Fin S1x2.rank)
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  dot_S4000x165_S165x128_S4000x128_1_0_0_1_n_n_wf : DotDims.WF S4000x165 S165x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x165.size a ≤ S100000x165.size a
  hwx0_0 : ∀ i : grid0.Coords, EltTy.bits .f32 = 32 ∨ (Rect.block (s := S100000x165) S4000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x165.size a ≤ S100000x165.size a
  hwx0_1 : ∀ i : grid0.Coords, EltTy.bits .f32 = 32 ∨ (Rect.block (s := S100000x165) S4000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x128.size a ≤ S165x128.size a
  hwx0_2 : ∀ i : grid0.Coords, EltTy.bits .f32 = 32 ∨ (Rect.block (s := S165x128) S165x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def dot_S4000x165_S165x128_S4000x128_1_0_0_1_n_n : DotDims S4000x165 S165x128 S4000x128 where
  lhsContracting := [1]
  rhsContracting := [0]
  lhsNonContracting := [0]
  rhsNonContracting := [1]
  lhsBatch := []
  rhsBatch := []
  wf := dot_S4000x165_S165x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_arg0) S4000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S165x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S100000x128 : Shape := ⟨2, ![100000, 128]⟩
abbrev S1x128 : Shape := ⟨2, ![1, 128]⟩
abbrev S1600000x128 : Shape := ⟨2, ![1600000, 128]⟩
abbrev S1x2 : Shape := ⟨2, ![1, 2]⟩

abbrev nBuf : Space → Nat
  | .hbm => 118
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x165, .f32⟩
  | .hbm, ⟨31, _⟩ => ⟨S_, .f32⟩
  | .hbm, ⟨32, _⟩ => ⟨S100000x165, .f32⟩
  | .hbm, ⟨33, _⟩ => ⟨S1600000x1, .i32⟩
  | .hbm, ⟨34, _⟩ => ⟨S100000x165, .f32⟩
  | .hbm, ⟨35, _⟩ => ⟨S100000x165, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S128, .f32⟩
  | .hbm, ⟨108, _⟩ => ⟨S1x128, .f32⟩
  | .hbm, ⟨109, _⟩ => ⟨S_, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S1x128, .f32⟩
  | .hbm, ⟨115, _⟩ => ⟨S1x2, .f32⟩
  | .hbm, ⟨116, _⟩ => ⟨S1x2, .f32⟩
  | .hbm, ⟨117, _⟩ => ⟨S1x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_cst : Ref sig .tc := ⟨.hbm, 40, rfl⟩
abbrev main_call0_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_cst : Ref sig .tc := ⟨.hbm, 47, rfl⟩
abbrev main_call1_v0 : Ref sig .tc := ⟨.hbm, 48, rfl⟩
abbrev main_v24 : Ref sig .tc := ⟨.hbm, 49, rfl⟩
abbrev main_c_1 : Ref sig .tc := ⟨.hbm, 50, rfl⟩
abbrev main_v25 : Ref sig .tc := ⟨.hbm, 51, rfl⟩
abbrev main_v26 : Ref sig .tc := ⟨.hbm, 52, rfl⟩
abbrev main_c_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call2_cst : Ref sig .tc := ⟨.hbm, 68, rfl⟩
abbrev main_call2_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call3_cst : Ref sig .tc := ⟨.hbm, 75, rfl⟩
abbrev main_call3_v0 : Ref sig .tc := ⟨.hbm, 76, rfl⟩
abbrev main_v45 : Ref sig .tc := ⟨.hbm, 77, rfl⟩
abbrev main_c_4 : Ref sig .tc := ⟨.hbm, 78, rfl⟩
abbrev main_v46 : Ref sig .tc := ⟨.hbm, 79, rfl⟩
abbrev main_v47 : Ref sig .tc := ⟨.hbm, 80, rfl⟩
abbrev main_c_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call4_cst : Ref sig .tc := ⟨.hbm, 96, rfl⟩
abbrev main_call4_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call5_cst : Ref sig .tc := ⟨.hbm, 103, rfl⟩
abbrev main_call5_v0 : Ref sig .tc := ⟨.hbm, 104, rfl⟩
abbrev main_v66 : Ref sig .tc := ⟨.hbm, 105, rfl⟩
abbrev main_cst_7 : Ref sig .tc := ⟨.hbm, 106, rfl⟩
abbrev main_v67 : Ref sig .tc := ⟨.hbm, 107, rfl⟩
abbrev main_v68 : Ref sig .tc := ⟨.hbm, 108, rfl⟩
abbrev main_cst_8 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S1x128 : S_.BroadcastsInDim S1x128 (![] : Fin 0 → Fin S1x128.rank)
  bcast_S2_S1x2_1 : S2.BroadcastsInDim S1x2 (![1] : Fin 1 → Fin S1x2.rank)
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  dot_S100000x165_S165x128_S100000x128_1_0_0_1_n_n_wf : DotDims.WF S100000x165 S165x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.KI.Defs0.lean ====
/-
  Region 0: one fused layer update, tile by tile. The node axis is cut into 25 tiles of 4000 rows; at tile `t` the
  body reads rows `4000·t … 4000·t + 3999` of the features and of the neighbour sums, the two weight matrices and the
  two bias rows whole, and leaves in the output tile `relu (relu ((h + agg) · Wa + ba) · Wb + bb)` of those rows.
  Here: each window's block at a tile, what the body leaves in the output tile as a function of the six input blocks,
  and the proof data of the pipeline built from them.
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S4000x165 := Rect.unit (s := S4000x165) ![0, 0] S4000x165.size inb_S4000x165_S4000x165_0_0
abbrev rWa0 : Rect S165x128 := Rect.unit (s := S165x128) ![0, 0] S165x128.size inb_S165x128_S165x128_0_0
abbrev rWb0 : Rect S128x128 := Rect.unit (s := S128x128) ![0, 0] S128x128.size inb_S128x128_S128x128_0_0
abbrev rB0 : Rect S1x128 := Rect.unit (s := S1x128) ![0, 0] S1x128.size inb_S1x128_S1x128_0_0
abbrev rO0 : Rect S4000x128 := Rect.unit (s := S4000x128) ![0, 0] S4000x128.size inb_S4000x128_S4000x128_0_0

/-- What the body leaves in the output tile, from the six input blocks: its one store, of the whole tile. -/
def out0_6 (x0 x1 : Vec F S4000x165 .f32) (x2 : Vec F S165x128 .f32) (x3 : Vec F S1x128 .f32) (x4 : Vec F S128x128 .f32) (x5 : Vec F S1x128 .f32) :
    Vec F S4000x128 .f32 :=
  View.canon [⟨rO0, k0_pay1 (View.ld x0 rX0) (View.ld x1 rX0) (View.ld x2 rWa0) (View.ld x3 rB0) (View.ld x4 rWb0) (View.ld x5 rB0)⟩]

/-- The proof data of the pipeline on core `c`: the arrays as the region finds them; after the body at tile `t` each
    input's buffer at its block and the output's at `out0_6` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

end Cert.KernelIdeal.Hand

end
-- ==== Proof.KI.Defs1.lean ====
/-
  Region 1: one fused layer update, tile by tile. The node axis is cut into 25 tiles of 4000 rows; at tile `t` the
  body reads rows `4000·t … 4000·t + 3999` of the features and of the neighbour sums, the two weight matrices and the
  two bias rows whole, and leaves in the output tile `relu (relu ((h + agg) · Wa + ba) · Wb + bb)` of those rows.
  Here: each window's block at a tile, what the body leaves in the output tile as a function of the six input blocks,
  and the proof data of the pipeline built from them.
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rX1 : Rect S4000x128 := Rect.unit (s := S4000x128) ![0, 0] S4000x128.size inb_S4000x128_S4000x128_0_0
abbrev rWa1 : Rect S128x128 := Rect.unit (s := S128x128) ![0, 0] S128x128.size inb_S128x128_S128x128_0_0
abbrev rWb1 : Rect S128x128 := Rect.unit (s := S128x128) ![0, 0] S128x128.size inb_S128x128_S128x128_0_0
abbrev rB1 : Rect S1x128 := Rect.unit (s := S1x128) ![0, 0] S1x128.size inb_S1x128_S1x128_0_0
abbrev rO1 : Rect S4000x128 := Rect.unit (s := S4000x128) ![0, 0] S4000x128.size inb_S4000x128_S4000x128_0_0

/-- What the body leaves in the output tile, from the six input blocks: its one store, of the whole tile. -/
def out1_6 (x0 x1 : Vec F S4000x128 .f32) (x2 : Vec F S128x128 .f32) (x3 : Vec F S1x128 .f32) (x4 : Vec F S128x128 .f32) (x5 : Vec F S1x128 .f32) :
    Vec F S4000x128 .f32 :=
  View.canon [⟨rO1, k1_pay1 (View.ld x0 rX1) (View.ld x1 rX1) (View.ld x2 rWa1) (View.ld x3 rB1) (View.ld x4 rWb1) (View.ld x5 rB1)⟩]

/-- The proof data of the pipeline on core `c`: the arrays as the region finds them; after the body at tile `t` each
    input's buffer at its block and the output's at `out1_6` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

end Cert.KernelIdeal.Hand

end
-- ==== Proof.KI.Defs2.lean ====
/-
  Region 2: one fused layer update, tile by tile. The node axis is cut into 25 tiles of 4000 rows; at tile `t` the
  body reads rows `4000·t … 4000·t + 3999` of the features and of the neighbour sums, the two weight matrices and the
  two bias rows whole, and leaves in the output tile `relu (relu ((h + agg) · Wa + ba) · Wb + bb)` of those rows.
  Here: each window's block at a tile, what the body leaves in the output tile as a function of the six input blocks,
  and the proof data of the pipeline built from them.
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rX2 : Rect S4000x128 := Rect.unit (s := S4000x128) ![0, 0] S4000x128.size inb_S4000x128_S4000x128_0_0
abbrev rWa2 : Rect S128x128 := Rect.unit (s := S128x128) ![0, 0] S128x128.size inb_S128x128_S128x128_0_0
abbrev rWb2 : Rect S128x128 := Rect.unit (s := S128x128) ![0, 0] S128x128.size inb_S128x128_S128x128_0_0
abbrev rB2 : Rect S1x128 := Rect.unit (s := S1x128) ![0, 0] S1x128.size inb_S1x128_S1x128_0_0
abbrev rO2 : Rect S4000x128 := Rect.unit (s := S4000x128) ![0, 0] S4000x128.size inb_S4000x128_S4000x128_0_0

/-- What the body leaves in the output tile, from the six input blocks: its one store, of the whole tile. -/
def out2_6 (x0 x1 : Vec F S4000x128 .f32) (x2 : Vec F S128x128 .f32) (x3 : Vec F S1x128 .f32) (x4 : Vec F S128x128 .f32) (x5 : Vec F S1x128 .f32) :
    Vec F S4000x128 .f32 :=
  View.canon [⟨rO2, k2_pay1 (View.ld x0 rX2) (View.ld x1 rX2) (View.ld x2 rWa2) (View.ld x3 rB2) (View.ld x4 rWb2) (View.ld x5 rB2)⟩]

/-- The proof data of the pipeline on core `c`: the arrays as the region finds them; after the body at tile `t` each
    input's buffer at its block and the output's at `out2_6` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

end Cert.KernelIdeal.Hand

end
-- ==== Proof.KI.Defs3.lean ====
/-
  Region 3: the mean over the nodes, tile by tile. A one-row scratch is zeroed at the first tile; at every tile the
  column sums of the tile's 4000 rows are added to it; at the last tile the output row is the scratch times the
  constant that stands for 1/100000. Here: the input window's block at a tile, the scratch after `n` tiles, and the
  proof data of the pipeline — its invariant carries the scratch from tile to tile.
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch row after `n` tiles: the zero row, then one tile's column sums added per tile. -/
def acc3 (c : Dev nD) : ℕ → Vec F S1x128 .f32
  | 0 => k3_pay1 (F := F)
  | n + 1 => if h : n < cfg3.N then k3_pay2 (acc3 c n) (iblk3 V c 0 ⟨n, h⟩) else acc3 c n

theorem acc3_zero (c : Dev nD) : acc3 V c 0 = k3_pay1 (F := F) := rfl

theorem acc3_succ (c : Dev nD) (t : Fin cfg3.N) : acc3 V c (t.val + 1) = k3_pay2 (acc3 V c t.val) (iblk3 V c 0 t) := by
  show (if h : t.val < cfg3.N then k3_pay2 (acc3 V c t.val) (iblk3 V c 0 ⟨t.val, h⟩) else acc3 V c t.val) = _
  rw [dif_pos t.isLt]

/-- The scratch operand, a whole scoped buffer. -/
abbrev scr3 : Memref sig .tc .vmem S1x128 .f32 := Memref.whole cc3_scratch0

/-- The region's invariant before tile `n`: the scratch — at some contents before the first tile, at the running sums
    after it —, the other scoped buffers the pipeline does not stage, and the generator register. -/
def Φ3 (c : Dev nD) (n : Fin (cfg3.N + 1)) : sProp 𝕄 :=
  iprop((match n.val with
      | 0 => iprop(∃ f : Buf (Elt F) ((c : Thread nD τ).loc cc3_scratch0), ((c : Thread nD τ).loc cc3_scratch0) ↦{fullShare} f)
      | k + 1 => owns (c : Thread nD τ) scr3 fullShare (acc3 V c (k + 1)))
    ∗ Pipeline.scopedRestBut (Ix := Unit) (Name := ℕ) (U := UR sig nD τ) (Lvl := ℕ) (Val := Elt F) spec3 c [cc3_scratch0]
    ∗ ∃ r, prngReg c r)

/-- The proof data of the pipeline on core `c`: the arrays as the region finds them; after the body at tile `t` the
    input's buffer at its block and the output's — asked for at the last tile only — at the scaled running sums;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => k3_pay3 (acc3 V c (t.val + 1))
  Φ n := Φ3 V c n
  q _ := fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = k3_pay3 (acc3 V c (t.val + 1)) := by dsimp only [dat3]
theorem Φ3_eq (c : Dev nD) (n : Fin (cfg3.N + 1)) : (dat3 V c).Φ n = Φ3 V c n := by dsimp only [dat3]

end Cert.KernelIdeal.Hand

end
-- ==== Proof.KI.Fold.lean ====
/-
  What every buffer holds at each boundary between a stretch of host operations and a kernel region, folded from the
  launch memory: a host stretch applies its operations; a region overwrites its output array tile by tile and leaves
  every other buffer alone.
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115216_j652835029484_1_alg».proof.Proof.Gen.KernelIdeal.Regions
import proofs.«115216_j652835029484_1_alg».proof.Proof.KI.Defs0
import proofs.«115216_j652835029484_1_alg».proof.Proof.KI.Defs1
import proofs.«115216_j652835029484_1_alg».proof.Proof.KI.Defs2
import proofs.«115216_j652835029484_1_alg».proof.Proof.KI.Defs3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded
    in tile order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs folded
    in tile order), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs folded
    in tile order), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, the output's write-backs folded
    in tile order), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the last host stretch: the end. -/
abbrev W8 : Dev nD → Valuation τ sig (Elt F) := fun c => StableHlo.after hostOps4 (W7 m ρ c)

end Cert.KernelIdeal.Hand

end
-- ==== Proof.KI.Run.lean ====
/-
  The run of the whole program: what every buffer holds at each boundary between a stretch of host operations and a
  kernel region, folded from the launch memory (a host stretch applies its operations; a region overwrites its output
  array tile by tile and leaves every other buffer alone), the four regions as segments between those boundaries, and
  the conclusion: every weakly fair execution terminates, nothing faults, and at the end every buffer the program
  does not scope holds the last boundary's contents.
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115216_j652835029484_1_alg».proof.Proof.Gen.KernelIdeal.Regions
import proofs.«115216_j652835029484_1_alg».proof.Proof.KI.Defs0
import proofs.«115216_j652835029484_1_alg».proof.Proof.KI.Defs1
import proofs.«115216_j652835029484_1_alg».proof.Proof.KI.Defs2
import proofs.«115216_j652835029484_1_alg».proof.Proof.KI.Defs3
import proofs.«115216_j652835029484_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- What the run asks of the four kernels: each region's body obligation over its proof data, at any entry contents,
    and region 3's invariant made from, and giving back, the scoped buffers and the generator register. -/
structure Obl : Prop where
  hb0 : ∀ (V : (c : Dev nD) → (b : Ref sig .tc) → Buf (Elt F) ((c : Thread nD τ).loc b)) (c : Dev nD),
    BodyObligation (dat0 (F := F) V c) (defs₀ (F := F)) Variants.none () Set.univ
  hb1 : ∀ (V : (c : Dev nD) → (b : Ref sig .tc) → Buf (Elt F) ((c : Thread nD τ).loc b)) (c : Dev nD),
    BodyObligation (dat1 (F := F) V c) (defs₀ (F := F)) Variants.none () Set.univ
  hb2 : ∀ (V : (c : Dev nD) → (b : Ref sig .tc) → Buf (Elt F) ((c : Thread nD τ).loc b)) (c : Dev nD),
    BodyObligation (dat2 (F := F) V c) (defs₀ (F := F)) Variants.none () Set.univ
  hb3 : ∀ (V : (c : Dev nD) → (b : Ref sig .tc) → Buf (Elt F) ((c : Thread nD τ).loc b)) (c : Dev nD),
    BodyObligation (dat3 (F := F) V c) (defs₀ (F := F)) Variants.none () Set.univ
  hin3 : ∀ (V : (c : Dev nD) → (b : Ref sig .tc) → Buf (Elt F) ((c : Thread nD τ).loc b)) (c : Dev nD),
    iprop((∃ r, prngReg c r) ∗ Pipeline.scopedRest spec3 c) ⊢ ((dat3 V c).Φ 0 : sProp 𝕄)
  hout3 : ∀ (V : (c : Dev nD) → (b : Ref sig .tc) → Buf (Elt F) ((c : Thread nD τ).loc b)) (c : Dev nD),
    ((dat3 V c).Φ (Fin.last cfg3.N) : sProp 𝕄) ⊢ iprop((∃ r, prngReg c r) ∗ Pipeline.scopedRest spec3 c)

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

variable (H : Obl (F := F))

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (H.hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (H.hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (H.hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (H.hb3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    iintro ⟨Hp, -, Hr⟩
    iapply (H.hin3 (V6 m ρ) c)
    isplitl [Hp]; · iexact Hp
    iexact Hr
  hout c := by
    rw [Pipeline.ownSems0_none, show (pdats m ρ 3 c).Φ (Fin.last _) = (dat3 (V6 m ρ) c).Φ (Fin.last cfg3.N) from rfl]
    have hout := H.hout3 (V6 m ρ) c
    iintro HP
    ihave HQ := hout $$ HP
    icases HQ with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ H),
    .host (hseg hostOps1 hostOps1_sub hostOps1_fresh (W2 m ρ)),
    .region (reg1 m ρ H),
    .host (hseg hostOps2 hostOps2_sub hostOps2_fresh (W4 m ρ)),
    .region (reg2 m ρ H),
    .region (reg3 m ρ H),
    .host (hseg hostOps4 hostOps4_sub hostOps4_fresh (W7 m ρ)) ]
/-- @main is the run of the segments. -/
theorem main_run (c : Dev nD) : main (F := F) c = Pipeline.Seg.run (segs m ρ H) := (main_chain c).trans (by chain_rfl)

include H in
set_option backward.isDefEq.respectTransparency.types false in
/-- THE RUN: from any memory with zero counters, every weakly fair execution of @main on the TensorCores terminates,
    nothing faulting, and every final state holds, in every buffer the program does not scope, the last boundary's
    contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ H)
    (fun c Q => by rw [main_run m ρ H c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W8 m ρ c))
    (hch := ⟨fun _ => .rfl, fun _ => .rfl, fun _ => .rfl, fun _ => .rfl, fun _ => .rfl, fun _ => .rfl, fun _ => .rfl, fun _ => .rfl,
      fun c => sep_mono .rfl (show (R c : sProp 𝕄) ⊢ iprop(∃ W, owes (c : Thread nD τ) (0 : CellTallies nD τ sig Unit) W) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨Hh, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Kept.lean ====
/-
  The arguments end as launched. A buffer changes between the launch and the end only where a host operation
  writes its result or where a layer writes its output array back: a host stretch leaves every buffer that none of
  its operations writes, and a layer leaves every buffer but its output array — a buffer that is none of its windows'
  arrays is not touched, and an input window's array is read, never written. No argument of the program is a host
  operation's result or a layer's output, so each holds at the end what it held at the launch.
-/
import proofs.«115216_j652835029484_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-! ## A layer changes its output array only -/

/-- An input window's array leaves layer 0 as it entered: the pipeline never writes an input window back. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The only window of layer 0 that is written back is the one on `main_v16`. -/
theorem in_of_ne0 : ∀ w : Fin cfg0.W, Pipeline.arrRef spec0 w ≠ main_v16 → (cfg0.win w).isOut = false := by decide

/-- Every buffer but `main_v16` leaves layer 0 as it entered: it is either none of the layer's arrays or an
    input window's. -/
theorem W2_kept (c : Dev nD) (r : Ref sig .tc) (h : r ≠ main_v16) :
    W2 m ρ c (Proc.devRef .tc r) = W1 m ρ c (Proc.devRef .tc r) := by
  by_cases hr : ∃ w, Pipeline.arrRef spec0 w = r
  · obtain ⟨w, rfl⟩ := hr
    exact W2_in m ρ c w (in_of_ne0 w h)
  · exact W2_of_ne m ρ c r fun w e => hr ⟨w, e⟩

/-- An input window's array leaves layer 1 as it entered: the pipeline never writes an input window back. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- The only window of layer 1 that is written back is the one on `main_v29`. -/
theorem in_of_ne1 : ∀ w : Fin cfg1.W, Pipeline.arrRef spec1 w ≠ main_v29 → (cfg1.win w).isOut = false := by decide

/-- Every buffer but `main_v29` leaves layer 1 as it entered: it is either none of the layer's arrays or an
    input window's. -/
theorem W4_kept (c : Dev nD) (r : Ref sig .tc) (h : r ≠ main_v29) :
    W4 m ρ c (Proc.devRef .tc r) = W3 m ρ c (Proc.devRef .tc r) := by
  by_cases hr : ∃ w, Pipeline.arrRef spec1 w = r
  · obtain ⟨w, rfl⟩ := hr
    exact W4_in m ρ c w (in_of_ne1 w h)
  · exact W4_of_ne m ρ c r fun w e => hr ⟨w, e⟩

/-- An input window's array leaves layer 2 as it entered: the pipeline never writes an input window back. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- The only window of layer 2 that is written back is the one on `main_v42`. -/
theorem in_of_ne2 : ∀ w : Fin cfg2.W, Pipeline.arrRef spec2 w ≠ main_v42 → (cfg2.win w).isOut = false := by decide

/-- Every buffer but `main_v42` leaves layer 2 as it entered: it is either none of the layer's arrays or an
    input window's. -/
theorem W6_kept (c : Dev nD) (r : Ref sig .tc) (h : r ≠ main_v42) :
    W6 m ρ c (Proc.devRef .tc r) = W5 m ρ c (Proc.devRef .tc r) := by
  by_cases hr : ∃ w, Pipeline.arrRef spec2 w = r
  · obtain ⟨w, rfl⟩ := hr
    exact W6_in m ρ c w (in_of_ne2 w h)
  · exact W6_of_ne m ρ c r fun w e => hr ⟨w, e⟩

/-- An input window's array leaves layer 3 as it entered: the pipeline never writes an input window back. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))

/-- The only window of layer 3 that is written back is the one on `main_v43`. -/
theorem in_of_ne3 : ∀ w : Fin cfg3.W, Pipeline.arrRef spec3 w ≠ main_v43 → (cfg3.win w).isOut = false := by decide

/-- Every buffer but `main_v43` leaves layer 3 as it entered: it is either none of the layer's arrays or an
    input window's. -/
theorem W7_kept (c : Dev nD) (r : Ref sig .tc) (h : r ≠ main_v43) :
    W7 m ρ c (Proc.devRef .tc r) = W6 m ρ c (Proc.devRef .tc r) := by
  by_cases hr : ∃ w, Pipeline.arrRef spec3 w = r
  · obtain ⟨w, rfl⟩ := hr
    exact W7_in m ρ c w (in_of_ne3 w h)
  · exact W7_of_ne m ρ c r fun w e => hr ⟨w, e⟩

/-! ## From the end back to the launch -/

/-- A buffer that no host operation writes and that is no layer's output array holds at the end what it held at the
    launch: back through the last host stretch, the four layers and the three host stretches between and before them. -/
theorem W8_kept (c : Dev nD) (r : Ref sig .tc) (h0 : r ∉ hostOps0_W) (h1 : r ∉ hostOps1_W) (h2 : r ∉ hostOps2_W)
    (h4 : r ∉ hostOps4_W) (ho : r ∉ ([main_v16, main_v29, main_v42, main_v43] : List (Ref sig .tc))) :
    W8 m ρ c (Proc.devRef .tc r) = m ((c : Thread nD τ).loc r) :=
  calc W8 m ρ c (Proc.devRef .tc r)
    _ = W7 m ρ c (Proc.devRef .tc r) := StableHlo.after_of_writes_sub hostOps4 _ hostOps4_writes h4
    _ = W6 m ρ c (Proc.devRef .tc r) := W7_kept m ρ c r fun e => ho (by rw [e]; decide)
    _ = W5 m ρ c (Proc.devRef .tc r) := W6_kept m ρ c r fun e => ho (by rw [e]; decide)
    _ = W4 m ρ c (Proc.devRef .tc r) := StableHlo.after_of_writes_sub hostOps2 _ hostOps2_writes h2
    _ = W3 m ρ c (Proc.devRef .tc r) := W4_kept m ρ c r fun e => ho (by rw [e]; decide)
    _ = W2 m ρ c (Proc.devRef .tc r) := StableHlo.after_of_writes_sub hostOps1 _ hostOps1_writes h1
    _ = W1 m ρ c (Proc.devRef .tc r) := W2_kept m ρ c r fun e => ho (by rw [e]; decide)
    _ = W0 m ρ c (Proc.devRef .tc r) := StableHlo.after_of_writes_sub hostOps0 _ hostOps0_writes h0
    _ = m ((c : Thread nD τ).loc r) := rfl

/-! ## The eighteen arguments -/

/-- `main_arg0` ends as launched. -/
theorem W8_main_arg0 (c : Dev nD) : W8 m ρ c (Proc.devRef .tc main_arg0) = m ((c : Thread nD τ).loc main_arg0) :=
  W8_kept m ρ c main_arg0 (by decide) (by decide) (by decide) (by decide) (by decide)
/-- `main_arg1` ends as launched. -/
theorem W8_main_arg1 (c : Dev nD) : W8 m ρ c (Proc.devRef .tc main_arg1) = m ((c : Thread nD τ).loc main_arg1) :=
  W8_kept m ρ c main_arg1 (by decide) (by decide) (by decide) (by decide) (by decide)
/-- `main_arg2` ends as launched. -/
theorem W8_main_arg2 (c : Dev nD) : W8 m ρ c (Proc.devRef .tc main_arg2) = m ((c : Thread nD τ).loc main_arg2) :=
  W8_kept m ρ c main_arg2 (by decide) (by decide) (by decide) (by decide) (by decide)
/-- `main_arg3` ends as launched. -/
theorem W8_main_arg3 (c : Dev nD) : W8 m ρ c (Proc.devRef .tc main_arg3) = m ((c : Thread nD τ).loc main_arg3) :=
  W8_kept m ρ c main_arg3 (by decide) (by decide) (by decide) (by decide) (by decide)
/-- `main_arg4` ends as launched. -/
theorem W8_main_arg4 (c : Dev nD) : W8 m ρ c (Proc.devRef .tc main_arg4) = m ((c : Thread nD τ).loc main_arg4) :=
  W8_kept m ρ c main_arg4 (by decide) (by decide) (by decide) (by decide) (by decide)
/-- `main_arg5` ends as launched. -/
theorem W8_main_arg5 (c : Dev nD) : W8 m ρ c (Proc.devRef .tc main_arg5) = m ((c : Thread nD τ).loc main_arg5) :=
  W8_kept m ρ c main_arg5 (by decide) (by decide) (by decide) (by decide) (by decide)
/-- `main_arg6` ends as launched. -/
theorem W8_main_arg6 (c : Dev nD) : W8 m ρ c (Proc.devRef .tc main_arg6) = m ((c : Thread nD τ).loc main_arg6) :=
  W8_kept m ρ c main_arg6 (by decide) (by decide) (by decide) (by decide) (by decide)
/-- `main_arg7` ends as launched. -/
theorem W8_main_arg7 (c : Dev nD) : W8 m ρ c (Proc.devRef .tc main_arg7) = m ((c : Thread nD τ).loc main_arg7) :=
  W8_kept m ρ c main_arg7 (by decide) (by decide) (by decide) (by decide) (by decide)
/-- `main_arg8` ends as launched. -/
theorem W8_main_arg8 (c : Dev nD) : W8 m ρ c (Proc.devRef .tc main_arg8) = m ((c : Thread nD τ).loc main_arg8) :=
  W8_kept m ρ c main_arg8 (by decide) (by decide) (by decide) (by decide) (by decide)
/-- `main_arg9` ends as launched. -/
theorem W8_main_arg9 (c : Dev nD) : W8 m ρ c (Proc.devRef .tc main_arg9) = m ((c : Thread nD τ).loc main_arg9) :=
  W8_kept m ρ c main_arg9 (by decide) (by decide) (by decide) (by decide) (by decide)
/-- `main_arg10` ends as launched. -/
theorem W8_main_arg10 (c : Dev nD) : W8 m ρ c (Proc.devRef .tc main_arg10) = m ((c : Thread nD τ).loc main_arg10) :=
  W8_kept m ρ c main_arg10 (by decide) (by decide) (by decide) (by decide) (by decide)
/-- `main_arg11` ends as launched. -/
theorem W8_main_arg11 (c : Dev nD) : W8 m ρ c (Proc.devRef .tc main_arg11) = m ((c : Thread nD τ).loc main_arg11) :=
  W8_kept m ρ c main_arg11 (by decide) (by decide) (by decide) (by decide) (by decide)
/-- `main_arg12` ends as launched. -/
theorem W8_main_arg12 (c : Dev nD) : W8 m ρ c (Proc.devRef .tc main_arg12) = m ((c : Thread nD τ).loc main_arg12) :=
  W8_kept m ρ c main_arg12 (by decide) (by decide) (by decide) (by decide) (by decide)
/-- `main_arg13` ends as launched. -/
theorem W8_main_arg13 (c : Dev nD) : W8 m ρ c (Proc.devRef .tc main_arg13) = m ((c : Thread nD τ).loc main_arg13) :=
  W8_kept m ρ c main_arg13 (by decide) (by decide) (by decide) (by decide) (by decide)
/-- `main_arg14` ends as launched. -/
theorem W8_main_arg14 (c : Dev nD) : W8 m ρ c (Proc.devRef .tc main_arg14) = m ((c : Thread nD τ).loc main_arg14) :=
  W8_kept m ρ c main_arg14 (by decide) (by decide) (by decide) (by decide) (by decide)
/-- `main_arg15` ends as launched. -/
theorem W8_main_arg15 (c : Dev nD) : W8 m ρ c (Proc.devRef .tc main_arg15) = m ((c : Thread nD τ).loc main_arg15) :=
  W8_kept m ρ c main_arg15 (by decide) (by decide) (by decide) (by decide) (by decide)
/-- `main_arg16` ends as launched. -/
theorem W8_main_arg16 (c : Dev nD) : W8 m ρ c (Proc.devRef .tc main_arg16) = m ((c : Thread nD τ).loc main_arg16) :=
  W8_kept m ρ c main_arg16 (by decide) (by decide) (by decide) (by decide) (by decide)
/-- `main_arg17` ends as launched. -/
theorem W8_main_arg17 (c : Dev nD) : W8 m ρ c (Proc.devRef .tc main_arg17) = m ((c : Thread nD τ).loc main_arg17) :=
  W8_kept m ρ c main_arg17 (by decide) (by decide) (by decide) (by decide) (by decide)

end Cert.KernelIdeal.Hand

end
-- ==== Proof.KI.RegA0.lean ====
/- The body obligation of layer 0's fused two-layer perceptron, at any float instance.

   The layer runs over a grid of 25 points; point t works on rows 4000·t … 4000·t + 3999 of the 100000 nodes.
   It has seven windows: the node-feature tile h and the aggregated-neighbour tile agg (4000 rows of 165 features
   each), the first weight matrix Wa (165×128), its bias ba (1×128), the second weight matrix Wb (128×128), its
   bias bb (1×128), and the output tile (4000×128). A window's BLOCK at a point is the part of its array the point's
   index map names, read off the array as the layer finds it: for h, agg and the output the t-th tile of 4000 rows,
   for the weights and biases the whole array at every point (their index never moves, so although they are fetched
   at the first point only, the staging buffer holds the block at every point).

   The body reads the six input blocks whole, reads the output buffer (a value it never uses) and stores ONE whole
   tile: relu(relu((h + agg)·Wa + ba)·Wb + bb), the sums and maxima in f32 and both matrix products on operands
   rounded to bf16 — the payload `k0_pay1` of the six blocks. So after the body each input buffer holds its block
   as before and the output buffer holds the payload of the six input blocks (`out0_6_eq`). For the proof data
   `dat0` that says so, `body_obligation0` is the pipeline's obligation at every point: the invariant and what
   the core owes pass through the body untouched. -/
import proofs.«115216_j652835029484_1_alg».proof.Proof.KI.Defs0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the layer's buffer contents when it is entered: the parameter everything below is stated at
variable (V : (c : Dev nD) → (b : Ref sig .tc) → Buf (Elt F) ((c : Thread nD τ).loc b))

/-! ## The input windows' staging buffers hold their blocks -/

/-- Input window 0's current staging buffer holds its block at every point, fetched there or not (a window fetched
    once keeps a block whose index never moves), for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window fetched
    once keeps a block whose index never moves), for any proof data whose array is `V`'s and whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window fetched
    once keeps a block whose index never moves), for any proof data whose array is `V`'s and whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a window fetched
    once keeps a block whose index never moves), for any proof data whose array is `V`'s and whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (a window fetched
    once keeps a block whose index never moves), for any proof data whose array is `V`'s and whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (a window fetched
    once keeps a block whose index never moves), for any proof data whose array is `V`'s and whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The offsets of every access are zero. -/
theorem zeros0 : (![0, 0] : Fin 2 → Nat) = fun _ => 0 := funext fun a => by fin_cases a <;> rfl

/-- A whole-buffer load reads the contents and one whole-buffer store leaves its payload: the output buffer holds
    the payload of the six blocks. -/
theorem out0_6_eq (x0 x1 : Vec F S4000x165 .f32) (x2 : Vec F S165x128 .f32) (x3 : Vec F S1x128 .f32) (x4 : Vec F S128x128 .f32) (x5 : Vec F S1x128 .f32) : out0_6 x0 x1 x2 x3 x4 x5 = k0_pay1 x0 x1 x2 x3 x4 x5 := by
  unfold out0_6
  rw [View.canon_unit_zero (S := S4000x128) zeros0]
  simp only [View.ld_unit_zero (S := S4000x165) zeros0, View.ld_unit_zero (S := S165x128) zeros0, View.ld_unit_zero (S := S1x128) zeros0,
    View.ld_unit_zero (S := S128x128) zeros0]

/-- The store's rectangle is the whole buffer, so it covers it. -/
theorem cover0_6 (p0 : Vec F S4000x128 .f32) (y : S4000x128.Idx) :
    ∃ pc ∈ ([⟨rO0, p0⟩] : List (View.Piece (Elt F) S4000x128 .f32)), y ∈ pc.1.set :=
  ⟨_, List.mem_singleton_self _, View.mem_set_unit_zero (S := S4000x128) zeros0 inb_S4000x128_S4000x128_0_0 y⟩

/-! ## The body's triple -/

set_option maxHeartbeats 4000000 in
/-- The body on whole staging memrefs, the six inputs' at read contents `x0 … x5` and the output's at anything, runs to
    the continuation holding the inputs' as they were and the output's at `out0_6` of the inputs'. -/
theorem sound_kernel0 (c : Dev nD) (E : Set ℕ) (i : grid0.Coords)
    (arg1 : Memref sig .tc .vmem S4000x165 .f32) (harg1 : arg1.IsWhole)
    (arg2 : Memref sig .tc .vmem S4000x165 .f32) (harg2 : arg2.IsWhole)
    (arg3 : Memref sig .tc .vmem S165x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S4000x128 .f32) (harg7 : arg7.IsWhole)
    (x0 x1 : Vec F S4000x165 .f32) (x2 : Vec F S165x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__ginconv_mlp_kernel i arg1 harg1 arg2 harg2 arg3 harg3 arg4 harg4 arg5 harg5 arg6 harg6 arg7 harg7) K := by
  simp only [cc0__ginconv_mlp_kernel_eq_skeleton]; unfold cc0__ginconv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The input windows at the proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegA1.lean ====
/- The body obligation of layer 1's fused two-layer perceptron, at any float instance.

   The layer runs over a grid of 25 points; point t works on rows 4000·t … 4000·t + 3999 of the 100000 nodes.
   It has seven windows: the node-feature tile h and the aggregated-neighbour tile agg (4000 rows of 128 features
   each), the first weight matrix Wa (128×128), its bias ba (1×128), the second weight matrix Wb (128×128), its
   bias bb (1×128), and the output tile (4000×128). A window's BLOCK at a point is the part of its array the point's
   index map names, read off the array as the layer finds it: for h, agg and the output the t-th tile of 4000 rows,
   for the weights and biases the whole array at every point (their index never moves, so although they are fetched
   at the first point only, the staging buffer holds the block at every point).

   The body reads the six input blocks whole, reads the output buffer (a value it never uses) and stores ONE whole
   tile: relu(relu((h + agg)·Wa + ba)·Wb + bb), the sums and maxima in f32 and both matrix products on operands
   rounded to bf16 — the payload `k1_pay1` of the six blocks. So after the body each input buffer holds its block
   as before and the output buffer holds the payload of the six input blocks (`out1_6_eq`). For the proof data
   `dat1` that says so, `body_obligation1` is the pipeline's obligation at every point: the invariant and what
   the core owes pass through the body untouched. -/
import proofs.«115216_j652835029484_1_alg».proof.Proof.KI.Defs1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the layer's buffer contents when it is entered: the parameter everything below is stated at
variable (V : (c : Dev nD) → (b : Ref sig .tc) → Buf (Elt F) ((c : Thread nD τ).loc b))

/-! ## The input windows' staging buffers hold their blocks -/

/-- Input window 0's current staging buffer holds its block at every point, fetched there or not (a window fetched
    once keeps a block whose index never moves), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a window fetched
    once keeps a block whose index never moves), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a window fetched
    once keeps a block whose index never moves), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (a window fetched
    once keeps a block whose index never moves), for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (a window fetched
    once keeps a block whose index never moves), for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (a window fetched
    once keeps a block whose index never moves), for any proof data whose array is `V`'s and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The offsets of every access are zero. -/
theorem zeros1 : (![0, 0] : Fin 2 → Nat) = fun _ => 0 := funext fun a => by fin_cases a <;> rfl

/-- A whole-buffer load reads the contents and one whole-buffer store leaves its payload: the output buffer holds
    the payload of the six blocks. -/
theorem out1_6_eq (x0 x1 : Vec F S4000x128 .f32) (x2 : Vec F S128x128 .f32) (x3 : Vec F S1x128 .f32) (x4 : Vec F S128x128 .f32) (x5 : Vec F S1x128 .f32) : out1_6 x0 x1 x2 x3 x4 x5 = k1_pay1 x0 x1 x2 x3 x4 x5 := by
  unfold out1_6
  rw [View.canon_unit_zero (S := S4000x128) zeros1]
  simp only [View.ld_unit_zero (S := S4000x128) zeros1, View.ld_unit_zero (S := S128x128) zeros1, View.ld_unit_zero (S := S1x128) zeros1,
    View.ld_unit_zero (S := S128x128) zeros1]

/-- The store's rectangle is the whole buffer, so it covers it. -/
theorem cover1_6 (p0 : Vec F S4000x128 .f32) (y : S4000x128.Idx) :
    ∃ pc ∈ ([⟨rO1, p0⟩] : List (View.Piece (Elt F) S4000x128 .f32)), y ∈ pc.1.set :=
  ⟨_, List.mem_singleton_self _, View.mem_set_unit_zero (S := S4000x128) zeros1 inb_S4000x128_S4000x128_0_0 y⟩

/-! ## The body's triple -/

set_option maxHeartbeats 4000000 in
/-- The body on whole staging memrefs, the six inputs' at read contents `x0 … x5` and the output's at anything, runs to
    the continuation holding the inputs' as they were and the output's at `out1_6` of the inputs'. -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S4000x128 .f32) (harg7 : arg7.IsWhole)
    (x0 x1 : Vec F S4000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__ginconv_mlp_kernel i arg1 harg1 arg2 harg2 arg3 harg3 arg4 harg4 arg5 harg5 arg6 harg6 arg7 harg7) K := by
  simp only [cc1__ginconv_mlp_kernel_eq_skeleton]; unfold cc1__ginconv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The input windows at the proof data -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegA2.lean ====
/- The body obligation of layer 2's fused two-layer perceptron, at any float instance.

   The layer runs over a grid of 25 points; point t works on rows 4000·t … 4000·t + 3999 of the 100000 nodes.
   It has seven windows: the node-feature tile h and the aggregated-neighbour tile agg (4000 rows of 128 features
   each), the first weight matrix Wa (128×128), its bias ba (1×128), the second weight matrix Wb (128×128), its
   bias bb (1×128), and the output tile (4000×128). A window's BLOCK at a point is the part of its array the point's
   index map names, read off the array as the layer finds it: for h, agg and the output the t-th tile of 4000 rows,
   for the weights and biases the whole array at every point (their index never moves, so although they are fetched
   at the first point only, the staging buffer holds the block at every point).

   The body reads the six input blocks whole, reads the output buffer (a value it never uses) and stores ONE whole
   tile: relu(relu((h + agg)·Wa + ba)·Wb + bb), the sums and maxima in f32 and both matrix products on operands
   rounded to bf16 — the payload `k2_pay1` of the six blocks. So after the body each input buffer holds its block
   as before and the output buffer holds the payload of the six input blocks (`out2_6_eq`). For the proof data
   `dat2` that says so, `body_obligation2` is the pipeline's obligation at every point: the invariant and what
   the core owes pass through the body untouched. -/
import proofs.«115216_j652835029484_1_alg».proof.Proof.KI.Defs2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the layer's buffer contents when it is entered: the parameter everything below is stated at
variable (V : (c : Dev nD) → (b : Ref sig .tc) → Buf (Elt F) ((c : Thread nD τ).loc b))

/-! ## The input windows' staging buffers hold their blocks -/

/-- Input window 0's current staging buffer holds its block at every point, fetched there or not (a window fetched
    once keeps a block whose index never moves), for any proof data whose array is `V`'s and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window fetched
    once keeps a block whose index never moves), for any proof data whose array is `V`'s and whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window fetched
    once keeps a block whose index never moves), for any proof data whose array is `V`'s and whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window fetched
    once keeps a block whose index never moves), for any proof data whose array is `V`'s and whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window fetched
    once keeps a block whose index never moves), for any proof data whose array is `V`'s and whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (a window fetched
    once keeps a block whose index never moves), for any proof data whose array is `V`'s and whose body leaves the
    block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The offsets of every access are zero. -/
theorem zeros2 : (![0, 0] : Fin 2 → Nat) = fun _ => 0 := funext fun a => by fin_cases a <;> rfl

/-- A whole-buffer load reads the contents and one whole-buffer store leaves its payload: the output buffer holds
    the payload of the six blocks. -/
theorem out2_6_eq (x0 x1 : Vec F S4000x128 .f32) (x2 : Vec F S128x128 .f32) (x3 : Vec F S1x128 .f32) (x4 : Vec F S128x128 .f32) (x5 : Vec F S1x128 .f32) : out2_6 x0 x1 x2 x3 x4 x5 = k2_pay1 x0 x1 x2 x3 x4 x5 := by
  unfold out2_6
  rw [View.canon_unit_zero (S := S4000x128) zeros2]
  simp only [View.ld_unit_zero (S := S4000x128) zeros2, View.ld_unit_zero (S := S128x128) zeros2, View.ld_unit_zero (S := S1x128) zeros2,
    View.ld_unit_zero (S := S128x128) zeros2]

/-- The store's rectangle is the whole buffer, so it covers it. -/
theorem cover2_6 (p0 : Vec F S4000x128 .f32) (y : S4000x128.Idx) :
    ∃ pc ∈ ([⟨rO2, p0⟩] : List (View.Piece (Elt F) S4000x128 .f32)), y ∈ pc.1.set :=
  ⟨_, List.mem_singleton_self _, View.mem_set_unit_zero (S := S4000x128) zeros2 inb_S4000x128_S4000x128_0_0 y⟩

/-! ## The body's triple -/

set_option maxHeartbeats 4000000 in
/-- The body on whole staging memrefs, the six inputs' at read contents `x0 … x5` and the output's at anything, runs to
    the continuation holding the inputs' as they were and the output's at `out2_6` of the inputs'. -/
theorem sound_kernel2 (c : Dev nD) (E : Set ℕ) (i : grid2.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S4000x128 .f32) (harg7 : arg7.IsWhole)
    (x0 x1 : Vec F S4000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__ginconv_mlp_kernel i arg1 harg1 arg2 harg2 arg3 harg3 arg4 harg4 arg5 harg5 arg6 harg6 arg7 harg7) K := by
  simp only [cc2__ginconv_mlp_kernel_eq_skeleton]; unfold cc2__ginconv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The input windows at the proof data -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RegR3.lean ====
/-
  Region 3, the body: the mean over the nodes, tile by tile. The two conditionals of the body are decided in closed
  form over the 25 tiles (the first holds at tile 0 only, the second at tile 24 only); the body is run once per case —
  first tile, a tile in between, last tile — on any whole memrefs; a store of a whole row makes the buffer read that
  row, and a load of a whole block reads the block, so the scratch after the body at tile `t` is the running sums one
  tile further and, at the last tile, the output row is those sums times the constant. From these: the body obligation
  of the pipeline's proof data, and the invariant's two ends (the scratch leaves the scoped rest on entry and goes back
  on exit).
-/
import proofs.«115216_j652835029484_1_alg».proof.Proof.Gen.KernelIdeal.Launch
import proofs.«115216_j652835029484_1_alg».proof.Proof.Gen.KernelIdeal.Skeleton
import proofs.«115216_j652835029484_1_alg».proof.Proof.Gen.KernelIdeal.Points
import proofs.«115216_j652835029484_1_alg».proof.Proof.KI.Defs3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The branch conditions of the body, in closed form over the grid -/

/-- The first conditional's guard (the tile index is 0), as the body computes it. -/
abbrev cond3_0 (i : grid3.Coords) : Prop := (Scalar.cmpi .ne (Scalar.extui (Scalar.cmpi .eq (BitVec.ofNat 32 (i 0).val) 0#32)) 0#32) = 1#1
/-- It holds at the first tile only. -/
theorem hcond3_0 : ∀ t : Fin cfg3.N, cond3_0 (grid3.coords t) ↔ t.val % 25 = 0 :=
  (by decide +kernel : ∀ t : Fin grid3.N, cond3_0 (grid3.coords t) ↔ t.val % 25 = 0)
/-- The second conditional's guard (the tile index is 24). -/
abbrev cond3_1 (i : grid3.Coords) : Prop := k3_cond2 i = 1#1
/-- It holds at the last tile only. -/
theorem hcond3_1 : ∀ t : Fin cfg3.N, cond3_1 (grid3.coords t) ↔ t.val % 25 = 24 :=
  (by decide +kernel : ∀ t : Fin grid3.N, cond3_1 (grid3.coords t) ↔ t.val % 25 = 24)
/-- The output window is idle exactly off the last tile. -/
theorem hidle3_1 : ∀ t : Fin cfg3.N, cfg3.idle 1 (cfg3.grid.coords t) = !decide (t.val % 25 = 24) :=
  (by decide +kernel : ∀ t : Fin grid3.N, idle3 1 (grid3.coords t) = !decide (t.val % 25 = 24))

/-! ## Whole-block rectangles read and write the block itself -/

/-- The rectangle of the whole scratch row, and of the whole input tile. -/
abbrev rS3 : Rect S1x128 := Rect.unit (s := S1x128) ![0, 0] S1x128.size inb_S1x128_S1x128_0_0
abbrev rT3 : Rect S4000x128 := Rect.unit (s := S4000x128) ![0, 0] S4000x128.size inb_S4000x128_S4000x128_0_0

/-- The whole-row rectangle's index map is the identity. -/
theorem idx_rS3 (x : S1x128.Idx) : rS3.idx x = x := by
  funext a; apply Fin.ext
  show (![0, 0] : Fin 2 → ℕ) a + 1 * (x a : ℕ) = x a
  have h : (![0, 0] : Fin 2 → ℕ) a = 0 := by fin_cases a <;> rfl
  rw [h]; omega

/-- The whole-tile rectangle's index map is the identity. -/
theorem idx_rT3 (x : S4000x128.Idx) : rT3.idx x = x := by
  funext a; apply Fin.ext
  show (![0, 0] : Fin 2 → ℕ) a + 1 * (x a : ℕ) = x a
  have h : (![0, 0] : Fin 2 → ℕ) a = 0 := by fin_cases a <;> rfl
  rw [h]; omega

/-- A load through the whole-tile rectangle reads the tile. -/
theorem ld_rT3 (X : Vec F S4000x128 .f32) : View.ld X rT3 = X := by
  funext x; show X (rT3.idx x) = X x; rw [idx_rT3]

/-- A load through the whole-row rectangle reads the row. -/
theorem ld_rS3 (X : Vec F S1x128 .f32) : View.ld X rS3 = X := by
  funext x; show X (rS3.idx x) = X x; rw [idx_rS3]

/-- After a store of a whole row, whatever was written before, the buffer reads that row. -/
theorem read_writes_rS3 {κ : Kind} {sp : Space} (v : View sig κ sp S1x128 .f32) (f : v.ty.Contents (Elt F)) (w : Vec F S1x128 .f32)
    (L : List (View.Piece (Elt F) S1x128 .f32)) : v.read (Elt F) (v.writes (Elt F) f (⟨rS3, w⟩ :: L)) = w := by
  funext y
  have hy : y ∈ rS3.set := by have := rS3.idx_mem y; rw [idx_rS3] at this; exact this
  have hcov : ∃ p ∈ ((⟨rS3, w⟩ : View.Piece (Elt F) S1x128 .f32) :: L), y ∈ p.1.set := ⟨⟨rS3, w⟩, List.mem_cons_self, hy⟩
  have h1 := View.read_writes_apply_eq_canon v f y (⟨rS3, w⟩ :: L) hcov
  have h := View.canon_cons_emb rS3 w L y
  rw [show rS3.emb y = y from idx_rS3 y] at h
  exact h1.trans h

/-! ## The body on any whole staging memrefs and scratch, case by case -/

set_option maxHeartbeats 1000000 in
/-- The first tile: the scratch, at any contents, is zeroed, then the tile's column sums are added; the output memref is
    not touched. -/
theorem kernelRun3_first (c : Dev nD) (i : grid3.Coords) (arg1 : Memref sig .tc .vmem S4000x128 .f32) (harg1 : arg1.IsWhole)
    (arg2 : Memref sig .tc .vmem S1x128 .f32) (harg2 : arg2.IsWhole) (arg3 : Memref sig .tc .vmem S1x128 .f32) (harg3 : arg3.IsWhole)
    (hc0 : cond3_0 i) (hc1 : ¬cond3_1 i)
    (x0 : Vec F S4000x128 .f32) (x1 : Vec F S1x128 .f32) (E : Set ℕ) (K : PUnit → sProp 𝕄) :
    iprop(owns (c : Thread nD τ) arg1 fullShare x0 ∗ owns (c : Thread nD τ) arg2 fullShare x1 ∗ (∃ s, owns (c : Thread nD τ) arg3 fullShare s)
        ∗ (iprop(owns (c : Thread nD τ) arg1 fullShare x0 ∗ owns (c : Thread nD τ) arg2 fullShare x1
            ∗ owns (c : Thread nD τ) arg3 fullShare (k3_pay2 (k3_pay1 (F := F)) x0)) -∗ K ⟨⟩))
      ⊢ wp frame (wpE (defs₀ (F := F)) Variants.none c none) E (cc3__meanpool_kernel i arg1 harg1 arg2 harg2 arg3 harg3) K := by
  simp only [cc3__meanpool_kernel_eq_skeleton]; unfold cc3__meanpool_kernel_skel
  unfold owns
  iintro ⟨⟨%f0, %hf0, H0⟩, ⟨%f1, %hf1, H1⟩, ⟨%s, %f2, -, H2⟩, Hk⟩
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  unfold kernelRun3_first.sl.v3 kernelRun3_first.sl.H2_1
  rw [read_writes_rS3, View.readCov_cons_toLoadRect, View.readAt_eq_ld, hf0, ld_rT3]

set_option maxHeartbeats 1000000 in
/-- A tile that is neither the first nor the last: the tile's column sums are added to the scratch; the output memref
    is not touched. -/
theorem kernelRun3_mid (c : Dev nD) (i : grid3.Coords) (arg1 : Memref sig .tc .vmem S4000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : ¬cond3_1 i)
    (x0 : Vec F S4000x128 .f32) (x1 : Vec F S1x128 .f32) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1
            ∗ owns (c : Thread nD τ) arg3 fullShare (k3_pay2 a x0)) -∗ K ⟨⟩))
      ⊢ wp frame (wpE (defs₀ (F := F)) Variants.none c none) E (cc3__meanpool_kernel i arg1 harg1 arg2 harg2 arg3 harg3) K := by
  simp only [cc3__meanpool_kernel_eq_skeleton]; unfold cc3__meanpool_kernel_skel
  unfold owns
  iintro ⟨⟨%f0, %hf0, H0⟩, ⟨%f1, %hf1, H1⟩, ⟨%f2, %hf2, H2⟩, Hk⟩
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_writes_rS3, View.readAt_eq_ld, View.readAt_eq_ld, hf2, hf0, ld_rS3, ld_rT3]

set_option maxHeartbeats 1000000 in
/-- The last tile: the tile's column sums are added to the scratch, and the output memref, whatever it held, is left
    at the scratch times the constant. -/
theorem kernelRun3_last (c : Dev nD) (i : grid3.Coords) (arg1 : Memref sig .tc .vmem S4000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : cond3_1 i)
    (x0 : Vec F S4000x128 .f32) (x1 : Vec F S1x128 .f32) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare (k3_pay3 (k3_pay2 a x0))
            ∗ owns (c : Thread nD τ) arg3 fullShare (k3_pay2 a x0)) -∗ K ⟨⟩))
      ⊢ wp frame (wpE (defs₀ (F := F)) Variants.none c none) E (cc3__meanpool_kernel i arg1 harg1 arg2 harg2 arg3 harg3) K := by
  simp only [cc3__meanpool_kernel_eq_skeleton]; unfold cc3__meanpool_kernel_skel
  unfold owns
  iintro ⟨⟨%f0, %hf0, H0⟩, ⟨%f1, %hf1, H1⟩, ⟨%f2, %hf2, H2⟩, Hk⟩
  sl_exec (disch := first | exact hc0 | exact hc1)
  sl_step
  iapply Hk
  isplitl [H0]
  · iexists _; isplitr; · ipureintro; exact hf0
    iexact H0
  isplitl [H1]
  · iexists _; isplitr
    swap; · iexact H1
    ipureintro
    unfold kernelRun3_last.sl.v15 kernelRun3_last.sl.H2_1
    rw [read_writes_rS3, View.readCov_cons_toLoadRect, View.readAt_eq_ld, View.readAt_eq_ld, hf2, hf0, ld_rS3, ld_rT3]
  iexists _; isplitr
  swap; · iexact H2
  ipureintro
  unfold kernelRun3_last.sl.H2_1
  rw [read_writes_rS3, View.readAt_eq_ld, View.readAt_eq_ld, hf2, hf0, ld_rS3, ld_rT3]

/-! ## What the body finds and leaves, window by window -/

/-- The input window's current staging buffer holds its tile at every point (it is fetched at every point). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Off the last tile the output window is idle and not written back: the body hands its buffer back as found. -/
theorem leaves3_1_idle (c : Dev nD) (t : Fin cfg3.N) (h : ¬t.val % 25 = 24) :
    ((dat3 V c).leavesExact 1 t : sProp 𝕄)
      = iprop(∃ d, owns (c : Thread nD τ) ((cfg3.win 1).stage (cfg3.slots t 1)) fullShare ((dat3 V c).before 1 t d)) :=
  (dat3 V c).leavesExact_idle 1 t (by rw [hidle3_1 t, decide_eq_false h]; rfl)
    (Bool.eq_false_iff.mpr fun hf => h ((flush3_1 t).mp hf))

/-- At the last tile the output window is live: the body leaves the scaled sums there. -/
theorem leaves3_1_last (c : Dev nD) (t : Fin cfg3.N) (h : t.val % 25 = 24) :
    ((dat3 V c).leavesExact 1 t : sProp 𝕄)
      = owns (c : Thread nD τ) ((cfg3.win 1).stage (cfg3.slots t 1)) fullShare (k3_pay3 (acc3 V c (t.val + 1))) := by
  unfold Dat.leavesExact
  rw [show cfg3.idle 1 (cfg3.grid.coords t) = false by rw [hidle3_1 t, decide_eq_true h]; rfl, after3_1]

/-- The invariant before the first tile: the scratch whole at some contents. -/
theorem Φ3_first (c : Dev nD) (n : Fin (cfg3.N + 1)) (h : n.val = 0) :
    Φ3 V c n = iprop((∃ f : Buf (Elt F) ((c : Thread nD τ).loc cc3_scratch0), ((c : Thread nD τ).loc cc3_scratch0) ↦{fullShare} f)
      ∗ Pipeline.scopedRestBut (Ix := Unit) (Name := ℕ) (U := UR sig nD τ) (Lvl := ℕ) (Val := Elt F) spec3 c [cc3_scratch0]
      ∗ ∃ r, prngReg c r) := by
  unfold Φ3; rw [h]

/-- The invariant after at least one tile: the scratch at the running sums. -/
theorem Φ3_later (c : Dev nD) (n : Fin (cfg3.N + 1)) (h : n.val ≠ 0) :
    Φ3 V c n = iprop(owns (c : Thread nD τ) scr3 fullShare (acc3 V c n.val)
      ∗ Pipeline.scopedRestBut (Ix := Unit) (Name := ℕ) (U := UR sig nD τ) (Lvl := ℕ) (Val := Elt F) spec3 c [cc3_scratch0]
      ∗ ∃ r, prngReg c r) := by
  obtain ⟨k, hk⟩ := Nat.exists_eq_succ_of_ne_zero h
  unfold Φ3; rw [hk]

/-- The scratch owned whole at contents `X` is its buffer's points-to at `X`. -/
theorem scr3_eq (c : Dev nD) (X : Vec F S1x128 .f32) :
    (owns (c : Thread nD τ) scr3 fullShare X : sProp 𝕄) = ((c : Thread nD τ).loc cc3_scratch0) ↦{fullShare} X :=
  owns_whole (c : Thread nD τ) cc3_scratch0 fullShare X

/-! ## The body obligation -/

set_option maxHeartbeats 1000000 in
/-- The body at any tile: the closed forms say which case the tile is in; the input's memref holds its tile; the
    scratch is taken from the invariant — at any contents before the first tile, at the running sums after — and handed
    back one tile further; the output's memref is handed back as found off the last tile and left at the scaled sums at
    the last; the core owes nothing throughout. -/
theorem sound_body3 (c : Dev nD) (t : Fin cfg3.N) :
    iprop((dat3 V c).Φ t.castSucc ∗ (dat3 V c).owesAt () t.castSucc
        ∗ (∃ d, owns (c : Thread nD τ) (win3_0.stage (cfg3.slots t 0)) fullShare ((dat3 V c).before 0 t d))
        ∗ (∃ d, owns (c : Thread nD τ) (win3_1.stage (cfg3.slots t 1)) fullShare ((dat3 V c).before 1 t d)))
      ⊢ wp frame (wpE (defs₀ (F := F)) Variants.none c none) Set.univ (bodyAt3 t) (fun _ =>
          iprop((dat3 V c).Φ t.succ ∗ (dat3 V c).owesAt () t.succ
            ∗ owns (c : Thread nD τ) (win3_0.stage (cfg3.slots t 0)) fullShare ((dat3 V c).after 0 t)
            ∗ (dat3 V c).leavesExact 1 t)) := by
  unfold bodyAt3
  simp only [before3_0, Φ3_eq, after3_0]
  have hN : t.val < 25 := lt_of_lt_of_eq t.isLt (show cfg3.N = 25 from N_3)
  have hs : (t.succ : Fin (cfg3.N + 1)).val ≠ 0 := by rw [Fin.val_succ]; omega
  rw [Φ3_later V c t.succ hs, Fin.val_succ, acc3_succ V c t,
    show (dat3 V c).owesAt () t.succ = (dat3 V c).owesAt () t.castSucc from rfl]
  by_cases h0 : t.val % 25 = 0
  · have ht : t.val = 0 := by omega
    have h1 : ¬t.val % 25 = 24 := by omega
    have hc0 : cond3_0 (grid3.coords t) := (hcond3_0 t).mpr h0
    have hc1 : ¬cond3_1 (grid3.coords t) := fun h => h1 ((hcond3_1 t).mp h)
    have ha : acc3 V c t.val = k3_pay1 (F := F) := by rw [ht]; exact acc3_zero V c
    rw [Φ3_first V c t.castSucc (by rw [Fin.val_castSucc]; exact ht), leaves3_1_idle V c t h1, ha]
    iintro ⟨⟨⟨%f, Hs⟩, HR, HP⟩, Ho, ⟨%d0, H0⟩, ⟨%d1, H1⟩⟩
    iapply (kernelRun3_first c (grid3.coords t) _ _ _ _ _ _ hc0 hc1 (iblk3 V c 0 t) _ Set.univ _)
    isplitl [H0]; · iexact H0
    isplitl [H1]; · iexact H1
    isplitl [Hs]
    · iexists f; rw [scr3_eq]; iexact Hs
    iintro ⟨H0, H1, Hs⟩
    isplitl [Hs HR HP]
    · isplitl [Hs]; · iexact Hs
      isplitl [HR]; · iexact HR
      iexact HP
    isplitl [Ho]; · iexact Ho
    isplitl [H0]; · iexact H0
    iexists d1; iexact H1
  · have hc0 : ¬cond3_0 (grid3.coords t) := fun h => h0 ((hcond3_0 t).mp h)
    have ht : (t.castSucc : Fin (cfg3.N + 1)).val ≠ 0 := by rw [Fin.val_castSucc]; omega
    rw [Φ3_later V c t.castSucc ht, Fin.val_castSucc]
    by_cases h1 : t.val % 25 = 24
    · have hc1 : cond3_1 (grid3.coords t) := (hcond3_1 t).mpr h1
      rw [leaves3_1_last V c t h1, acc3_succ V c t]
      iintro ⟨⟨Hs, HR, HP⟩, Ho, ⟨%d0, H0⟩, ⟨%d1, H1⟩⟩
      iapply (kernelRun3_last c (grid3.coords t) _ _ _ _ _ _ hc0 hc1 (iblk3 V c 0 t) _ (acc3 V c t.val) Set.univ _)
      isplitl [H0]; · iexact H0
      isplitl [H1]; · iexact H1
      isplitl [Hs]; · iexact Hs
      iintro ⟨H0, H1, Hs⟩
      isplitl [Hs HR HP]
      · isplitl [Hs]; · iexact Hs
        isplitl [HR]; · iexact HR
        iexact HP
      isplitl [Ho]; · iexact Ho
      isplitl [H0]; · iexact H0
      iexact H1
    · have hc1 : ¬cond3_1 (grid3.coords t) := fun h => h1 ((hcond3_1 t).mp h)
      rw [leaves3_1_idle V c t h1]
      iintro ⟨⟨Hs, HR, HP⟩, Ho, ⟨%d0, H0⟩, ⟨%d1, H1⟩⟩
      iapply (kernelRun3_mid c (grid3.coords t) _ _ _ _ _ _ hc0 hc1 (iblk3 V c 0 t) _ (acc3 V c t.val) Set.univ _)
      isplitl [H0]; · iexact H0
      isplitl [H1]; · iexact H1
      isplitl [Hs]; · iexact Hs
      iintro ⟨H0, H1, Hs⟩
      isplitl [Hs HR HP]
      · isplitl [Hs]; · iexact Hs
        isplitl [HR]; · iexact HR
        iexact HP
      isplitl [Ho]; · iexact Ho
      isplitl [H0]; · iexact H0
      iexists d1; iexact H1

/-- The library's body obligation, at every tile. -/
theorem body_obligation3 (c : Dev nD) : BodyObligation (dat3 (F := F) V c) (defs₀ (F := F)) Variants.none () Set.univ := fun t => by
  rw [bigSep_W3, bigSep_W3]
  exact sound_body3 V c t

/-! ## The invariant at the two ends -/

/-- Entering the region: the scoped rest, split at the scratch, and the generator register are the invariant before
    the first tile. -/
theorem hin3 (c : Dev nD) : iprop((∃ r, prngReg c r) ∗ Pipeline.scopedRest spec3 c) ⊢ ((dat3 V c).Φ 0 : sProp 𝕄) := by
  rw [Φ3_eq, Φ3_first V c 0 (Fin.val_zero _), scopedRest3_split]
  iintro ⟨HP, Hs, HR⟩
  isplitl [Hs]; · iexact Hs
  isplitl [HR]; · iexact HR
  iexact HP

/-- Leaving the region: the scratch, at the sums over all tiles, goes back into the scoped rest at some contents. -/
theorem hout3 (c : Dev nD) : ((dat3 V c).Φ (Fin.last cfg3.N) : sProp 𝕄) ⊢ iprop((∃ r, prngReg c r) ∗ Pipeline.scopedRest spec3 c) := by
  have hN : cfg3.N = 25 := N_3
  rw [Φ3_eq, Φ3_later V c (Fin.last cfg3.N) (by rw [Fin.val_last]; omega), scopedRest3_split, scr3_eq]
  iintro ⟨Hs, HR, HP⟩
  isplitl [HP]; · iexact HP
  isplitl [Hs]; · iexists _; iexact Hs
  iexact HR

end Cert.KernelIdeal.Hand

end
-- ==== Proof.K.Defs0.lean ====
/-
  Region 0: one fused layer update, tile by tile. The node axis is cut into 25 tiles of 4000 rows; at tile `t` the
  body reads rows `4000·t … 4000·t + 3999` of the features and of the neighbour sums, the two weight matrices and the
  two bias rows whole, and leaves in the output tile `relu (relu ((h + agg) · Wa + ba) · Wb + bb)` of those rows.
  Here: each window's block at a tile, what the body leaves in the output tile as a function of the six input blocks,
  and the proof data of the pipeline built from them.
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S4000x165 := Rect.unit (s := S4000x165) ![0, 0] S4000x165.size inb_S4000x165_S4000x165_0_0
abbrev rWa0 : Rect S165x128 := Rect.unit (s := S165x128) ![0, 0] S165x128.size inb_S165x128_S165x128_0_0
abbrev rWb0 : Rect S128x128 := Rect.unit (s := S128x128) ![0, 0] S128x128.size inb_S128x128_S128x128_0_0
abbrev rB0 : Rect S1x128 := Rect.unit (s := S1x128) ![0, 0] S1x128.size inb_S1x128_S1x128_0_0
abbrev rO0 : Rect S4000x128 := Rect.unit (s := S4000x128) ![0, 0] S4000x128.size inb_S4000x128_S4000x128_0_0

/-- What the body leaves in the output tile, from the six input blocks: its one store, of the whole tile. -/
def out0_6 (x0 x1 : Vec F S4000x165 .f32) (x2 : Vec F S165x128 .f32) (x3 : Vec F S1x128 .f32) (x4 : Vec F S128x128 .f32) (x5 : Vec F S1x128 .f32) :
    Vec F S4000x128 .f32 :=
  View.canon [⟨rO0, k0_pay1 (View.ld x0 rX0) (View.ld x1 rX0) (View.ld x2 rWa0) (View.ld x3 rB0) (View.ld x4 rWb0) (View.ld x5 rB0)⟩]

/-- The proof data of the pipeline on core `c`: the arrays as the region finds them; after the body at tile `t` each
    input's buffer at its block and the output's at `out0_6` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by
  dsimp only [dat0]

end Cert.Kernel.Hand

end
-- ==== Proof.K.Defs1.lean ====
/-
  Region 1: one fused layer update, tile by tile. The node axis is cut into 25 tiles of 4000 rows; at tile `t` the
  body reads rows `4000·t … 4000·t + 3999` of the features and of the neighbour sums, the two weight matrices and the
  two bias rows whole, and leaves in the output tile `relu (relu ((h + agg) · Wa + ba) · Wb + bb)` of those rows.
  Here: each window's block at a tile, what the body leaves in the output tile as a function of the six input blocks,
  and the proof data of the pipeline built from them.
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rX1 : Rect S4000x128 := Rect.unit (s := S4000x128) ![0, 0] S4000x128.size inb_S4000x128_S4000x128_0_0
abbrev rWa1 : Rect S128x128 := Rect.unit (s := S128x128) ![0, 0] S128x128.size inb_S128x128_S128x128_0_0
abbrev rWb1 : Rect S128x128 := Rect.unit (s := S128x128) ![0, 0] S128x128.size inb_S128x128_S128x128_0_0
abbrev rB1 : Rect S1x128 := Rect.unit (s := S1x128) ![0, 0] S1x128.size inb_S1x128_S1x128_0_0
abbrev rO1 : Rect S4000x128 := Rect.unit (s := S4000x128) ![0, 0] S4000x128.size inb_S4000x128_S4000x128_0_0

/-- What the body leaves in the output tile, from the six input blocks: its one store, of the whole tile. -/
def out1_6 (x0 x1 : Vec F S4000x128 .f32) (x2 : Vec F S128x128 .f32) (x3 : Vec F S1x128 .f32) (x4 : Vec F S128x128 .f32) (x5 : Vec F S1x128 .f32) :
    Vec F S4000x128 .f32 :=
  View.canon [⟨rO1, k1_pay1 (View.ld x0 rX1) (View.ld x1 rX1) (View.ld x2 rWa1) (View.ld x3 rB1) (View.ld x4 rWb1) (View.ld x5 rB1)⟩]

/-- The proof data of the pipeline on core `c`: the arrays as the region finds them; after the body at tile `t` each
    input's buffer at its block and the output's at `out1_6` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

end Cert.Kernel.Hand

end
-- ==== Proof.K.Defs2.lean ====
/-
  Region 2: one fused layer update, tile by tile. The node axis is cut into 25 tiles of 4000 rows; at tile `t` the
  body reads rows `4000·t … 4000·t + 3999` of the features and of the neighbour sums, the two weight matrices and the
  two bias rows whole, and leaves in the output tile `relu (relu ((h + agg) · Wa + ba) · Wb + bb)` of those rows.
  Here: each window's block at a tile, what the body leaves in the output tile as a function of the six input blocks,
  and the proof data of the pipeline built from them.
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rX2 : Rect S4000x128 := Rect.unit (s := S4000x128) ![0, 0] S4000x128.size inb_S4000x128_S4000x128_0_0
abbrev rWa2 : Rect S128x128 := Rect.unit (s := S128x128) ![0, 0] S128x128.size inb_S128x128_S128x128_0_0
abbrev rWb2 : Rect S128x128 := Rect.unit (s := S128x128) ![0, 0] S128x128.size inb_S128x128_S128x128_0_0
abbrev rB2 : Rect S1x128 := Rect.unit (s := S1x128) ![0, 0] S1x128.size inb_S1x128_S1x128_0_0
abbrev rO2 : Rect S4000x128 := Rect.unit (s := S4000x128) ![0, 0] S4000x128.size inb_S4000x128_S4000x128_0_0

/-- What the body leaves in the output tile, from the six input blocks: its one store, of the whole tile. -/
def out2_6 (x0 x1 : Vec F S4000x128 .f32) (x2 : Vec F S128x128 .f32) (x3 : Vec F S1x128 .f32) (x4 : Vec F S128x128 .f32) (x5 : Vec F S1x128 .f32) :
    Vec F S4000x128 .f32 :=
  View.canon [⟨rO2, k2_pay1 (View.ld x0 rX2) (View.ld x1 rX2) (View.ld x2 rWa2) (View.ld x3 rB2) (View.ld x4 rWb2) (View.ld x5 rB2)⟩]

/-- The proof data of the pipeline on core `c`: the arrays as the region finds them; after the body at tile `t` each
    input's buffer at its block and the output's at `out2_6` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

end Cert.Kernel.Hand

end
-- ==== Proof.K.Defs3.lean ====
/-
  Region 3: the mean over the nodes, tile by tile. A one-row scratch is zeroed at the first tile; at every tile the
  column sums of the tile's 4000 rows are added to it; at the last tile the output row is the scratch times the
  constant that stands for 1/100000. Here: the input window's block at a tile, the scratch after `n` tiles, and the
  proof data of the pipeline — its invariant carries the scratch from tile to tile.
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch row after `n` tiles: the zero row, then one tile's column sums added per tile. -/
def acc3 (c : Dev nD) : ℕ → Vec F S1x128 .f32
  | 0 => k3_pay1 (F := F)
  | n + 1 => if h : n < cfg3.N then k3_pay2 (acc3 c n) (iblk3 V c 0 ⟨n, h⟩) else acc3 c n

theorem acc3_zero (c : Dev nD) : acc3 V c 0 = k3_pay1 (F := F) := rfl

theorem acc3_succ (c : Dev nD) (t : Fin cfg3.N) : acc3 V c (t.val + 1) = k3_pay2 (acc3 V c t.val) (iblk3 V c 0 t) := by
  show (if h : t.val < cfg3.N then k3_pay2 (acc3 V c t.val) (iblk3 V c 0 ⟨t.val, h⟩) else acc3 V c t.val) = _
  rw [dif_pos t.isLt]

/-- The scratch operand, a whole scoped buffer. -/
abbrev scr3 : Memref sig .tc .vmem S1x128 .f32 := Memref.whole cc3_scratch0

/-- The region's invariant before tile `n`: the scratch — at some contents before the first tile, at the running sums
    after it —, the other scoped buffers the pipeline does not stage, and the generator register. -/
def Φ3 (c : Dev nD) (n : Fin (cfg3.N + 1)) : sProp 𝕄 :=
  iprop((match n.val with
      | 0 => iprop(∃ f : Buf (Elt F) ((c : Thread nD τ).loc cc3_scratch0), ((c : Thread nD τ).loc cc3_scratch0) ↦{fullShare} f)
      | k + 1 => owns (c : Thread nD τ) scr3 fullShare (acc3 V c (k + 1)))
    ∗ Pipeline.scopedRestBut (Ix := Unit) (Name := ℕ) (U := UR sig nD τ) (Lvl := ℕ) (Val := Elt F) spec3 c [cc3_scratch0]
    ∗ ∃ r, prngReg c r)

/-- The proof data of the pipeline on core `c`: the arrays as the region finds them; after the body at tile `t` the
    input's buffer at its block and the output's — asked for at the last tile only — at the scaled running sums;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => k3_pay3 (acc3 V c (t.val + 1))
  Φ n := Φ3 V c n
  q _ := fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = k3_pay3 (acc3 V c (t.val + 1)) := by dsimp only [dat3]
theorem Φ3_eq (c : Dev nD) (n : Fin (cfg3.N + 1)) : (dat3 V c).Φ n = Φ3 V c n := by dsimp only [dat3]

end Cert.Kernel.Hand

end
-- ==== Proof.K.Fold.lean ====
/-
  What every buffer holds at each boundary between a stretch of host operations and a kernel region, folded from the
  launch memory: a host stretch applies its operations; a region overwrites its output array tile by tile and leaves
  every other buffer alone.
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115216_j652835029484_1_alg».proof.Proof.Gen.Kernel.Regions
import proofs.«115216_j652835029484_1_alg».proof.Proof.K.Defs0
import proofs.«115216_j652835029484_1_alg».proof.Proof.K.Defs1
import proofs.«115216_j652835029484_1_alg».proof.Proof.K.Defs2
import proofs.«115216_j652835029484_1_alg».proof.Proof.K.Defs3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded
    in tile order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs folded
    in tile order), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs folded
    in tile order), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, the output's write-backs folded
    in tile order), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the last host stretch: the end. -/
abbrev W8 : Dev nD → Valuation τ sig (Elt F) := fun c => StableHlo.after hostOps4 (W7 m ρ c)

end Cert.Kernel.Hand

end
-- ==== Proof.K.Run.lean ====
/-
  The run of the whole program: what every buffer holds at each boundary between a stretch of host operations and a
  kernel region, folded from the launch memory (a host stretch applies its operations; a region overwrites its output
  array tile by tile and leaves every other buffer alone), the four regions as segments between those boundaries, and
  the conclusion: every weakly fair execution terminates, nothing faults, and at the end every buffer the program
  does not scope holds the last boundary's contents.
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115216_j652835029484_1_alg».proof.Proof.Gen.Kernel.Regions
import proofs.«115216_j652835029484_1_alg».proof.Proof.K.Defs0
import proofs.«115216_j652835029484_1_alg».proof.Proof.K.Defs1
import proofs.«115216_j652835029484_1_alg».proof.Proof.K.Defs2
import proofs.«115216_j652835029484_1_alg».proof.Proof.K.Defs3
import proofs.«115216_j652835029484_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the run asks of the four kernels: each region's body obligation over its proof data, at any entry contents,
    and region 3's invariant made from, and giving back, the scoped buffers and the generator register. -/
structure Obl : Prop where
  hb0 : ∀ (V : (c : Dev nD) → (b : Ref sig .tc) → Buf (Elt F) ((c : Thread nD τ).loc b)) (c : Dev nD),
    BodyObligation (dat0 (F := F) V c) (defs₀ (F := F)) Variants.none () Set.univ
  hb1 : ∀ (V : (c : Dev nD) → (b : Ref sig .tc) → Buf (Elt F) ((c : Thread nD τ).loc b)) (c : Dev nD),
    BodyObligation (dat1 (F := F) V c) (defs₀ (F := F)) Variants.none () Set.univ
  hb2 : ∀ (V : (c : Dev nD) → (b : Ref sig .tc) → Buf (Elt F) ((c : Thread nD τ).loc b)) (c : Dev nD),
    BodyObligation (dat2 (F := F) V c) (defs₀ (F := F)) Variants.none () Set.univ
  hb3 : ∀ (V : (c : Dev nD) → (b : Ref sig .tc) → Buf (Elt F) ((c : Thread nD τ).loc b)) (c : Dev nD),
    BodyObligation (dat3 (F := F) V c) (defs₀ (F := F)) Variants.none () Set.univ
  hin3 : ∀ (V : (c : Dev nD) → (b : Ref sig .tc) → Buf (Elt F) ((c : Thread nD τ).loc b)) (c : Dev nD),
    iprop((∃ r, prngReg c r) ∗ Pipeline.scopedRest spec3 c) ⊢ ((dat3 V c).Φ 0 : sProp 𝕄)
  hout3 : ∀ (V : (c : Dev nD) → (b : Ref sig .tc) → Buf (Elt F) ((c : Thread nD τ).loc b)) (c : Dev nD),
    ((dat3 V c).Φ (Fin.last cfg3.N) : sProp 𝕄) ⊢ iprop((∃ r, prngReg c r) ∗ Pipeline.scopedRest spec3 c)

variable (m : (ℓ : Loc nD τ sig) → Buf (Elt F) ℓ) (ρ : Dev nD → PrngReg)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

variable (H : Obl (F := F))

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (H.hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (H.hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (H.hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (H.hb3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    iintro ⟨Hp, -, Hr⟩
    iapply (H.hin3 (V6 m ρ) c)
    isplitl [Hp]; · iexact Hp
    iexact Hr
  hout c := by
    rw [Pipeline.ownSems0_none, show (pdats m ρ 3 c).Φ (Fin.last _) = (dat3 (V6 m ρ) c).Φ (Fin.last cfg3.N) from rfl]
    have hout := H.hout3 (V6 m ρ) c
    iintro HP
    ihave HQ := hout $$ HP
    icases HQ with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ H),
    .host (hseg hostOps1 hostOps1_sub hostOps1_fresh (W2 m ρ)),
    .region (reg1 m ρ H),
    .host (hseg hostOps2 hostOps2_sub hostOps2_fresh (W4 m ρ)),
    .region (reg2 m ρ H),
    .region (reg3 m ρ H),
    .host (hseg hostOps4 hostOps4_sub hostOps4_fresh (W7 m ρ)) ]
/-- @main is the run of the segments. -/
theorem main_run (c : Dev nD) : main (F := F) c = Pipeline.Seg.run (segs m ρ H) := (main_chain c).trans (by chain_rfl)

include H in
set_option backward.isDefEq.respectTransparency.types false in
/-- THE RUN: from any memory with zero counters, every weakly fair execution of @main on the TensorCores terminates,
    nothing faulting, and every final state holds, in every buffer the program does not scope, the last boundary's
    contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ H)
    (fun c Q => by rw [main_run m ρ H c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W8 m ρ c))
    (hch := ⟨fun _ => .rfl, fun _ => .rfl, fun _ => .rfl, fun _ => .rfl, fun _ => .rfl, fun _ => .rfl, fun _ => .rfl, fun _ => .rfl,
      fun c => sep_mono .rfl (show (R c : sProp 𝕄) ⊢ iprop(∃ W, owes (c : Thread nD τ) (0 : CellTallies nD τ sig Unit) W) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨Hh, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.K.Kept.lean ====
/-
  The arguments end as launched. A buffer changes between the launch and the end only where a host operation
  writes its result or where a layer writes its output array back: a host stretch leaves every buffer that none of
  its operations writes, and a layer leaves every buffer but its output array — a buffer that is none of its windows'
  arrays is not touched, and an input window's array is read, never written. No argument of the program is a host
  operation's result or a layer's output, so each holds at the end what it held at the launch.
-/
import proofs.«115216_j652835029484_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## A layer changes its output array only -/

/-- An input window's array leaves layer 0 as it entered: the pipeline never writes an input window back. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The only window of layer 0 that is written back is the one on `main_v16`. -/
theorem in_of_ne0 : ∀ w : Fin cfg0.W, Pipeline.arrRef spec0 w ≠ main_v16 → (cfg0.win w).isOut = false := by decide

/-- Every buffer but `main_v16` leaves layer 0 as it entered: it is either none of the layer's arrays or an
    input window's. -/
theorem W2_kept (c : Dev nD) (r : Ref sig .tc) (h : r ≠ main_v16) :
    W2 m ρ c (Proc.devRef .tc r) = W1 m ρ c (Proc.devRef .tc r) := by
  by_cases hr : ∃ w, Pipeline.arrRef spec0 w = r
  · obtain ⟨w, rfl⟩ := hr
    exact W2_in m ρ c w (in_of_ne0 w h)
  · exact W2_of_ne m ρ c r fun w e => hr ⟨w, e⟩

/-- An input window's array leaves layer 1 as it entered: the pipeline never writes an input window back. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- The only window of layer 1 that is written back is the one on `main_v29`. -/
theorem in_of_ne1 : ∀ w : Fin cfg1.W, Pipeline.arrRef spec1 w ≠ main_v29 → (cfg1.win w).isOut = false := by decide

/-- Every buffer but `main_v29` leaves layer 1 as it entered: it is either none of the layer's arrays or an
    input window's. -/
theorem W4_kept (c : Dev nD) (r : Ref sig .tc) (h : r ≠ main_v29) :
    W4 m ρ c (Proc.devRef .tc r) = W3 m ρ c (Proc.devRef .tc r) := by
  by_cases hr : ∃ w, Pipeline.arrRef spec1 w = r
  · obtain ⟨w, rfl⟩ := hr
    exact W4_in m ρ c w (in_of_ne1 w h)
  · exact W4_of_ne m ρ c r fun w e => hr ⟨w, e⟩

/-- An input window's array leaves layer 2 as it entered: the pipeline never writes an input window back. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- The only window of layer 2 that is written back is the one on `main_v42`. -/
theorem in_of_ne2 : ∀ w : Fin cfg2.W, Pipeline.arrRef spec2 w ≠ main_v42 → (cfg2.win w).isOut = false := by decide

/-- Every buffer but `main_v42` leaves layer 2 as it entered: it is either none of the layer's arrays or an
    input window's. -/
theorem W6_kept (c : Dev nD) (r : Ref sig .tc) (h : r ≠ main_v42) :
    W6 m ρ c (Proc.devRef .tc r) = W5 m ρ c (Proc.devRef .tc r) := by
  by_cases hr : ∃ w, Pipeline.arrRef spec2 w = r
  · obtain ⟨w, rfl⟩ := hr
    exact W6_in m ρ c w (in_of_ne2 w h)
  · exact W6_of_ne m ρ c r fun w e => hr ⟨w, e⟩

/-- An input window's array leaves layer 3 as it entered: the pipeline never writes an input window back. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))

/-- The only window of layer 3 that is written back is the one on `main_v43`. -/
theorem in_of_ne3 : ∀ w : Fin cfg3.W, Pipeline.arrRef spec3 w ≠ main_v43 → (cfg3.win w).isOut = false := by decide

/-- Every buffer but `main_v43` leaves layer 3 as it entered: it is either none of the layer's arrays or an
    input window's. -/
theorem W7_kept (c : Dev nD) (r : Ref sig .tc) (h : r ≠ main_v43) :
    W7 m ρ c (Proc.devRef .tc r) = W6 m ρ c (Proc.devRef .tc r) := by
  by_cases hr : ∃ w, Pipeline.arrRef spec3 w = r
  · obtain ⟨w, rfl⟩ := hr
    exact W7_in m ρ c w (in_of_ne3 w h)
  · exact W7_of_ne m ρ c r fun w e => hr ⟨w, e⟩

/-! ## From the end back to the launch -/

/-- A buffer that no host operation writes and that is no layer's output array holds at the end what it held at the
    launch: back through the last host stretch, the four layers and the three host stretches between and before them. -/
theorem W8_kept (c : Dev nD) (r : Ref sig .tc) (h0 : r ∉ hostOps0_W) (h1 : r ∉ hostOps1_W) (h2 : r ∉ hostOps2_W)
    (h4 : r ∉ hostOps4_W) (ho : r ∉ ([main_v16, main_v29, main_v42, main_v43] : List (Ref sig .tc))) :
    W8 m ρ c (Proc.devRef .tc r) = m ((c : Thread nD τ).loc r) :=
  calc W8 m ρ c (Proc.devRef .tc r)
    _ = W7 m ρ c (Proc.devRef .tc r) := StableHlo.after_of_writes_sub hostOps4 _ hostOps4_writes h4
    _ = W6 m ρ c (Proc.devRef .tc r) := W7_kept m ρ c r fun e => ho (by rw [e]; decide)
    _ = W5 m ρ c (Proc.devRef .tc r) := W6_kept m ρ c r fun e => ho (by rw [e]; decide)
    _ = W4 m ρ c (Proc.devRef .tc r) := StableHlo.after_of_writes_sub hostOps2 _ hostOps2_writes h2
    _ = W3 m ρ c (Proc.devRef .tc r) := W4_kept m ρ c r fun e => ho (by rw [e]; decide)
    _ = W2 m ρ c (Proc.devRef .tc r) := StableHlo.after_of_writes_sub hostOps1 _ hostOps1_writes h1
    _ = W1 m ρ c (Proc.devRef .tc r) := W2_kept m ρ c r fun e => ho (by rw [e]; decide)
    _ = W0 m ρ c (Proc.devRef .tc r) := StableHlo.after_of_writes_sub hostOps0 _ hostOps0_writes h0
    _ = m ((c : Thread nD τ).loc r) := rfl

/-! ## The eighteen arguments -/

/-- `main_arg0` ends as launched. -/
theorem W8_main_arg0 (c : Dev nD) : W8 m ρ c (Proc.devRef .tc main_arg0) = m ((c : Thread nD τ).loc main_arg0) :=
  W8_kept m ρ c main_arg0 (by decide) (by decide) (by decide) (by decide) (by decide)
/-- `main_arg1` ends as launched. -/
theorem W8_main_arg1 (c : Dev nD) : W8 m ρ c (Proc.devRef .tc main_arg1) = m ((c : Thread nD τ).loc main_arg1) :=
  W8_kept m ρ c main_arg1 (by decide) (by decide) (by decide) (by decide) (by decide)
/-- `main_arg2` ends as launched. -/
theorem W8_main_arg2 (c : Dev nD) : W8 m ρ c (Proc.devRef .tc main_arg2) = m ((c : Thread nD τ).loc main_arg2) :=
  W8_kept m ρ c main_arg2 (by decide) (by decide) (by decide) (by decide) (by decide)
/-- `main_arg3` ends as launched. -/
theorem W8_main_arg3 (c : Dev nD) : W8 m ρ c (Proc.devRef .tc main_arg3) = m ((c : Thread nD τ).loc main_arg3) :=
  W8_kept m ρ c main_arg3 (by decide) (by decide) (by decide) (by decide) (by decide)
/-- `main_arg4` ends as launched. -/
theorem W8_main_arg4 (c : Dev nD) : W8 m ρ c (Proc.devRef .tc main_arg4) = m ((c : Thread nD τ).loc main_arg4) :=
  W8_kept m ρ c main_arg4 (by decide) (by decide) (by decide) (by decide) (by decide)
/-- `main_arg5` ends as launched. -/
theorem W8_main_arg5 (c : Dev nD) : W8 m ρ c (Proc.devRef .tc main_arg5) = m ((c : Thread nD τ).loc main_arg5) :=
  W8_kept m ρ c main_arg5 (by decide) (by decide) (by decide) (by decide) (by decide)
/-- `main_arg6` ends as launched. -/
theorem W8_main_arg6 (c : Dev nD) : W8 m ρ c (Proc.devRef .tc main_arg6) = m ((c : Thread nD τ).loc main_arg6) :=
  W8_kept m ρ c main_arg6 (by decide) (by decide) (by decide) (by decide) (by decide)
/-- `main_arg7` ends as launched. -/
theorem W8_main_arg7 (c : Dev nD) : W8 m ρ c (Proc.devRef .tc main_arg7) = m ((c : Thread nD τ).loc main_arg7) :=
  W8_kept m ρ c main_arg7 (by decide) (by decide) (by decide) (by decide) (by decide)
/-- `main_arg8` ends as launched. -/
theorem W8_main_arg8 (c : Dev nD) : W8 m ρ c (Proc.devRef .tc main_arg8) = m ((c : Thread nD τ).loc main_arg8) :=
  W8_kept m ρ c main_arg8 (by decide) (by decide) (by decide) (by decide) (by decide)
/-- `main_arg9` ends as launched. -/
theorem W8_main_arg9 (c : Dev nD) : W8 m ρ c (Proc.devRef .tc main_arg9) = m ((c : Thread nD τ).loc main_arg9) :=
  W8_kept m ρ c main_arg9 (by decide) (by decide) (by decide) (by decide) (by decide)
/-- `main_arg10` ends as launched. -/
theorem W8_main_arg10 (c : Dev nD) : W8 m ρ c (Proc.devRef .tc main_arg10) = m ((c : Thread nD τ).loc main_arg10) :=
  W8_kept m ρ c main_arg10 (by decide) (by decide) (by decide) (by decide) (by decide)
/-- `main_arg11` ends as launched. -/
theorem W8_main_arg11 (c : Dev nD) : W8 m ρ c (Proc.devRef .tc main_arg11) = m ((c : Thread nD τ).loc main_arg11) :=
  W8_kept m ρ c main_arg11 (by decide) (by decide) (by decide) (by decide) (by decide)
/-- `main_arg12` ends as launched. -/
theorem W8_main_arg12 (c : Dev nD) : W8 m ρ c (Proc.devRef .tc main_arg12) = m ((c : Thread nD τ).loc main_arg12) :=
  W8_kept m ρ c main_arg12 (by decide) (by decide) (by decide) (by decide) (by decide)
/-- `main_arg13` ends as launched. -/
theorem W8_main_arg13 (c : Dev nD) : W8 m ρ c (Proc.devRef .tc main_arg13) = m ((c : Thread nD τ).loc main_arg13) :=
  W8_kept m ρ c main_arg13 (by decide) (by decide) (by decide) (by decide) (by decide)
/-- `main_arg14` ends as launched. -/
theorem W8_main_arg14 (c : Dev nD) : W8 m ρ c (Proc.devRef .tc main_arg14) = m ((c : Thread nD τ).loc main_arg14) :=
  W8_kept m ρ c main_arg14 (by decide) (by decide) (by decide) (by decide) (by decide)
/-- `main_arg15` ends as launched. -/
theorem W8_main_arg15 (c : Dev nD) : W8 m ρ c (Proc.devRef .tc main_arg15) = m ((c : Thread nD τ).loc main_arg15) :=
  W8_kept m ρ c main_arg15 (by decide) (by decide) (by decide) (by decide) (by decide)
/-- `main_arg16` ends as launched. -/
theorem W8_main_arg16 (c : Dev nD) : W8 m ρ c (Proc.devRef .tc main_arg16) = m ((c : Thread nD τ).loc main_arg16) :=
  W8_kept m ρ c main_arg16 (by decide) (by decide) (by decide) (by decide) (by decide)
/-- `main_arg17` ends as launched. -/
theorem W8_main_arg17 (c : Dev nD) : W8 m ρ c (Proc.devRef .tc main_arg17) = m ((c : Thread nD τ).loc main_arg17) :=
  W8_kept m ρ c main_arg17 (by decide) (by decide) (by decide) (by decide) (by decide)

end Cert.Kernel.Hand

end
-- ==== Proof.K.RegA0.lean ====
/- The body obligation of layer 0's fused two-layer perceptron, at any float instance.

   The layer runs over a grid of 25 points; point t works on rows 4000·t … 4000·t + 3999 of the 100000 nodes.
   It has seven windows: the node-feature tile h and the aggregated-neighbour tile agg (4000 rows of 165 features
   each), the first weight matrix Wa (165×128), its bias ba (1×128), the second weight matrix Wb (128×128), its
   bias bb (1×128), and the output tile (4000×128). A window's BLOCK at a point is the part of its array the point's
   index map names, read off the array as the layer finds it: for h, agg and the output the t-th tile of 4000 rows,
   for the weights and biases the whole array at every point (their index never moves, so although they are fetched
   at the first point only, the staging buffer holds the block at every point).

   The body reads the six input blocks whole, reads the output buffer (a value it never uses) and stores ONE whole
   tile: relu(relu((h + agg)·Wa + ba)·Wb + bb), the sums and maxima in f32 and both matrix products on operands
   rounded to bf16 — the payload `k0_pay1` of the six blocks. So after the body each input buffer holds its block
   as before and the output buffer holds the payload of the six input blocks (`out0_6_eq`). For the proof data
   `dat0` that says so, `body_obligation0` is the pipeline's obligation at every point: the invariant and what
   the core owes pass through the body untouched. -/
import proofs.«115216_j652835029484_1_alg».proof.Proof.K.Defs0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the layer's buffer contents when it is entered: the parameter everything below is stated at
variable (V : (c : Dev nD) → (b : Ref sig .tc) → Buf (Elt F) ((c : Thread nD τ).loc b))

/-! ## The input windows' staging buffers hold their blocks -/

/-- Input window 0's current staging buffer holds its block at every point, fetched there or not (a window fetched
    once keeps a block whose index never moves), for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window fetched
    once keeps a block whose index never moves), for any proof data whose array is `V`'s and whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window fetched
    once keeps a block whose index never moves), for any proof data whose array is `V`'s and whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a window fetched
    once keeps a block whose index never moves), for any proof data whose array is `V`'s and whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (a window fetched
    once keeps a block whose index never moves), for any proof data whose array is `V`'s and whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (a window fetched
    once keeps a block whose index never moves), for any proof data whose array is `V`'s and whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The offsets of every access are zero. -/
theorem zeros0 : (![0, 0] : Fin 2 → Nat) = fun _ => 0 := funext fun a => by fin_cases a <;> rfl

/-- A whole-buffer load reads the contents and one whole-buffer store leaves its payload: the output buffer holds
    the payload of the six blocks. -/
theorem out0_6_eq (x0 x1 : Vec F S4000x165 .f32) (x2 : Vec F S165x128 .f32) (x3 : Vec F S1x128 .f32) (x4 : Vec F S128x128 .f32) (x5 : Vec F S1x128 .f32) : out0_6 x0 x1 x2 x3 x4 x5 = k0_pay1 x0 x1 x2 x3 x4 x5 := by
  unfold out0_6
  rw [View.canon_unit_zero (S := S4000x128) zeros0]
  simp only [View.ld_unit_zero (S := S4000x165) zeros0, View.ld_unit_zero (S := S165x128) zeros0, View.ld_unit_zero (S := S1x128) zeros0,
    View.ld_unit_zero (S := S128x128) zeros0]

/-- The store's rectangle is the whole buffer, so it covers it. -/
theorem cover0_6 (p0 : Vec F S4000x128 .f32) (y : S4000x128.Idx) :
    ∃ pc ∈ ([⟨rO0, p0⟩] : List (View.Piece (Elt F) S4000x128 .f32)), y ∈ pc.1.set :=
  ⟨_, List.mem_singleton_self _, View.mem_set_unit_zero (S := S4000x128) zeros0 inb_S4000x128_S4000x128_0_0 y⟩

/-! ## The body's triple -/

set_option maxHeartbeats 4000000 in
/-- The body on whole staging memrefs, the six inputs' at read contents `x0 … x5` and the output's at anything, runs to
    the continuation holding the inputs' as they were and the output's at `out0_6` of the inputs'. -/
theorem sound_kernel0 (c : Dev nD) (E : Set ℕ) (i : grid0.Coords)
    (arg1 : Memref sig .tc .vmem S4000x165 .f32) (harg1 : arg1.IsWhole)
    (arg2 : Memref sig .tc .vmem S4000x165 .f32) (harg2 : arg2.IsWhole)
    (arg3 : Memref sig .tc .vmem S165x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S4000x128 .f32) (harg7 : arg7.IsWhole)
    (x0 x1 : Vec F S4000x165 .f32) (x2 : Vec F S165x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__ginconv_mlp_kernel i arg1 harg1 arg2 harg2 arg3 harg3 arg4 harg4 arg5 harg5 arg6 harg6 arg7 harg7) K := by
  simp only [cc0__ginconv_mlp_kernel_eq_skeleton]; unfold cc0__ginconv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The input windows at the proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.RegA1.lean ====
/- The body obligation of layer 1's fused two-layer perceptron, at any float instance.

   The layer runs over a grid of 25 points; point t works on rows 4000·t … 4000·t + 3999 of the 100000 nodes.
   It has seven windows: the node-feature tile h and the aggregated-neighbour tile agg (4000 rows of 128 features
   each), the first weight matrix Wa (128×128), its bias ba (1×128), the second weight matrix Wb (128×128), its
   bias bb (1×128), and the output tile (4000×128). A window's BLOCK at a point is the part of its array the point's
   index map names, read off the array as the layer finds it: for h, agg and the output the t-th tile of 4000 rows,
   for the weights and biases the whole array at every point (their index never moves, so although they are fetched
   at the first point only, the staging buffer holds the block at every point).

   The body reads the six input blocks whole, reads the output buffer (a value it never uses) and stores ONE whole
   tile: relu(relu((h + agg)·Wa + ba)·Wb + bb), the sums and maxima in f32 and both matrix products on operands
   rounded to bf16 — the payload `k1_pay1` of the six blocks. So after the body each input buffer holds its block
   as before and the output buffer holds the payload of the six input blocks (`out1_6_eq`). For the proof data
   `dat1` that says so, `body_obligation1` is the pipeline's obligation at every point: the invariant and what
   the core owes pass through the body untouched. -/
import proofs.«115216_j652835029484_1_alg».proof.Proof.K.Defs1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the layer's buffer contents when it is entered: the parameter everything below is stated at
variable (V : (c : Dev nD) → (b : Ref sig .tc) → Buf (Elt F) ((c : Thread nD τ).loc b))

/-! ## The input windows' staging buffers hold their blocks -/

/-- Input window 0's current staging buffer holds its block at every point, fetched there or not (a window fetched
    once keeps a block whose index never moves), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (a window fetched
    once keeps a block whose index never moves), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (a window fetched
    once keeps a block whose index never moves), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (a window fetched
    once keeps a block whose index never moves), for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (a window fetched
    once keeps a block whose index never moves), for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (a window fetched
    once keeps a block whose index never moves), for any proof data whose array is `V`'s and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The offsets of every access are zero. -/
theorem zeros1 : (![0, 0] : Fin 2 → Nat) = fun _ => 0 := funext fun a => by fin_cases a <;> rfl

/-- A whole-buffer load reads the contents and one whole-buffer store leaves its payload: the output buffer holds
    the payload of the six blocks. -/
theorem out1_6_eq (x0 x1 : Vec F S4000x128 .f32) (x2 : Vec F S128x128 .f32) (x3 : Vec F S1x128 .f32) (x4 : Vec F S128x128 .f32) (x5 : Vec F S1x128 .f32) : out1_6 x0 x1 x2 x3 x4 x5 = k1_pay1 x0 x1 x2 x3 x4 x5 := by
  unfold out1_6
  rw [View.canon_unit_zero (S := S4000x128) zeros1]
  simp only [View.ld_unit_zero (S := S4000x128) zeros1, View.ld_unit_zero (S := S128x128) zeros1, View.ld_unit_zero (S := S1x128) zeros1,
    View.ld_unit_zero (S := S128x128) zeros1]

/-- The store's rectangle is the whole buffer, so it covers it. -/
theorem cover1_6 (p0 : Vec F S4000x128 .f32) (y : S4000x128.Idx) :
    ∃ pc ∈ ([⟨rO1, p0⟩] : List (View.Piece (Elt F) S4000x128 .f32)), y ∈ pc.1.set :=
  ⟨_, List.mem_singleton_self _, View.mem_set_unit_zero (S := S4000x128) zeros1 inb_S4000x128_S4000x128_0_0 y⟩

/-! ## The body's triple -/

set_option maxHeartbeats 4000000 in
/-- The body on whole staging memrefs, the six inputs' at read contents `x0 … x5` and the output's at anything, runs to
    the continuation holding the inputs' as they were and the output's at `out1_6` of the inputs'. -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S4000x128 .f32) (harg7 : arg7.IsWhole)
    (x0 x1 : Vec F S4000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__ginconv_mlp_kernel i arg1 harg1 arg2 harg2 arg3 harg3 arg4 harg4 arg5 harg5 arg6 harg6 arg7 harg7) K := by
  simp only [cc1__ginconv_mlp_kernel_eq_skeleton]; unfold cc1__ginconv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The input windows at the proof data -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RegA2.lean ====
/- The body obligation of layer 2's fused two-layer perceptron, at any float instance.

   The layer runs over a grid of 25 points; point t works on rows 4000·t … 4000·t + 3999 of the 100000 nodes.
   It has seven windows: the node-feature tile h and the aggregated-neighbour tile agg (4000 rows of 128 features
   each), the first weight matrix Wa (128×128), its bias ba (1×128), the second weight matrix Wb (128×128), its
   bias bb (1×128), and the output tile (4000×128). A window's BLOCK at a point is the part of its array the point's
   index map names, read off the array as the layer finds it: for h, agg and the output the t-th tile of 4000 rows,
   for the weights and biases the whole array at every point (their index never moves, so although they are fetched
   at the first point only, the staging buffer holds the block at every point).

   The body reads the six input blocks whole, reads the output buffer (a value it never uses) and stores ONE whole
   tile: relu(relu((h + agg)·Wa + ba)·Wb + bb), the sums and maxima in f32 and both matrix products on operands
   rounded to bf16 — the payload `k2_pay1` of the six blocks. So after the body each input buffer holds its block
   as before and the output buffer holds the payload of the six input blocks (`out2_6_eq`). For the proof data
   `dat2` that says so, `body_obligation2` is the pipeline's obligation at every point: the invariant and what
   the core owes pass through the body untouched. -/
import proofs.«115216_j652835029484_1_alg».proof.Proof.K.Defs2
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the layer's buffer contents when it is entered: the parameter everything below is stated at
variable (V : (c : Dev nD) → (b : Ref sig .tc) → Buf (Elt F) ((c : Thread nD τ).loc b))

/-! ## The input windows' staging buffers hold their blocks -/

/-- Input window 0's current staging buffer holds its block at every point, fetched there or not (a window fetched
    once keeps a block whose index never moves), for any proof data whose array is `V`'s and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window fetched
    once keeps a block whose index never moves), for any proof data whose array is `V`'s and whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window fetched
    once keeps a block whose index never moves), for any proof data whose array is `V`'s and whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window fetched
    once keeps a block whose index never moves), for any proof data whose array is `V`'s and whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window fetched
    once keeps a block whose index never moves), for any proof data whose array is `V`'s and whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (a window fetched
    once keeps a block whose index never moves), for any proof data whose array is `V`'s and whose body leaves the
    block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The offsets of every access are zero. -/
theorem zeros2 : (![0, 0] : Fin 2 → Nat) = fun _ => 0 := funext fun a => by fin_cases a <;> rfl

/-- A whole-buffer load reads the contents and one whole-buffer store leaves its payload: the output buffer holds
    the payload of the six blocks. -/
theorem out2_6_eq (x0 x1 : Vec F S4000x128 .f32) (x2 : Vec F S128x128 .f32) (x3 : Vec F S1x128 .f32) (x4 : Vec F S128x128 .f32) (x5 : Vec F S1x128 .f32) : out2_6 x0 x1 x2 x3 x4 x5 = k2_pay1 x0 x1 x2 x3 x4 x5 := by
  unfold out2_6
  rw [View.canon_unit_zero (S := S4000x128) zeros2]
  simp only [View.ld_unit_zero (S := S4000x128) zeros2, View.ld_unit_zero (S := S128x128) zeros2, View.ld_unit_zero (S := S1x128) zeros2,
    View.ld_unit_zero (S := S128x128) zeros2]

/-- The store's rectangle is the whole buffer, so it covers it. -/
theorem cover2_6 (p0 : Vec F S4000x128 .f32) (y : S4000x128.Idx) :
    ∃ pc ∈ ([⟨rO2, p0⟩] : List (View.Piece (Elt F) S4000x128 .f32)), y ∈ pc.1.set :=
  ⟨_, List.mem_singleton_self _, View.mem_set_unit_zero (S := S4000x128) zeros2 inb_S4000x128_S4000x128_0_0 y⟩

/-! ## The body's triple -/

set_option maxHeartbeats 4000000 in
/-- The body on whole staging memrefs, the six inputs' at read contents `x0 … x5` and the output's at anything, runs to
    the continuation holding the inputs' as they were and the output's at `out2_6` of the inputs'. -/
theorem sound_kernel2 (c : Dev nD) (E : Set ℕ) (i : grid2.Coords)
    (arg1 : Memref sig .tc .vmem S4000x128 .f32) (harg1 : arg1.IsWhole)
    (arg2 : Memref sig .tc .vmem S4000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S4000x128 .f32) (harg7 : arg7.IsWhole)
    (x0 x1 : Vec F S4000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__ginconv_mlp_kernel i arg1 harg1 arg2 harg2 arg3 harg3 arg4 harg4 arg5 harg5 arg6 harg6 arg7 harg7) K := by
  simp only [cc2__ginconv_mlp_kernel_eq_skeleton]; unfold cc2__ginconv_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The input windows at the proof data -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RegR3.lean ====
/-
  Region 3, the body: the mean over the nodes, tile by tile. The two conditionals of the body are decided in closed
  form over the 25 tiles (the first holds at tile 0 only, the second at tile 24 only); the body is run once per case —
  first tile, a tile in between, last tile — on any whole memrefs; a store of a whole row makes the buffer read that
  row, and a load of a whole block reads the block, so the scratch after the body at tile `t` is the running sums one
  tile further and, at the last tile, the output row is those sums times the constant. From these: the body obligation
  of the pipeline's proof data, and the invariant's two ends (the scratch leaves the scoped rest on entry and goes back
  on exit).
-/
import proofs.«115216_j652835029484_1_alg».proof.Proof.Gen.Kernel.Launch
import proofs.«115216_j652835029484_1_alg».proof.Proof.Gen.Kernel.Skeleton
import proofs.«115216_j652835029484_1_alg».proof.Proof.Gen.Kernel.Points
import proofs.«115216_j652835029484_1_alg».proof.Proof.K.Defs3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions of the body, in closed form over the grid -/

/-- The first conditional's guard (the tile index is 0), as the body computes it. -/
abbrev cond3_0 (i : grid3.Coords) : Prop := (Scalar.cmpi .ne (Scalar.extui (Scalar.cmpi .eq (BitVec.ofNat 32 (i 0).val) 0#32)) 0#32) = 1#1
/-- It holds at the first tile only. -/
theorem hcond3_0 : ∀ t : Fin cfg3.N, cond3_0 (grid3.coords t) ↔ t.val % 25 = 0 :=
  (by decide +kernel : ∀ t : Fin grid3.N, cond3_0 (grid3.coords t) ↔ t.val % 25 = 0)
/-- The second conditional's guard (the tile index is 24). -/
abbrev cond3_1 (i : grid3.Coords) : Prop := k3_cond2 i = 1#1
/-- It holds at the last tile only. -/
theorem hcond3_1 : ∀ t : Fin cfg3.N, cond3_1 (grid3.coords t) ↔ t.val % 25 = 24 :=
  (by decide +kernel : ∀ t : Fin grid3.N, cond3_1 (grid3.coords t) ↔ t.val % 25 = 24)
/-- The output window is idle exactly off the last tile. -/
theorem hidle3_1 : ∀ t : Fin cfg3.N, cfg3.idle 1 (cfg3.grid.coords t) = !decide (t.val % 25 = 24) :=
  (by decide +kernel : ∀ t : Fin grid3.N, idle3 1 (grid3.coords t) = !decide (t.val % 25 = 24))

/-! ## Whole-block rectangles read and write the block itself -/

/-- The rectangle of the whole scratch row, and of the whole input tile. -/
abbrev rS3 : Rect S1x128 := Rect.unit (s := S1x128) ![0, 0] S1x128.size inb_S1x128_S1x128_0_0
abbrev rT3 : Rect S4000x128 := Rect.unit (s := S4000x128) ![0, 0] S4000x128.size inb_S4000x128_S4000x128_0_0

/-- The whole-row rectangle's index map is the identity. -/
theorem idx_rS3 (x : S1x128.Idx) : rS3.idx x = x := by
  funext a; apply Fin.ext
  show (![0, 0] : Fin 2 → ℕ) a + 1 * (x a : ℕ) = x a
  have h : (![0, 0] : Fin 2 → ℕ) a = 0 := by fin_cases a <;> rfl
  rw [h]; omega

/-- The whole-tile rectangle's index map is the identity. -/
theorem idx_rT3 (x : S4000x128.Idx) : rT3.idx x = x := by
  funext a; apply Fin.ext
  show (![0, 0] : Fin 2 → ℕ) a + 1 * (x a : ℕ) = x a
  have h : (![0, 0] : Fin 2 → ℕ) a = 0 := by fin_cases a <;> rfl
  rw [h]; omega

/-- A load through the whole-tile rectangle reads the tile. -/
theorem ld_rT3 (X : Vec F S4000x128 .f32) : View.ld X rT3 = X := by
  funext x; show X (rT3.idx x) = X x; rw [idx_rT3]

/-- A load through the whole-row rectangle reads the row. -/
theorem ld_rS3 (X : Vec F S1x128 .f32) : View.ld X rS3 = X := by
  funext x; show X (rS3.idx x) = X x; rw [idx_rS3]

/-- After a store of a whole row, whatever was written before, the buffer reads that row. -/
theorem read_writes_rS3 {κ : Kind} {sp : Space} (v : View sig κ sp S1x128 .f32) (f : v.ty.Contents (Elt F)) (w : Vec F S1x128 .f32)
    (L : List (View.Piece (Elt F) S1x128 .f32)) : v.read (Elt F) (v.writes (Elt F) f (⟨rS3, w⟩ :: L)) = w := by
  funext y
  have hy : y ∈ rS3.set := by have := rS3.idx_mem y; rw [idx_rS3] at this; exact this
  have hcov : ∃ p ∈ ((⟨rS3, w⟩ : View.Piece (Elt F) S1x128 .f32) :: L), y ∈ p.1.set := ⟨⟨rS3, w⟩, List.mem_cons_self, hy⟩
  have h1 := View.read_writes_apply_eq_canon v f y (⟨rS3, w⟩ :: L) hcov
  have h := View.canon_cons_emb rS3 w L y
  rw [show rS3.emb y = y from idx_rS3 y] at h
  exact h1.trans h

/-! ## The body on any whole staging memrefs and scratch, case by case -/

set_option maxHeartbeats 1000000 in
/-- The first tile: the scratch, at any contents, is zeroed, then the tile's column sums are added; the output memref is
    not touched. -/
theorem kernelRun3_first (c : Dev nD) (i : grid3.Coords) (arg1 : Memref sig .tc .vmem S4000x128 .f32) (harg1 : arg1.IsWhole)
    (arg2 : Memref sig .tc .vmem S1x128 .f32) (harg2 : arg2.IsWhole) (arg3 : Memref sig .tc .vmem S1x128 .f32) (harg3 : arg3.IsWhole)
    (hc0 : cond3_0 i) (hc1 : ¬cond3_1 i)
    (x0 : Vec F S4000x128 .f32) (x1 : Vec F S1x128 .f32) (E : Set ℕ) (K : PUnit → sProp 𝕄) :
    iprop(owns (c : Thread nD τ) arg1 fullShare x0 ∗ owns (c : Thread nD τ) arg2 fullShare x1 ∗ (∃ s, owns (c : Thread nD τ) arg3 fullShare s)
        ∗ (iprop(owns (c : Thread nD τ) arg1 fullShare x0 ∗ owns (c : Thread nD τ) arg2 fullShare x1
            ∗ owns (c : Thread nD τ) arg3 fullShare (k3_pay2 (k3_pay1 (F := F)) x0)) -∗ K ⟨⟩))
      ⊢ wp frame (wpE (defs₀ (F := F)) Variants.none c none) E (cc3__meanpool_kernel i arg1 harg1 arg2 harg2 arg3 harg3) K := by
  simp only [cc3__meanpool_kernel_eq_skeleton]; unfold cc3__meanpool_kernel_skel
  unfold owns
  iintro ⟨⟨%f0, %hf0, H0⟩, ⟨%f1, %hf1, H1⟩, ⟨%s, %f2, -, H2⟩, Hk⟩
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  unfold kernelRun3_first.sl.v3 kernelRun3_first.sl.H2_1
  rw [read_writes_rS3, View.readCov_cons_toLoadRect, View.readAt_eq_ld, hf0, ld_rT3]

set_option maxHeartbeats 1000000 in
/-- A tile that is neither the first nor the last: the tile's column sums are added to the scratch; the output memref
    is not touched. -/
theorem kernelRun3_mid (c : Dev nD) (i : grid3.Coords) (arg1 : Memref sig .tc .vmem S4000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : ¬cond3_1 i)
    (x0 : Vec F S4000x128 .f32) (x1 : Vec F S1x128 .f32) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1
            ∗ owns (c : Thread nD τ) arg3 fullShare (k3_pay2 a x0)) -∗ K ⟨⟩))
      ⊢ wp frame (wpE (defs₀ (F := F)) Variants.none c none) E (cc3__meanpool_kernel i arg1 harg1 arg2 harg2 arg3 harg3) K := by
  simp only [cc3__meanpool_kernel_eq_skeleton]; unfold cc3__meanpool_kernel_skel
  unfold owns
  iintro ⟨⟨%f0, %hf0, H0⟩, ⟨%f1, %hf1, H1⟩, ⟨%f2, %hf2, H2⟩, Hk⟩
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_writes_rS3, View.readAt_eq_ld, View.readAt_eq_ld, hf2, hf0, ld_rS3, ld_rT3]

set_option maxHeartbeats 1000000 in
/-- The last tile: the tile's column sums are added to the scratch, and the output memref, whatever it held, is left
    at the scratch times the constant. -/
theorem kernelRun3_last (c : Dev nD) (i : grid3.Coords) (arg1 : Memref sig .tc .vmem S4000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : cond3_1 i)
    (x0 : Vec F S4000x128 .f32) (x1 : Vec F S1x128 .f32) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare (k3_pay3 (k3_pay2 a x0))
            ∗ owns (c : Thread nD τ) arg3 fullShare (k3_pay2 a x0)) -∗ K ⟨⟩))
      ⊢ wp frame (wpE (defs₀ (F := F)) Variants.none c none) E (cc3__meanpool_kernel i arg1 harg1 arg2 harg2 arg3 harg3) K := by
  simp only [cc3__meanpool_kernel_eq_skeleton]; unfold cc3__meanpool_kernel_skel
  unfold owns
  iintro ⟨⟨%f0, %hf0, H0⟩, ⟨%f1, %hf1, H1⟩, ⟨%f2, %hf2, H2⟩, Hk⟩
  sl_exec (disch := first | exact hc0 | exact hc1)
  sl_step
  iapply Hk
  isplitl [H0]
  · iexists _; isplitr; · ipureintro; exact hf0
    iexact H0
  isplitl [H1]
  · iexists _; isplitr
    swap; · iexact H1
    ipureintro
    unfold kernelRun3_last.sl.v15 kernelRun3_last.sl.H2_1
    rw [read_writes_rS3, View.readCov_cons_toLoadRect, View.readAt_eq_ld, View.readAt_eq_ld, hf2, hf0, ld_rS3, ld_rT3]
  iexists _; isplitr
  swap; · iexact H2
  ipureintro
  unfold kernelRun3_last.sl.H2_1
  rw [read_writes_rS3, View.readAt_eq_ld, View.readAt_eq_ld, hf2, hf0, ld_rS3, ld_rT3]

/-! ## What the body finds and leaves, window by window -/

/-- The input window's current staging buffer holds its tile at every point (it is fetched at every point). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- Off the last tile the output window is idle and not written back: the body hands its buffer back as found. -/
theorem leaves3_1_idle (c : Dev nD) (t : Fin cfg3.N) (h : ¬t.val % 25 = 24) :
    ((dat3 V c).leavesExact 1 t : sProp 𝕄)
      = iprop(∃ d, owns (c : Thread nD τ) ((cfg3.win 1).stage (cfg3.slots t 1)) fullShare ((dat3 V c).before 1 t d)) :=
  (dat3 V c).leavesExact_idle 1 t (by rw [hidle3_1 t, decide_eq_false h]; rfl)
    (Bool.eq_false_iff.mpr fun hf => h ((flush3_1 t).mp hf))

/-- At the last tile the output window is live: the body leaves the scaled sums there. -/
theorem leaves3_1_last (c : Dev nD) (t : Fin cfg3.N) (h : t.val % 25 = 24) :
    ((dat3 V c).leavesExact 1 t : sProp 𝕄)
      = owns (c : Thread nD τ) ((cfg3.win 1).stage (cfg3.slots t 1)) fullShare (k3_pay3 (acc3 V c (t.val + 1))) := by
  unfold Dat.leavesExact
  rw [show cfg3.idle 1 (cfg3.grid.coords t) = false by rw [hidle3_1 t, decide_eq_true h]; rfl, after3_1]

/-- The invariant before the first tile: the scratch whole at some contents. -/
theorem Φ3_first (c : Dev nD) (n : Fin (cfg3.N + 1)) (h : n.val = 0) :
    Φ3 V c n = iprop((∃ f : Buf (Elt F) ((c : Thread nD τ).loc cc3_scratch0), ((c : Thread nD τ).loc cc3_scratch0) ↦{fullShare} f)
      ∗ Pipeline.scopedRestBut (Ix := Unit) (Name := ℕ) (U := UR sig nD τ) (Lvl := ℕ) (Val := Elt F) spec3 c [cc3_scratch0]
      ∗ ∃ r, prngReg c r) := by
  unfold Φ3; rw [h]

/-- The invariant after at least one tile: the scratch at the running sums. -/
theorem Φ3_later (c : Dev nD) (n : Fin (cfg3.N + 1)) (h : n.val ≠ 0) :
    Φ3 V c n = iprop(owns (c : Thread nD τ) scr3 fullShare (acc3 V c n.val)
      ∗ Pipeline.scopedRestBut (Ix := Unit) (Name := ℕ) (U := UR sig nD τ) (Lvl := ℕ) (Val := Elt F) spec3 c [cc3_scratch0]
      ∗ ∃ r, prngReg c r) := by
  obtain ⟨k, hk⟩ := Nat.exists_eq_succ_of_ne_zero h
  unfold Φ3; rw [hk]

/-- The scratch owned whole at contents `X` is its buffer's points-to at `X`. -/
theorem scr3_eq (c : Dev nD) (X : Vec F S1x128 .f32) :
    (owns (c : Thread nD τ) scr3 fullShare X : sProp 𝕄) = ((c : Thread nD τ).loc cc3_scratch0) ↦{fullShare} X :=
  owns_whole (c : Thread nD τ) cc3_scratch0 fullShare X

/-! ## The body obligation -/

set_option maxHeartbeats 1000000 in
/-- The body at any tile: the closed forms say which case the tile is in; the input's memref holds its tile; the
    scratch is taken from the invariant — at any contents before the first tile, at the running sums after — and handed
    back one tile further; the output's memref is handed back as found off the last tile and left at the scaled sums at
    the last; the core owes nothing throughout. -/
theorem sound_body3 (c : Dev nD) (t : Fin cfg3.N) :
    iprop((dat3 V c).Φ t.castSucc ∗ (dat3 V c).owesAt () t.castSucc
        ∗ (∃ d, owns (c : Thread nD τ) (win3_0.stage (cfg3.slots t 0)) fullShare ((dat3 V c).before 0 t d))
        ∗ (∃ d, owns (c : Thread nD τ) (win3_1.stage (cfg3.slots t 1)) fullShare ((dat3 V c).before 1 t d)))
      ⊢ wp frame (wpE (defs₀ (F := F)) Variants.none c none) Set.univ (bodyAt3 t) (fun _ =>
          iprop((dat3 V c).Φ t.succ ∗ (dat3 V c).owesAt () t.succ
            ∗ owns (c : Thread nD τ) (win3_0.stage (cfg3.slots t 0)) fullShare ((dat3 V c).after 0 t)
            ∗ (dat3 V c).leavesExact 1 t)) := by
  unfold bodyAt3
  simp only [before3_0, Φ3_eq, after3_0]
  have hN : t.val < 25 := lt_of_lt_of_eq t.isLt (show cfg3.N = 25 from N_3)
  have hs : (t.succ : Fin (cfg3.N + 1)).val ≠ 0 := by rw [Fin.val_succ]; omega
  rw [Φ3_later V c t.succ hs, Fin.val_succ, acc3_succ V c t,
    show (dat3 V c).owesAt () t.succ = (dat3 V c).owesAt () t.castSucc from rfl]
  by_cases h0 : t.val % 25 = 0
  · have ht : t.val = 0 := by omega
    have h1 : ¬t.val % 25 = 24 := by omega
    have hc0 : cond3_0 (grid3.coords t) := (hcond3_0 t).mpr h0
    have hc1 : ¬cond3_1 (grid3.coords t) := fun h => h1 ((hcond3_1 t).mp h)
    have ha : acc3 V c t.val = k3_pay1 (F := F) := by rw [ht]; exact acc3_zero V c
    rw [Φ3_first V c t.castSucc (by rw [Fin.val_castSucc]; exact ht), leaves3_1_idle V c t h1, ha]
    iintro ⟨⟨⟨%f, Hs⟩, HR, HP⟩, Ho, ⟨%d0, H0⟩, ⟨%d1, H1⟩⟩
    iapply (kernelRun3_first c (grid3.coords t) _ _ _ _ _ _ hc0 hc1 (iblk3 V c 0 t) _ Set.univ _)
    isplitl [H0]; · iexact H0
    isplitl [H1]; · iexact H1
    isplitl [Hs]
    · iexists f; rw [scr3_eq]; iexact Hs
    iintro ⟨H0, H1, Hs⟩
    isplitl [Hs HR HP]
    · isplitl [Hs]; · iexact Hs
      isplitl [HR]; · iexact HR
      iexact HP
    isplitl [Ho]; · iexact Ho
    isplitl [H0]; · iexact H0
    iexists d1; iexact H1
  · have hc0 : ¬cond3_0 (grid3.coords t) := fun h => h0 ((hcond3_0 t).mp h)
    have ht : (t.castSucc : Fin (cfg3.N + 1)).val ≠ 0 := by rw [Fin.val_castSucc]; omega
    rw [Φ3_later V c t.castSucc ht, Fin.val_castSucc]
    by_cases h1 : t.val % 25 = 24
    · have hc1 : cond3_1 (grid3.coords t) := (hcond3_1 t).mpr h1
      rw [leaves3_1_last V c t h1, acc3_succ V c t]
      iintro ⟨⟨Hs, HR, HP⟩, Ho, ⟨%d0, H0⟩, ⟨%d1, H1⟩⟩
      iapply (kernelRun3_last c (grid3.coords t) _ _ _ _ _ _ hc0 hc1 (iblk3 V c 0 t) _ (acc3 V c t.val) Set.univ _)
      isplitl [H0]; · iexact H0
      isplitl [H1]; · iexact H1
      isplitl [Hs]; · iexact Hs
      iintro ⟨H0, H1, Hs⟩
      isplitl [Hs HR HP]
      · isplitl [Hs]; · iexact Hs
        isplitl [HR]; · iexact HR
        iexact HP
      isplitl [Ho]; · iexact Ho
      isplitl [H0]; · iexact H0
      iexact H1
    · have hc1 : ¬cond3_1 (grid3.coords t) := fun h => h1 ((hcond3_1 t).mp h)
      rw [leaves3_1_idle V c t h1]
      iintro ⟨⟨Hs, HR, HP⟩, Ho, ⟨%d0, H0⟩, ⟨%d1, H1⟩⟩
      iapply (kernelRun3_mid c (grid3.coords t) _ _ _ _ _ _ hc0 hc1 (iblk3 V c 0 t) _ (acc3 V c t.val) Set.univ _)
      isplitl [H0]; · iexact H0
      isplitl [H1]; · iexact H1
      isplitl [Hs]; · iexact Hs
      iintro ⟨H0, H1, Hs⟩
      isplitl [Hs HR HP]
      · isplitl [Hs]; · iexact Hs
        isplitl [HR]; · iexact HR
        iexact HP
      isplitl [Ho]; · iexact Ho
      isplitl [H0]; · iexact H0
      iexists d1; iexact H1

/-- The library's body obligation, at every tile. -/
theorem body_obligation3 (c : Dev nD) : BodyObligation (dat3 (F := F) V c) (defs₀ (F := F)) Variants.none () Set.univ := fun t => by
  rw [bigSep_W3, bigSep_W3]
  exact sound_body3 V c t

/-! ## The invariant at the two ends -/

/-- Entering the region: the scoped rest, split at the scratch, and the generator register are the invariant before
    the first tile. -/
theorem hin3 (c : Dev nD) : iprop((∃ r, prngReg c r) ∗ Pipeline.scopedRest spec3 c) ⊢ ((dat3 V c).Φ 0 : sProp 𝕄) := by
  rw [Φ3_eq, Φ3_first V c 0 (Fin.val_zero _), scopedRest3_split]
  iintro ⟨HP, Hs, HR⟩
  isplitl [Hs]; · iexact Hs
  isplitl [HR]; · iexact HR
  iexact HP

/-- Leaving the region: the scratch, at the sums over all tiles, goes back into the scoped rest at some contents. -/
theorem hout3 (c : Dev nD) : ((dat3 V c).Φ (Fin.last cfg3.N) : sProp 𝕄) ⊢ iprop((∃ r, prngReg c r) ∗ Pipeline.scopedRest spec3 c) := by
  have hN : cfg3.N = 25 := N_3
  rw [Φ3_eq, Φ3_later V c (Fin.last cfg3.N) (by rw [Fin.val_last]; omega), scopedRest3_split, scr3_eq]
  iintro ⟨Hs, HR, HP⟩
  isplitl [HP]; · iexact HP
  isplitl [Hs]; · iexists _; iexact Hs
  iexact HR

end Cert.Kernel.Hand

end
-- ==== Proof.Frames.lean ====
/-
  The three frame claims and the ledger entry. Each kernel program's run ends with every buffer the program does not
  scope at the last boundary's contents, and every argument holds there what it held at the launch: the frame. The
  reference's generated run states each argument unchanged after its result: the frame is that run without its first two
  components. The ledger's one entry: the table gives the constant's name the value 1/100000, and the printed constant is
  that value at the ideal instance.
-/
import proofs.«115216_j652835029484_1_alg».proof.Defs
import proofs.«115216_j652835029484_1_alg».proof.Proof.Gen.Kernel
import proofs.«115216_j652835029484_1_alg».proof.Proof.Gen.KernelIdeal
import proofs.«115216_j652835029484_1_alg».proof.Proof.Gen.ReferenceIdeal
import proofs.«115216_j652835029484_1_alg».proof.Proof.Gen.Pre_finite_inputs
import proofs.«115216_j652835029484_1_alg».proof.Proof.Gen.ReferenceIdeal.Run
import proofs.«115216_j652835029484_1_alg».proof.Proof.KI.Run
import proofs.«115216_j652835029484_1_alg».proof.Proof.KI.Kept
import proofs.«115216_j652835029484_1_alg».proof.Proof.KI.RegA0
import proofs.«115216_j652835029484_1_alg».proof.Proof.KI.RegA1
import proofs.«115216_j652835029484_1_alg».proof.Proof.KI.RegA2
import proofs.«115216_j652835029484_1_alg».proof.Proof.KI.RegR3
import proofs.«115216_j652835029484_1_alg».proof.Proof.K.Run
import proofs.«115216_j652835029484_1_alg».proof.Proof.K.Kept
import proofs.«115216_j652835029484_1_alg».proof.Proof.K.RegA0
import proofs.«115216_j652835029484_1_alg».proof.Proof.K.RegA1
import proofs.«115216_j652835029484_1_alg».proof.Proof.K.RegA2
import proofs.«115216_j652835029484_1_alg».proof.Proof.K.RegR3

set_option maxRecDepth 16384

noncomputable section

open Idealize.ShloMosaic Idealize.ShloMosaic.TcCoe Idealize.SL.Sem

namespace Cert.Proof.Frames

/-- What the run of the idealized kernel program asks of its four kernels: the three layers' and the mean's body
    obligations, and the mean's invariant at its two ends. -/
theorem oblKI {F : FTy → Type} [FloatOps F] [Named F] : Cert.KernelIdeal.Hand.Obl (F := F) where
  hb0 := Cert.KernelIdeal.Hand.body_obligation0
  hb1 := Cert.KernelIdeal.Hand.body_obligation1
  hb2 := Cert.KernelIdeal.Hand.body_obligation2
  hb3 := Cert.KernelIdeal.Hand.body_obligation3
  hin3 := Cert.KernelIdeal.Hand.hin3
  hout3 := Cert.KernelIdeal.Hand.hout3

/-- The same of the kernel program as printed. -/
theorem oblK {F : FTy → Type} [FloatOps F] : Cert.Kernel.Hand.Obl (F := F) where
  hb0 := Cert.Kernel.Hand.body_obligation0
  hb1 := Cert.Kernel.Hand.body_obligation1
  hb2 := Cert.Kernel.Hand.body_obligation2
  hb3 := Cert.Kernel.Hand.body_obligation3
  hin3 := Cert.Kernel.Hand.hin3
  hout3 := Cert.Kernel.Hand.hout3

/-- The kernel program runs and its arguments end as launched: no argument is scoped, so each ends at the last
    boundary's contents, which for an argument are the launch contents. -/
theorem frame_K : Cert.frame_Kernel := fun m ρ _ =>
  (θ_run Cert.Kernel.defs _ _).mono (fun r h c =>
    ⟨(h c _ (Cert.Kernel.Hand.mem_uc Cert.Kernel.main_arg0 (by decide))).trans (Cert.Kernel.Hand.W8_main_arg0 m ρ c),
      (h c _ (Cert.Kernel.Hand.mem_uc Cert.Kernel.main_arg1 (by decide))).trans (Cert.Kernel.Hand.W8_main_arg1 m ρ c),
      (h c _ (Cert.Kernel.Hand.mem_uc Cert.Kernel.main_arg2 (by decide))).trans (Cert.Kernel.Hand.W8_main_arg2 m ρ c),
      (h c _ (Cert.Kernel.Hand.mem_uc Cert.Kernel.main_arg3 (by decide))).trans (Cert.Kernel.Hand.W8_main_arg3 m ρ c),
      (h c _ (Cert.Kernel.Hand.mem_uc Cert.Kernel.main_arg4 (by decide))).trans (Cert.Kernel.Hand.W8_main_arg4 m ρ c),
      (h c _ (Cert.Kernel.Hand.mem_uc Cert.Kernel.main_arg5 (by decide))).trans (Cert.Kernel.Hand.W8_main_arg5 m ρ c),
      (h c _ (Cert.Kernel.Hand.mem_uc Cert.Kernel.main_arg6 (by decide))).trans (Cert.Kernel.Hand.W8_main_arg6 m ρ c),
      (h c _ (Cert.Kernel.Hand.mem_uc Cert.Kernel.main_arg7 (by decide))).trans (Cert.Kernel.Hand.W8_main_arg7 m ρ c),
      (h c _ (Cert.Kernel.Hand.mem_uc Cert.Kernel.main_arg8 (by decide))).trans (Cert.Kernel.Hand.W8_main_arg8 m ρ c),
      (h c _ (Cert.Kernel.Hand.mem_uc Cert.Kernel.main_arg9 (by decide))).trans (Cert.Kernel.Hand.W8_main_arg9 m ρ c),
      (h c _ (Cert.Kernel.Hand.mem_uc Cert.Kernel.main_arg10 (by decide))).trans (Cert.Kernel.Hand.W8_main_arg10 m ρ c),
      (h c _ (Cert.Kernel.Hand.mem_uc Cert.Kernel.main_arg11 (by decide))).trans (Cert.Kernel.Hand.W8_main_arg11 m ρ c),
      (h c _ (Cert.Kernel.Hand.mem_uc Cert.Kernel.main_arg12 (by decide))).trans (Cert.Kernel.Hand.W8_main_arg12 m ρ c),
      (h c _ (Cert.Kernel.Hand.mem_uc Cert.Kernel.main_arg13 (by decide))).trans (Cert.Kernel.Hand.W8_main_arg13 m ρ c),
      (h c _ (Cert.Kernel.Hand.mem_uc Cert.Kernel.main_arg14 (by decide))).trans (Cert.Kernel.Hand.W8_main_arg14 m ρ c),
      (h c _ (Cert.Kernel.Hand.mem_uc Cert.Kernel.main_arg15 (by decide))).trans (Cert.Kernel.Hand.W8_main_arg15 m ρ c),
      (h c _ (Cert.Kernel.Hand.mem_uc Cert.Kernel.main_arg16 (by decide))).trans (Cert.Kernel.Hand.W8_main_arg16 m ρ c),
      (h c _ (Cert.Kernel.Hand.mem_uc Cert.Kernel.main_arg17 (by decide))).trans (Cert.Kernel.Hand.W8_main_arg17 m ρ c)⟩)
    (Cert.Kernel.Hand.run_all (F := Bits) m ρ oblK)

/-- The idealized kernel program likewise, at the ideal instance. -/
theorem frame_KI : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c),
      (h c _ (Cert.KernelIdeal.Hand.mem_uc Cert.KernelIdeal.main_arg13 (by decide))).trans (Cert.KernelIdeal.Hand.W8_main_arg13 m ρ c),
      (h c _ (Cert.KernelIdeal.Hand.mem_uc Cert.KernelIdeal.main_arg14 (by decide))).trans (Cert.KernelIdeal.Hand.W8_main_arg14 m ρ c),
      (h c _ (Cert.KernelIdeal.Hand.mem_uc Cert.KernelIdeal.main_arg15 (by decide))).trans (Cert.KernelIdeal.Hand.W8_main_arg15 m ρ c),
      (h c _ (Cert.KernelIdeal.Hand.mem_uc Cert.KernelIdeal.main_arg16 (by decide))).trans (Cert.KernelIdeal.Hand.W8_main_arg16 m ρ c),
      (h c _ (Cert.KernelIdeal.Hand.mem_uc Cert.KernelIdeal.main_arg17 (by decide))).trans (Cert.KernelIdeal.Hand.W8_main_arg17 m ρ c)⟩)
    (Cert.KernelIdeal.Hand.run_all (F := Ideal) m ρ oblKI)

/-- The reference runs and its arguments end as launched: its run states its result, then each argument unchanged. -/
theorem frame_R : Cert.frame_ReferenceIdeal := fun m ρ _ =>
  (θ_run Cert.ReferenceIdeal.defs _ _).mono (fun _ h c => (h c).2.2) (Cert.ReferenceIdeal.Value.run (F := Ideal) m ρ)

/-- The ledger's one entry: the table gives `"inv_100000"` the value `1/100000`, and the printed constant is that value
    at the ideal instance. -/
theorem preserves : Cert.preserves_Kernel_KernelIdeal :=
  IdealRules.named_const.statement Cert.KernelIdeal.κ "inv_100000" .f32 0x3727C5AC#32 ((1 / 100000 : ℝ) : EReal) rfl

end Cert.Proof.Frames

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.LibDense.lean ====
/-
  Dense layers over the extended reals, entry by entry.

  The product of an `M × K` matrix and a `K × N` matrix has at `(r, c)` the sum over `k` of `a (r, k) · w (k, c)`; the
  rectifier replaces every entry `x` by `max x 0`; a bias row `b` adds `b (0, c)` to every entry of column `c`. Over the
  extended reals `+` and `·` are commutative and associative and a finite sum does not depend on the order of its terms,
  so these are functions of the operands alone: the host's `dot_general` of two whole matrices and a kernel's matrix
  product into a zero accumulator are both this product, whatever the element formats of the operands (a change of
  float format is the identity on extended reals).
-/
import Idealize.ShloMosaic.Lib.ValueIdx
import Idealize.ShloMosaic.PureOps.Ideal.Laws
import proofs.«115216_j652835029484_1_alg».proof.Proof.LibPlainDot

noncomputable section

open scoped BigOperators

namespace Cert.Dense

open Idealize.ShloMosaic Idealize.ShloMosaic.ValueIdx

variable {M K N : Nat}

/-- The matrix product: entry `(r, c)` is the sum over `k` of `a (r, k) · w (k, c)`. -/
def prod (a : FVec Ideal ⟨2, ![M, K]⟩ .f32) (w : FVec Ideal ⟨2, ![K, N]⟩ .f32) : FVec Ideal ⟨2, ![M, N]⟩ .f32 :=
  fun i => ∑ k : Fin K, a (ix2 ⟨(i 0).val, idx2_lt0 i⟩ k) * w (ix2 k ⟨(i 1).val, idx2_lt1 i⟩)

theorem prod_apply (a : FVec Ideal ⟨2, ![M, K]⟩ .f32) (w : FVec Ideal ⟨2, ![K, N]⟩ .f32) (r : Fin M) (c : Fin N) :
    prod a w (ix2 r c) = ∑ k : Fin K, a (ix2 r k) * w (ix2 k c) := rfl

/-- The rectifier: every entry `x` becomes `max x 0`, zero being the value of the all-zero f32 word. -/
def relu (a : FVec Ideal ⟨2, ![M, K]⟩ .f32) : FVec Ideal ⟨2, ![M, K]⟩ .f32 :=
  fun i => max (a i) (Ideal.ofBits .f32 0x00000000#32)

theorem relu_apply (a : FVec Ideal ⟨2, ![M, K]⟩ .f32) (i : (⟨2, ![M, K]⟩ : Shape).Idx) :
    relu a i = max (a i) (Ideal.ofBits .f32 0x00000000#32) := rfl

/-- The product with a bias row added: entry `(r, c)` is the product's entry plus `b (0, c)`. -/
def prodBias (a : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => prod a w i + b (ix2 (0 : Fin 1) ⟨(i 1).val, idx2_lt1 i⟩)

theorem prodBias_apply (a : FVec Ideal ⟨2, ![M, K]⟩ .f32) (w : FVec Ideal ⟨2, ![K, N]⟩ .f32) (b : FVec Ideal ⟨2, ![1, N]⟩ .f32)
    (r : Fin M) (c : Fin N) :
    prodBias a w b (ix2 r c) = (∑ k : Fin K, a (ix2 r k) * w (ix2 k c)) + b (ix2 (0 : Fin 1) c) := rfl

/-- The host's plain `dot_general` of two whole matrices is their product. -/
theorem dotGeneral_eq_prod (prec : Option ContractPrecision) (sched : HostSchedule)
    (a : FVec Ideal ⟨2, ![M, K]⟩ .f32) (w : FVec Ideal ⟨2, ![K, N]⟩ .f32) :
    FloatOps.dotGeneral (DotDims.plain M K N) prec sched a w = prod a w := by
  funext i
  obtain ⟨r, c, rfl⟩ : ∃ (r : Fin M) (c : Fin N), i = ix2 r c := ⟨i 0, i 1, eq_ix2 i⟩
  exact PlainDot.dotGeneral_apply M K N prec sched a w r c

/-- A kernel's plain matrix product into the zero accumulator, of operands in any formats, at `(r, c)`. -/
theorem matmul_zero_apply {φ₁ φ₂ : FTy} (prec : Option ContractPrecision)
    (a : FVec Ideal ⟨2, ![M, K]⟩ φ₁) (w : FVec Ideal ⟨2, ![K, N]⟩ φ₂) (r : Fin M) (c : Fin N) :
    FloatOps.matmul (DotDims.plain M K N) prec a w (constant ⟨2, ![M, N]⟩ .f32 0x00000000#32) (ix2 r c)
      = ∑ k : Fin K, a (ix2 r k) * w (ix2 k c) :=
  PlainDot.matmul_zero_apply M K N prec a w r c

end Cert.Dense

end
-- ==== Proof.Spec.lean ====
/-
  The network as one function of its arguments, over the extended reals.

  A layer replaces the node features `h` (one row per node) by
  `relu (relu ((h + agg) · Wa + ba) · Wb + bb)`, where `agg` holds, row by row, the sum of the features of the node's
  in-neighbours (computed elsewhere from the edge list: here it is an argument). After three layers the rows are averaged
  (the sum of the 100000 rows times 1/100000) and two affine maps follow. Every entry is an extended real; `+` and `·`
  are the exact ones, so each definition below is a function of the operands' entries alone.
-/
import Idealize.ShloMosaic.Lib.ValueIdx
import Idealize.ShloMosaic.PureOps.Ideal
import proofs.«115216_j652835029484_1_alg».proof.Proof.LibDense

noncomputable section

open scoped BigOperators

namespace Cert.Spec

open Idealize.ShloMosaic Idealize.ShloMosaic.ValueIdx Cert.Dense

variable {M K N : Nat}

/-- A bias vector as a one-row matrix: entry `(0, c)` is entry `c`. -/
def row (b : FVec Ideal ⟨1, ![N]⟩ .f32) : FVec Ideal ⟨2, ![1, N]⟩ .f32 :=
  fun i => b (ix1 ⟨(i 1).val, idx2_lt1 i⟩)

theorem row_apply (b : FVec Ideal ⟨1, ![N]⟩ .f32) (c : Fin N) : row b (ix2 (0 : Fin 1) c) = b (ix1 c) := rfl

/-- The entrywise sum of two matrices. -/
def add (a b : FVec Ideal ⟨2, ![M, K]⟩ .f32) : FVec Ideal ⟨2, ![M, K]⟩ .f32 := fun i => a i + b i

/-- A layer's node update over bias ROWS: `relu (relu ((h + agg) · Wa + ba) · Wb + bb)`. -/
def mlpRow (h agg : FVec Ideal ⟨2, ![M, K]⟩ .f32) (Wa : FVec Ideal ⟨2, ![K, 128]⟩ .f32)
    (ba : FVec Ideal ⟨2, ![1, 128]⟩ .f32) (Wb : FVec Ideal ⟨2, ![128, 128]⟩ .f32) (bb : FVec Ideal ⟨2, ![1, 128]⟩ .f32) :
    FVec Ideal ⟨2, ![M, 128]⟩ .f32 :=
  relu (prodBias (relu (prodBias (add h agg) Wa ba)) Wb bb)

/-- The same over bias vectors. -/
def mlp (h agg : FVec Ideal ⟨2, ![M, K]⟩ .f32) (Wa : FVec Ideal ⟨2, ![K, 128]⟩ .f32)
    (ba : FVec Ideal ⟨1, ![128]⟩ .f32) (Wb : FVec Ideal ⟨2, ![128, 128]⟩ .f32) (bb : FVec Ideal ⟨1, ![128]⟩ .f32) :
    FVec Ideal ⟨2, ![M, 128]⟩ .f32 :=
  mlpRow h agg Wa (row ba) Wb (row bb)

/-- The mean over the rows, kept as one row: entry `(0, c)` is the sum of column `c` times `1/M` for `M = 100000`. -/
def pool (h : FVec Ideal ⟨2, ![100000, 128]⟩ .f32) : FVec Ideal ⟨2, ![1, 128]⟩ .f32 :=
  fun i => (∑ r : Fin 100000, h (ix2 r ⟨(i 1).val, idx2_lt1 i⟩)) * (((1 / 100000 : ℝ)) : EReal)

theorem pool_apply (h : FVec Ideal ⟨2, ![100000, 128]⟩ .f32) (c : Fin 128) :
    pool h (ix2 (0 : Fin 1) c) = (∑ r : Fin 100000, h (ix2 r c)) * (((1 / 100000 : ℝ)) : EReal) := rfl

/-- The classifier over bias ROWS: two affine maps. -/
def headRow (p : FVec Ideal ⟨2, ![1, 128]⟩ .f32) (Wc : FVec Ideal ⟨2, ![128, 128]⟩ .f32) (bc : FVec Ideal ⟨2, ![1, 128]⟩ .f32)
    (Wf : FVec Ideal ⟨2, ![128, 2]⟩ .f32) (bf : FVec Ideal ⟨2, ![1, 2]⟩ .f32) : FVec Ideal ⟨2, ![1, 2]⟩ .f32 :=
  prodBias (prodBias p Wc bc) Wf bf

/-- The same over bias vectors. -/
def head (p : FVec Ideal ⟨2, ![1, 128]⟩ .f32) (Wc : FVec Ideal ⟨2, ![128, 128]⟩ .f32) (bc : FVec Ideal ⟨1, ![128]⟩ .f32)
    (Wf : FVec Ideal ⟨2, ![128, 2]⟩ .f32) (bf : FVec Ideal ⟨1, ![2]⟩ .f32) : FVec Ideal ⟨2, ![1, 2]⟩ .f32 :=
  headRow p Wc (row bc) Wf (row bf)

/-- The whole network, the two neighbour sums (on 165 and on 128 columns) as parameters. -/
def net {EI : Type}
    (agg1 : FVec Ideal ⟨2, ![100000, 165]⟩ .f32 → EI → FVec Ideal ⟨2, ![100000, 165]⟩ .f32)
    (agg2 : FVec Ideal ⟨2, ![100000, 128]⟩ .f32 → EI → FVec Ideal ⟨2, ![100000, 128]⟩ .f32)
    (x : FVec Ideal ⟨2, ![100000, 165]⟩ .f32) (ei : EI)
    (W1a : FVec Ideal ⟨2, ![165, 128]⟩ .f32) (b1a : FVec Ideal ⟨1, ![128]⟩ .f32)
    (W1b : FVec Ideal ⟨2, ![128, 128]⟩ .f32) (b1b : FVec Ideal ⟨1, ![128]⟩ .f32)
    (W2a : FVec Ideal ⟨2, ![128, 128]⟩ .f32) (b2a : FVec Ideal ⟨1, ![128]⟩ .f32)
    (W2b : FVec Ideal ⟨2, ![128, 128]⟩ .f32) (b2b : FVec Ideal ⟨1, ![128]⟩ .f32)
    (W3a : FVec Ideal ⟨2, ![128, 128]⟩ .f32) (b3a : FVec Ideal ⟨1, ![128]⟩ .f32)
    (W3b : FVec Ideal ⟨2, ![128, 128]⟩ .f32) (b3b : FVec Ideal ⟨1, ![128]⟩ .f32)
    (Wc : FVec Ideal ⟨2, ![128, 128]⟩ .f32) (bc : FVec Ideal ⟨1, ![128]⟩ .f32)
    (Wf : FVec Ideal ⟨2, ![128, 2]⟩ .f32) (bf : FVec Ideal ⟨1, ![2]⟩ .f32) : FVec Ideal ⟨2, ![1, 2]⟩ .f32 :=
  let h1 := mlp x (agg1 x ei) W1a b1a W1b b1b
  let h2 := mlp h1 (agg2 h1 ei) W2a b2a W2b b2b
  let h3 := mlp h2 (agg2 h2 ei) W3a b3a W3b b3b
  head (pool h3) Wc bc Wf bf

end Cert.Spec

end
-- ==== Proof.KI.Pay0.lean ====
/-
  Region 0's payload is the layer update of the tile.

  The body's stored value is `max ((max ((x + a) · Wa + ba) 0) · Wb + bb) 0`, the two products taken into a zero
  accumulator after a change of float format (the identity on extended reals) and each bias row broadcast down the
  rows. Entry by entry this is `Spec.mlpRow` of the six blocks: one dense half at an index, used twice.
-/
import proofs.«115216_j652835029484_1_alg».proof.Proof.KI.Defs0
import proofs.«115216_j652835029484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.ValueIdx
open Cert.KernelIdeal Cert.KernelIdeal.Gen Cert.KernelIdeal.Hand
open Cert.Dense

/-- One dense half: the product of two matrices (each after a change of float format) into a zero accumulator, a
    bias row broadcast down the rows added, the rectifier applied — entry by entry `relu (prodBias a w b)`. -/
theorem half_eq {M K : Nat} {ψ : FTy} (D : DotDims ⟨2, ![M, K]⟩ ⟨2, ![K, 128]⟩ ⟨2, ![M, 128]⟩)
    (hD : D = DotDims.plain M K 128) (hψ : ψ.bits < FTy.f32.bits)
    (a : FVec Ideal ⟨2, ![M, K]⟩ .f32) (w : FVec Ideal ⟨2, ![K, 128]⟩ .f32) (b : FVec Ideal ⟨2, ![1, 128]⟩ .f32)
    (hs : (⟨2, ![1, 128]⟩ : Shape).ShapeCasts ⟨2, ![1, 128]⟩)
    (hb : (⟨2, ![1, 128]⟩ : Shape).Broadcasts ⟨2, ![M, 128]⟩) :
    maximumf
        (addf (matmul D none (truncf ψ a hψ) (truncf ψ w hψ) (constant (F := Ideal) ⟨2, ![M, 128]⟩ .f32 0x00000000#32))
          (broadcastTo ⟨2, ![M, 128]⟩ (shapeCast ⟨2, ![1, 128]⟩ b hs) hb))
        (broadcast ⟨2, ![M, 128]⟩ (Scalar.ofBits (F := Ideal) .f32 0x00000000#32))
      = relu (prodBias a w b) := by
  subst hD
  funext j
  obtain ⟨p, q, rfl⟩ : ∃ (p : Fin M) (q : Fin 128), j = ix2 p q := ⟨j 0, j 1, eq_ix2 j⟩
  rw [maximumf_apply, addf_apply, broadcast_apply, shapeCast_self, broadcastTo_1b_ab_apply, relu_apply, prodBias_apply]
  show max (FloatOps.matmul (DotDims.plain M K 128) none (truncf ψ a hψ) (truncf ψ w hψ)
      (constant (F := Ideal) ⟨2, ![M, 128]⟩ .f32 0x00000000#32) (ix2 p q) + b (ix2 0 q)) _ = _
  rw [matmul_zero_apply]
  rfl

/-- The payload of region 0 is the layer update of its six operands. -/
theorem pay0_eq (x0 x1 : Vec Ideal S4000x165 .f32) (x2 : Vec Ideal S165x128 .f32) (x3 : Vec Ideal S1x128 .f32)
    (x4 : Vec Ideal S128x128 .f32) (x5 : Vec Ideal S1x128 .f32) :
    k0_pay1 (F := Ideal) x0 x1 x2 x3 x4 x5 = Spec.mlpRow x0 x1 x2 x3 x4 x5 := by
  unfold k0_pay1 Spec.mlpRow
  dsimp only
  rw [shapeCast_self]
  rw [half_eq (M := 4000) (K := 165) dot_S4000x165_S165x128_S4000x128_1_0_0_1_n_n rfl]
  rw [half_eq (M := 4000) (K := 128) dot_S4000x128_S128x128_S4000x128_1_0_0_1_n_n rfl]
  rfl

end Cert.KernelIdeal.KVal

end
-- ==== Proof.KI.MlpRows.lean ====
/-
  The layer update acts row by row.

  Row `r` of `relu (relu ((h + agg) · Wa + ba) · Wb + bb)` is a function of row `r` of `h`, row `r` of `agg` and
  the weights alone. So if a matrix `h'` holds at its row `p` what `h` holds at its row `r` (and the same for the
  neighbour sums), the update of `h'` at `(p, q)` is the update of `h` at `(r, q)`: a tile of the update is the update
  of the tile.
-/
import proofs.«115216_j652835029484_1_alg».proof.Proof.Spec

noncomputable section

open scoped BigOperators

namespace Cert.Spec

open Idealize.ShloMosaic Idealize.ShloMosaic.ValueIdx Cert.Dense

variable {M M' K : Nat}

/-- The update at an entry depends on the operands' rows through that entry's row alone. -/
theorem mlpRow_row (h agg : FVec Ideal ⟨2, ![M, K]⟩ .f32) (h' agg' : FVec Ideal ⟨2, ![M', K]⟩ .f32)
    (Wa : FVec Ideal ⟨2, ![K, 128]⟩ .f32) (ba : FVec Ideal ⟨2, ![1, 128]⟩ .f32)
    (Wb : FVec Ideal ⟨2, ![128, 128]⟩ .f32) (bb : FVec Ideal ⟨2, ![1, 128]⟩ .f32)
    (p : Fin M') (r : Fin M) (q : Fin 128)
    (hh : ∀ k : Fin K, h' (ix2 p k) = h (ix2 r k)) (ha : ∀ k : Fin K, agg' (ix2 p k) = agg (ix2 r k)) :
    mlpRow h' agg' Wa ba Wb bb (ix2 p q) = mlpRow h agg Wa ba Wb bb (ix2 r q) := by
  unfold mlpRow
  rw [relu_apply, relu_apply, prodBias_apply, prodBias_apply]
  refine congrArg (fun s => max (s + bb (ix2 (0 : Fin 1) q)) _) (Finset.sum_congr rfl fun k _ => ?_)
  rw [relu_apply, relu_apply, prodBias_apply, prodBias_apply]
  refine congrArg (fun s => max (s + ba (ix2 (0 : Fin 1) k)) _ * Wb (ix2 k q)) (Finset.sum_congr rfl fun k' _ => ?_)
  show (h' (ix2 p k') + agg' (ix2 p k')) * _ = (h (ix2 r k') + agg (ix2 r k')) * _
  rw [hh, ha]

/-- The same at general indices: equal columns, and the operands' rows agreeing. -/
theorem mlpRow_idx (h agg : FVec Ideal ⟨2, ![M, K]⟩ .f32) (h' agg' : FVec Ideal ⟨2, ![M', K]⟩ .f32)
    (Wa : FVec Ideal ⟨2, ![K, 128]⟩ .f32) (ba : FVec Ideal ⟨2, ![1, 128]⟩ .f32)
    (Wb : FVec Ideal ⟨2, ![128, 128]⟩ .f32) (bb : FVec Ideal ⟨2, ![1, 128]⟩ .f32)
    (j : (⟨2, ![M', 128]⟩ : Shape).Idx) (i : (⟨2, ![M, 128]⟩ : Shape).Idx) (hq : (i 1).val = (j 1).val)
    (hh : ∀ k : Fin K, h' (ix2 ⟨(j 0).val, idx2_lt0 j⟩ k) = h (ix2 ⟨(i 0).val, idx2_lt0 i⟩ k))
    (ha : ∀ k : Fin K, agg' (ix2 ⟨(j 0).val, idx2_lt0 j⟩ k) = agg (ix2 ⟨(i 0).val, idx2_lt0 i⟩ k)) :
    mlpRow h' agg' Wa ba Wb bb j = mlpRow h agg Wa ba Wb bb i := by
  have ej : j = ix2 (⟨(j 0).val, idx2_lt0 j⟩ : Fin M') (⟨(i 1).val, idx2_lt1 i⟩ : Fin 128) := by
    funext a
    match a with
    | ⟨0, _⟩ => rfl
    | ⟨1, _⟩ => exact Fin.ext hq.symm
  have ei : i = ix2 (⟨(i 0).val, idx2_lt0 i⟩ : Fin M) (⟨(i 1).val, idx2_lt1 i⟩ : Fin 128) := by
    funext a
    match a with
    | ⟨0, _⟩ => rfl
    | ⟨1, _⟩ => rfl
  rw [ej, ei]
  exact mlpRow_row h agg h' agg' Wa ba Wb bb _ _ _ hh ha

end Cert.Spec

end
-- ==== Proof.KI.Val0.lean ====
/-
  Region 0: from the tiles to the array.

  Tile `t` of the two row-tiled windows (features and neighbour sums) is rows `4000·t … 4000·t + 3999` of its array;
  the four weight and bias windows are their arrays whole at every tile; the output's tile `t` is rows
  `4000·t … 4000·t + 3999` of its array. The layer update acts row by row, so what tile `t` writes back is tile `t`
  of the update of the whole arrays; the 25 tiles cover the 100000 rows (row `r` is in tile `r / 4000`), so the output
  array ends holding the update of the arrays the region found.
-/
import proofs.«115216_j652835029484_1_alg».proof.Proof.KI.Defs0
import proofs.«115216_j652835029484_1_alg».proof.Proof.KI.Pay0
import proofs.«115216_j652835029484_1_alg».proof.Proof.KI.MlpRows
import proofs.«115216_j652835029484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the row-tiled windows are at block `(t, 0)`, the weight and bias
    windows at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The features' tile `t` is rows `4000·t …` of the array. -/
theorem iblk0_0_apply (c : Dev nD) (t : Fin cfg0.N) (y : S4000x165.Idx) (k : S100000x165.Idx)
    (hk0 : (k 0).val = 4000 * t.val + (y 0).val) (hk1 : (k 1).val = (y 1).val) :
    (iblk0 V c 0 t : Vec Ideal S4000x165 .f32) y = (V c main_arg0 : S100000x165.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 4000 + 1 * (y 0).val = (k 0).val; rw [e0, hk0]; omega
  | ⟨1, _⟩ => show win0_0.index t 1 * 165 + 1 * (y 1).val = (k 1).val; rw [e1, hk1]; omega

/-- The neighbour sums' tile `t` is rows `4000·t …` of the array. -/
theorem iblk0_1_apply (c : Dev nD) (t : Fin cfg0.N) (y : S4000x165.Idx) (k : S100000x165.Idx)
    (hk0 : (k 0).val = 4000 * t.val + (y 0).val) (hk1 : (k 1).val = (y 1).val) :
    (iblk0 V c 1 t : Vec Ideal S4000x165 .f32) y = (V c main_v13 : S100000x165.Idx → Elt Ideal .f32) k := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t 0 * 4000 + 1 * (y 0).val = (k 0).val; rw [e0, hk0]; omega
  | ⟨1, _⟩ => show win0_1.index t 1 * 165 + 1 * (y 1).val = (k 1).val; rw [e1, hk1]; omega

/-! The weight and bias windows hold their arrays whole at every tile. -/

theorem iblk0_2_eq (c : Dev nD) (t : Fin cfg0.N) :
    (iblk0 V c 2 t : Vec Ideal S165x128 .f32) = (V c main_arg2 : S165x128.Idx → Elt Ideal .f32) := by
  obtain ⟨-, -, -, -, e20, e21, e30, e31, e40, e41, e50, e51, -⟩ := idx_facts0 t
  funext y
  unfold iblk0
  rw [View.read_apply]
  show V c main_arg2 _ = V c main_arg2 _
  congr 1
  funext a
  apply Fin.ext
  match a with
  | ⟨0, _⟩ => show win0_2.index t 0 * 165 + 1 * (y 0).val = (y 0).val; rw [e20]; omega
  | ⟨1, _⟩ => show win0_2.index t 1 * 128 + 1 * (y 1).val = (y 1).val; rw [e21]; omega

theorem iblk0_3_eq (c : Dev nD) (t : Fin cfg0.N) :
    (iblk0 V c 3 t : Vec Ideal S1x128 .f32) = (V c main_v14 : S1x128.Idx → Elt Ideal .f32) := by
  obtain ⟨-, -, -, -, e20, e21, e30, e31, e40, e41, e50, e51, -⟩ := idx_facts0 t
  funext y
  unfold iblk0
  rw [View.read_apply]
  show V c main_v14 _ = V c main_v14 _
  congr 1
  funext a
  apply Fin.ext
  match a with
  | ⟨0, _⟩ => show win0_3.index t 0 * 1 + 1 * (y 0).val = (y 0).val; rw [e30]; omega
  | ⟨1, _⟩ => show win0_3.index t 1 * 128 + 1 * (y 1).val = (y 1).val; rw [e31]; omega

theorem iblk0_4_eq (c : Dev nD) (t : Fin cfg0.N) :
    (iblk0 V c 4 t : Vec Ideal S128x128 .f32) = (V c main_arg4 : S128x128.Idx → Elt Ideal .f32) := by
  obtain ⟨-, -, -, -, e20, e21, e30, e31, e40, e41, e50, e51, -⟩ := idx_facts0 t
  funext y
  unfold iblk0
  rw [View.read_apply]
  show V c main_arg4 _ = V c main_arg4 _
  congr 1
  funext a
  apply Fin.ext
  match a with
  | ⟨0, _⟩ => show win0_4.index t 0 * 128 + 1 * (y 0).val = (y 0).val; rw [e40]; omega
  | ⟨1, _⟩ => show win0_4.index t 1 * 128 + 1 * (y 1).val = (y 1).val; rw [e41]; omega

theorem iblk0_5_eq (c : Dev nD) (t : Fin cfg0.N) :
    (iblk0 V c 5 t : Vec Ideal S1x128 .f32) = (V c main_v15 : S1x128.Idx → Elt Ideal .f32) := by
  obtain ⟨-, -, -, -, e20, e21, e30, e31, e40, e41, e50, e51, -⟩ := idx_facts0 t
  funext y
  unfold iblk0
  rw [View.read_apply]
  show V c main_v15 _ = V c main_v15 _
  congr 1
  funext a
  apply Fin.ext
  match a with
  | ⟨0, _⟩ => show win0_5.index t 0 * 1 + 1 * (y 0).val = (y 0).val; rw [e50]; omega
  | ⟨1, _⟩ => show win0_5.index t 1 * 128 + 1 * (y 1).val = (y 1).val; rw [e51]; omega

/-- The layer update of the arrays the region finds. -/
abbrev G0 (c : Dev nD) : S100000x128.Idx → Elt Ideal .f32 :=
  Spec.mlpRow (V c main_arg0 : S100000x165.Idx → Elt Ideal .f32) (V c main_v13 : S100000x165.Idx → Elt Ideal .f32)
    (V c main_arg2 : S165x128.Idx → Elt Ideal .f32) (V c main_v14 : S1x128.Idx → Elt Ideal .f32)
    (V c main_arg4 : S128x128.Idx → Elt Ideal .f32) (V c main_v15 : S1x128.Idx → Elt Ideal .f32)

/-- What tile `t` writes back is tile `t` of the layer update of the whole arrays. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S4000x165) hz0, View.ld_unit_zero (S := S165x128) hz0,
    View.ld_unit_zero (S := S1x128) hz0, View.ld_unit_zero (S := S128x128) hz0]
  rw [pay0_eq, iblk0_2_eq, iblk0_3_eq, iblk0_4_eq, iblk0_5_eq]
  obtain ⟨-, -, -, -, -, -, -, -, -, -, -, -, e60, e61⟩ := idx_facts0 t
  funext j
  rw [View.read_apply]
  have hj0 : (((cfg0.win 6).blk t).view.emb j (0 : Fin 2)).val = 4000 * t.val + (j 0).val := by
    show win0_6.index t 0 * 4000 + 1 * (j 0).val = _; rw [e60]; omega
  have hj1 : (((cfg0.win 6).blk t).view.emb j (1 : Fin 2)).val = (j 1).val := by
    show win0_6.index t 1 * 128 + 1 * (j 1).val = _; rw [e61]; omega
  refine Spec.mlpRow_idx _ _ (iblk0 V c 0 t) (iblk0 V c 1 t) _ _ _ _ j _ hj1 (fun k => ?_) (fun k => ?_)
  · exact iblk0_0_apply V c t _ _ hj0 rfl
  · exact iblk0_1_apply V c t _ _ hj0 rfl

/-- An index of the output array is in tile `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v16).slice (win0_6.rect t)).set ↔ _
  rw [View.set_slice_whole, Rect.mem_set_unit]
  exact Iff.rfl

/-- Row `r` is in tile `r / 4000`: the 25 tiles cover the array. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, e60, e61⟩ := idx_facts0 t
  have ht : t.val = (i 0).val / 4000 := rfl
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; rw [e60, ht]; omega
  | ⟨1, _⟩ => show win0_6.index t (1 : Fin 2) * 128 ≤ (i 1).val ∧ (i 1).val < win0_6.index t (1 : Fin 2) * 128 + 128; rw [e61]; omega

/-- The output array after the region: the layer update of the arrays the region found. -/
theorem final0 (c : Dev nD) :
    (dat0 (F := Ideal) V c).arrAt 6 cfg0.N
      = Spec.mlpRow (V c main_arg0) (V c main_v13) (V c main_arg2) (V c main_v14) (V c main_arg4) (V c main_v15) :=
  (dat0 (F := Ideal) V c).arrAt_eq_of_cover 6 (G0 V c) (fun t _ => flushed0_eq V c t) (cover0)

end Cert.KernelIdeal.KVal

end
-- ==== Proof.RefConsts.lean ====
/-
  The float constant the reference's mean divides by, as the extended real its bit pattern denotes.

  The f32 word 0x47C35000 has sign 0, biased exponent 143 and fraction 0x435000, so it denotes
  (1 + 0x435000 / 2^23) * 2^16 = 100000 exactly.
-/
import Idealize.ShloMosaic.PureOps.Ideal

noncomputable section

namespace Cert.RefConsts

open Idealize.ShloMosaic

/-- The f32 word 0x47C35000 denotes the real 100000. -/
theorem ofBits_100000 : Ideal.ofBits .f32 0x47C35000#32 = ((100000 : ℝ) : EReal) := by
  simp [Ideal.ofBits, Ideal.ieee, -EReal.coe_mul]; norm_num

end Cert.RefConsts

end
-- ==== Proof.RefSteps.lean ====
/-
  A layer, the mean and the classifier recognised from their entries.

  Each statement takes arrays that are known entry by entry — a sum of two arrays, a matrix product read at (r, c) as
  the sum over k, a bias added along the columns, the maximum with zero — and concludes that the last one is the
  specification's function of the first. Over the extended reals every step is the textbook operation, so the
  conclusion is an unfolding of the specification at an index.
-/
import proofs.«115216_j652835029484_1_alg».proof.Proof.Spec
import proofs.«115216_j652835029484_1_alg».proof.Proof.RefConsts
import Idealize.ShloMosaic.Lib.ValueIdx
import Idealize.ShloMosaic.PureOps.Ideal.Laws

noncomputable section

open scoped BigOperators

namespace Cert.RefSteps

open Idealize.ShloMosaic Idealize.ShloMosaic.ValueIdx

/-- A layer from its seven steps: s = h + agg, d1 = s · Wa, a1 = d1 + ba, r1 = max a1 0, d2 = r1 · Wb, a2 = d2 + bb,
    r2 = max a2 0. -/
theorem mlp_of_steps {K : Nat}
    (h agg : FVec Ideal ⟨2, ![100000, K]⟩ .f32) (Wa : FVec Ideal ⟨2, ![K, 128]⟩ .f32) (ba : FVec Ideal ⟨1, ![128]⟩ .f32)
    (Wb : FVec Ideal ⟨2, ![128, 128]⟩ .f32) (bb : FVec Ideal ⟨1, ![128]⟩ .f32)
    (s : FVec Ideal ⟨2, ![100000, K]⟩ .f32) (d1 a1 r1 d2 a2 r2 : FVec Ideal ⟨2, ![100000, 128]⟩ .f32)
    (hs : ∀ i, s i = h i + agg i)
    (hd1 : ∀ r c, d1 (ix2 r c) = ∑ k : Fin K, s (ix2 r k) * Wa (ix2 k c))
    (ha1 : ∀ r c, a1 (ix2 r c) = d1 (ix2 r c) + ba (ix1 c))
    (hr1 : ∀ i, r1 i = max (a1 i) (Ideal.ofBits .f32 0x00000000#32))
    (hd2 : ∀ r c, d2 (ix2 r c) = ∑ k : Fin 128, r1 (ix2 r k) * Wb (ix2 k c))
    (ha2 : ∀ r c, a2 (ix2 r c) = d2 (ix2 r c) + bb (ix1 c))
    (hr2 : ∀ i, r2 i = max (a2 i) (Ideal.ofBits .f32 0x00000000#32)) :
    r2 = Cert.Spec.mlp h agg Wa ba Wb bb := by
  funext i
  obtain ⟨r, c, rfl⟩ : ∃ (r : Fin 100000) (c : Fin 128), i = ix2 r c := ⟨i 0, i 1, eq_ix2 i⟩
  rw [hr2, ha2, hd2]
  simp only [hr1, ha1, hd1, hs]
  rfl

/-- The mean from its entries: the sum of a column from the zero word, divided by the word of 100000. -/
theorem pool_of_steps (h : FVec Ideal ⟨2, ![100000, 128]⟩ .f32) (p : FVec Ideal ⟨2, ![1, 128]⟩ .f32)
    (hp : ∀ (r : Fin 1) (c : Fin 128), p (ix2 r c)
      = Ideal.div (Ideal.ofBits .f32 0x00000000#32 + ∑ k : Fin 100000, h (ix2 k c)) (Ideal.ofBits .f32 0x47C35000#32)) :
    p = Cert.Spec.pool h := by
  funext i
  obtain ⟨r, c, rfl⟩ : ∃ (r : Fin 1) (c : Fin 128), i = ix2 r c := ⟨i 0, i 1, eq_ix2 i⟩
  rw [hp, Ideal.ofBits_zero_f32, zero_add, Cert.RefConsts.ofBits_100000,
    Ideal.div_coe (by norm_num : (100000 : ℝ) ≠ 0)]
  rfl

/-- The classifier from its four steps: d1 = p · Wc, a1 = d1 + bc, d2 = a1 · Wf, a2 = d2 + bf. -/
theorem head_of_steps (p : FVec Ideal ⟨2, ![1, 128]⟩ .f32) (Wc : FVec Ideal ⟨2, ![128, 128]⟩ .f32)
    (bc : FVec Ideal ⟨1, ![128]⟩ .f32) (Wf : FVec Ideal ⟨2, ![128, 2]⟩ .f32) (bf : FVec Ideal ⟨1, ![2]⟩ .f32)
    (d1 a1 : FVec Ideal ⟨2, ![1, 128]⟩ .f32) (d2 a2 : FVec Ideal ⟨2, ![1, 2]⟩ .f32)
    (hd1 : ∀ r c, d1 (ix2 r c) = ∑ k : Fin 128, p (ix2 r k) * Wc (ix2 k c))
    (ha1 : ∀ r c, a1 (ix2 r c) = d1 (ix2 r c) + bc (ix1 c))
    (hd2 : ∀ r c, d2 (ix2 r c) = ∑ k : Fin 128, a1 (ix2 r k) * Wf (ix2 k c))
    (ha2 : ∀ r c, a2 (ix2 r c) = d2 (ix2 r c) + bf (ix1 c)) :
    a2 = Cert.Spec.head p Wc bc Wf bf := by
  funext i
  obtain ⟨r, c, rfl⟩ : ∃ (r : Fin 1) (c : Fin 2), i = ix2 r c := ⟨i 0, i 1, eq_ix2 i⟩
  rw [ha2, hd2]
  simp only [ha1, hd1]
  rfl

end Cert.RefSteps

end
-- ==== Proof.RefValue.lean ====
/-
  The reference's result is the specification's network.

  The reference computes, three times, a neighbour sum (a gather of the rows at the edges' source endpoints and a
  scatter-add of them at the destination endpoints, both driven by the integer edge list and kept here as one function
  of the node features and the edge list), the sum with the features, a matrix product, a bias, a maximum with zero,
  a second product, bias and maximum; then the column sums divided by 100000; then two products with biases. Each
  operation read at an index is the textbook one over the extended reals, so every layer is the specification's
  layer of its input, the mean is the specification's mean (a quotient by the real 100000 is a product with
  1/100000), and the last two products are its classifier.
-/
import proofs.«115216_j652835029484_1_alg».proof.Proof.Gen.ReferenceIdeal.Read
import proofs.«115216_j652835029484_1_alg».proof.Proof.Spec
import proofs.«115216_j652835029484_1_alg».proof.Proof.RefSteps
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read
open Idealize.ShloMosaic Idealize.ShloMosaic.ValueIdx

/-- Two rank-2 indices are equal when their two coordinates are. -/
local macro "idx2" : tactic =>
  `(tactic| exact funext fun a => Fin.ext (by match a with | ⟨0, _⟩ => rfl | ⟨1, _⟩ => rfl))
/-- Two rank-1 indices are equal when their coordinate is. -/
local macro "idx1" : tactic =>
  `(tactic| exact funext fun a => Fin.ext (by match a with | ⟨0, _⟩ => rfl))

/-! ## The neighbour sum -/

/-- Row 0 of the edge list: the edges' source endpoints. -/
def srcRow (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge list: the edges' destination endpoints. -/
def dstRow (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- The source endpoints with a negative entry wrapped: `src + 100000` where `src < 0`, else `src`. -/
def srcWrapped (ei : (⟨S2x1600000, .i32⟩ : BufTy).Contents (Elt Ideal)) : (⟨S1600000, .i32⟩ : BufTy).Contents (Elt Ideal) :=
  select (cmpi .slt (srcRow ei) (broadcastInDim S1600000 ![] bcast_S_S1600000 (constantI S_ 32 0#32)))
    (addi (srcRow ei) (broadcastInDim S1600000 ![] bcast_S_S1600000 (constantI S_ 32 100000#32)))
    (srcRow ei)

/-- The neighbour sum on 165 columns: the rows of `x` at the wrapped source endpoints, added into a zero array at the
    destination endpoints. -/
def agg165 (x : FVec Ideal S100000x165 .f32) (ei : (⟨S2x1600000, .i32⟩ : BufTy).Contents (Elt Ideal)) : FVec Ideal S100000x165 .f32 :=
  Host.scatterAdd scatter_S100000x165_S1600000x1_S1600000x165_1_0_0_1
    (broadcastInDim S100000x165 ![] bcast_S_S100000x165 (constant (F := Ideal) S_ .f32 0x00000000#32))
    (broadcastInDim S1600000x1 ![0] bcast_S1600000_S1600000x1_0 (dstRow ei))
    (Host.gather gather_S100000x165_S1600000x1_S1600000x165_1_0_n_n_0_1_1165 x
      (broadcastInDim S1600000x1 ![0] bcast_S1600000_S1600000x1_0 (srcWrapped ei)))

/-- The neighbour sum on 128 columns. -/
def agg128 (h : FVec Ideal S100000x128 .f32) (ei : (⟨S2x1600000, .i32⟩ : BufTy).Contents (Elt Ideal)) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstRow ei))
    (Host.gather gather_S100000x128_S1600000x1_S1600000x128_1_0_n_n_0_1_1128 h
      (broadcastInDim S1600000x1 ![0] bcast_S1600000_S1600000x1_0 (srcWrapped ei)))

/-- The first layer's scatter is the neighbour sum of the node features. -/
theorem v13_eq (x0 : (⟨S100000x165, .f32⟩ : BufTy).Contents (Elt Ideal)) (x1 : (⟨S2x1600000, .i32⟩ : BufTy).Contents (Elt Ideal)) : val_main_v13 (F := Ideal) x0 x1 = agg165 x0 x1 := rfl

/-- The second layer's scatter is the neighbour sum of the first layer's output. -/
theorem v34_eq (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) : val_main_v34 (F := Ideal) x0 x1 x2 x3 x4 x5 = agg128 (val_main_v24 (F := Ideal) x0 x1 x2 x3 x4 x5) x1 := rfl

/-- The third layer's scatter is the neighbour sum of the second layer's output. -/
theorem v55_eq (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) : val_main_v55 (F := Ideal) x0 x1 x2 x3 x4 x5 x6 x7 x8 x9 = agg128 (val_main_v45 (F := Ideal) x0 x1 x2 x3 x4 x5 x6 x7 x8 x9) x1 := rfl

/-! ## The three layers -/

/-- The first layer's output is the specification's layer of the node features. -/
theorem layer1 (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v24 (F := Ideal) x0 x1 x2 x3 x4 x5 = Cert.Spec.mlp (x0) (agg165 x0 x1) x2 x3 x4 x5 :=
  Cert.RefSteps.mlp_of_steps (K := 165) (x0) (agg165 x0 x1) x2 x3 x4 x5
    (val_main_v14 (F := Ideal) x0 x1) (val_main_v15 (F := Ideal) x0 x1 x2) (val_main_v18 (F := Ideal) x0 x1 x2 x3) (val_main_v19 (F := Ideal) x0 x1 x2 x3) (val_main_v20 (F := Ideal) x0 x1 x2 x3 x4) (val_main_v23 (F := Ideal) x0 x1 x2 x3 x4 x5) (val_main_v24 (F := Ideal) x0 x1 x2 x3 x4 x5)
    (fun i => val_main_v14_apply x0 x1 i)
    (fun r c => (val_main_v15_apply x0 x1 x2 (ix2 r c)).trans (Finset.sum_congr rfl fun k _ => by
      rw [show lidx_main_v15 (ix2 r c) k = ix2 r k from by idx2, show ridx_main_v15 (ix2 r c) k = ix2 k c from by idx2]))
    (fun r c => (val_main_v18_apply x0 x1 x2 x3 (ix2 r c)).trans (by
      rw [Ideal.addf_def, val_main_v17_apply, val_main_v16_apply,
        show idx_main_v16 (idx_main_v17 (ix2 r c)) = ix1 c from by idx1]))
    (fun i => (val_main_v19_apply x0 x1 x2 x3 i).trans (by
      rw [Ideal.maximumf_def, val_main_call0_v0_apply, val_main_call0_cst_apply, Ideal.ofBits_def]))
    (fun r c => (val_main_v20_apply x0 x1 x2 x3 x4 (ix2 r c)).trans (Finset.sum_congr rfl fun k _ => by
      rw [show lidx_main_v20 (ix2 r c) k = ix2 r k from by idx2, show ridx_main_v20 (ix2 r c) k = ix2 k c from by idx2]))
    (fun r c => (val_main_v23_apply x0 x1 x2 x3 x4 x5 (ix2 r c)).trans (by
      rw [Ideal.addf_def, val_main_v22_apply, val_main_v21_apply,
        show idx_main_v21 (idx_main_v22 (ix2 r c)) = ix1 c from by idx1]))
    (fun i => (val_main_v24_apply x0 x1 x2 x3 x4 x5 i).trans (by
      rw [Ideal.maximumf_def, val_main_call1_v0_apply, val_main_call1_cst_apply, Ideal.ofBits_def]))

/-- The second layer's output is the specification's layer of the first layer's. -/
theorem layer2 (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v45 (F := Ideal) x0 x1 x2 x3 x4 x5 x6 x7 x8 x9 = Cert.Spec.mlp (val_main_v24 (F := Ideal) x0 x1 x2 x3 x4 x5) (agg128 (val_main_v24 (F := Ideal) x0 x1 x2 x3 x4 x5) x1) x6 x7 x8 x9 :=
  Cert.RefSteps.mlp_of_steps (K := 128) (val_main_v24 (F := Ideal) x0 x1 x2 x3 x4 x5) (agg128 (val_main_v24 (F := Ideal) x0 x1 x2 x3 x4 x5) x1) x6 x7 x8 x9
    (val_main_v35 (F := Ideal) x0 x1 x2 x3 x4 x5) (val_main_v36 (F := Ideal) x0 x1 x2 x3 x4 x5 x6) (val_main_v39 (F := Ideal) x0 x1 x2 x3 x4 x5 x6 x7) (val_main_v40 (F := Ideal) x0 x1 x2 x3 x4 x5 x6 x7) (val_main_v41 (F := Ideal) x0 x1 x2 x3 x4 x5 x6 x7 x8) (val_main_v44 (F := Ideal) x0 x1 x2 x3 x4 x5 x6 x7 x8 x9) (val_main_v45 (F := Ideal) x0 x1 x2 x3 x4 x5 x6 x7 x8 x9)
    (fun i => val_main_v35_apply x0 x1 x2 x3 x4 x5 i)
    (fun r c => (val_main_v36_apply x0 x1 x2 x3 x4 x5 x6 (ix2 r c)).trans (Finset.sum_congr rfl fun k _ => by
      rw [show lidx_main_v36 (ix2 r c) k = ix2 r k from by idx2, show ridx_main_v36 (ix2 r c) k = ix2 k c from by idx2]))
    (fun r c => (val_main_v39_apply x0 x1 x2 x3 x4 x5 x6 x7 (ix2 r c)).trans (by
      rw [Ideal.addf_def, val_main_v38_apply, val_main_v37_apply,
        show idx_main_v37 (idx_main_v38 (ix2 r c)) = ix1 c from by idx1]))
    (fun i => (val_main_v40_apply x0 x1 x2 x3 x4 x5 x6 x7 i).trans (by
      rw [Ideal.maximumf_def, val_main_call2_v0_apply, val_main_call2_cst_apply, Ideal.ofBits_def]))
    (fun r c => (val_main_v41_apply x0 x1 x2 x3 x4 x5 x6 x7 x8 (ix2 r c)).trans (Finset.sum_congr rfl fun k _ => by
      rw [show lidx_main_v41 (ix2 r c) k = ix2 r k from by idx2, show ridx_main_v41 (ix2 r c) k = ix2 k c from by idx2]))
    (fun r c => (val_main_v44_apply x0 x1 x2 x3 x4 x5 x6 x7 x8 x9 (ix2 r c)).trans (by
      rw [Ideal.addf_def, val_main_v43_apply, val_main_v42_apply,
        show idx_main_v42 (idx_main_v43 (ix2 r c)) = ix1 c from by idx1]))
    (fun i => (val_main_v45_apply x0 x1 x2 x3 x4 x5 x6 x7 x8 x9 i).trans (by
      rw [Ideal.maximumf_def, val_main_call3_v0_apply, val_main_call3_cst_apply, Ideal.ofBits_def]))

/-- The third layer's output is the specification's layer of the second layer's. -/
theorem layer3 (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    val_main_v66 (F := Ideal) x0 x1 x2 x3 x4 x5 x6 x7 x8 x9 x10 x11 x12 x13 = Cert.Spec.mlp (val_main_v45 (F := Ideal) x0 x1 x2 x3 x4 x5 x6 x7 x8 x9) (agg128 (val_main_v45 (F := Ideal) x0 x1 x2 x3 x4 x5 x6 x7 x8 x9) x1) x10 x11 x12 x13 :=
  Cert.RefSteps.mlp_of_steps (K := 128) (val_main_v45 (F := Ideal) x0 x1 x2 x3 x4 x5 x6 x7 x8 x9) (agg128 (val_main_v45 (F := Ideal) x0 x1 x2 x3 x4 x5 x6 x7 x8 x9) x1) x10 x11 x12 x13
    (val_main_v56 (F := Ideal) x0 x1 x2 x3 x4 x5 x6 x7 x8 x9) (val_main_v57 (F := Ideal) x0 x1 x2 x3 x4 x5 x6 x7 x8 x9 x10) (val_main_v60 (F := Ideal) x0 x1 x2 x3 x4 x5 x6 x7 x8 x9 x10 x11) (val_main_v61 (F := Ideal) x0 x1 x2 x3 x4 x5 x6 x7 x8 x9 x10 x11) (val_main_v62 (F := Ideal) x0 x1 x2 x3 x4 x5 x6 x7 x8 x9 x10 x11 x12) (val_main_v65 (F := Ideal) x0 x1 x2 x3 x4 x5 x6 x7 x8 x9 x10 x11 x12 x13) (val_main_v66 (F := Ideal) x0 x1 x2 x3 x4 x5 x6 x7 x8 x9 x10 x11 x12 x13)
    (fun i => val_main_v56_apply x0 x1 x2 x3 x4 x5 x6 x7 x8 x9 i)
    (fun r c => (val_main_v57_apply x0 x1 x2 x3 x4 x5 x6 x7 x8 x9 x10 (ix2 r c)).trans (Finset.sum_congr rfl fun k _ => by
      rw [show lidx_main_v57 (ix2 r c) k = ix2 r k from by idx2, show ridx_main_v57 (ix2 r c) k = ix2 k c from by idx2]))
    (fun r c => (val_main_v60_apply x0 x1 x2 x3 x4 x5 x6 x7 x8 x9 x10 x11 (ix2 r c)).trans (by
      rw [Ideal.addf_def, val_main_v59_apply, val_main_v58_apply,
        show idx_main_v58 (idx_main_v59 (ix2 r c)) = ix1 c from by idx1]))
    (fun i => (val_main_v61_apply x0 x1 x2 x3 x4 x5 x6 x7 x8 x9 x10 x11 i).trans (by
      rw [Ideal.maximumf_def, val_main_call4_v0_apply, val_main_call4_cst_apply, Ideal.ofBits_def]))
    (fun r c => (val_main_v62_apply x0 x1 x2 x3 x4 x5 x6 x7 x8 x9 x10 x11 x12 (ix2 r c)).trans (Finset.sum_congr rfl fun k _ => by
      rw [show lidx_main_v62 (ix2 r c) k = ix2 r k from by idx2, show ridx_main_v62 (ix2 r c) k = ix2 k c from by idx2]))
    (fun r c => (val_main_v65_apply x0 x1 x2 x3 x4 x5 x6 x7 x8 x9 x10 x11 x12 x13 (ix2 r c)).trans (by
      rw [Ideal.addf_def, val_main_v64_apply, val_main_v63_apply,
        show idx_main_v63 (idx_main_v64 (ix2 r c)) = ix1 c from by idx1]))
    (fun i => (val_main_v66_apply x0 x1 x2 x3 x4 x5 x6 x7 x8 x9 x10 x11 x12 x13 i).trans (by
      rw [Ideal.maximumf_def, val_main_call5_v0_apply, val_main_call5_cst_apply, Ideal.ofBits_def]))

/-! ## The mean and the classifier -/

/-- The quotient of the column sums by 100000 is the specification's mean of the third layer's output. -/
theorem pooled (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    val_main_v70 (F := Ideal) x0 x1 x2 x3 x4 x5 x6 x7 x8 x9 x10 x11 x12 x13 = Cert.Spec.pool (val_main_v66 (F := Ideal) x0 x1 x2 x3 x4 x5 x6 x7 x8 x9 x10 x11 x12 x13) :=
  Cert.RefSteps.pool_of_steps (val_main_v66 (F := Ideal) x0 x1 x2 x3 x4 x5 x6 x7 x8 x9 x10 x11 x12 x13) (val_main_v70 (F := Ideal) x0 x1 x2 x3 x4 x5 x6 x7 x8 x9 x10 x11 x12 x13) (fun r c => by
    rw [val_main_v70_apply, Ideal.hostDivf_def, val_main_v68_apply, val_main_v67_apply, val_main_cst_7_apply,
      val_main_v69_apply, val_main_cst_8_apply, Ideal.ofBits_def, Ideal.ofBits_def]
    refine congrArg (fun t => Ideal.div (Ideal.ofBits .f32 0x00000000#32 + t) (Ideal.ofBits .f32 0x47C35000#32))
      (Finset.sum_congr rfl fun k _ => ?_)
    rw [show idx_main_v67 (idx_main_v68 (ix2 r c)) k = ix2 k c from by idx2])

/-- The last two products with their biases are the specification's classifier of the mean. -/
theorem classified (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x2, .f32⟩ : BufTy).Contents (Elt Ideal)) (x17 : (⟨S2, .f32⟩ : BufTy).Contents (Elt Ideal)) :
    val_main_v76 (F := Ideal) x0 x1 x2 x3 x4 x5 x6 x7 x8 x9 x10 x11 x12 x13 x14 x15 x16 x17 = Cert.Spec.head (val_main_v70 (F := Ideal) x0 x1 x2 x3 x4 x5 x6 x7 x8 x9 x10 x11 x12 x13) x14 x15 x16 x17 :=
  Cert.RefSteps.head_of_steps (val_main_v70 (F := Ideal) x0 x1 x2 x3 x4 x5 x6 x7 x8 x9 x10 x11 x12 x13) x14 x15 x16 x17
    (val_main_v71 (F := Ideal) x0 x1 x2 x3 x4 x5 x6 x7 x8 x9 x10 x11 x12 x13 x14) (val_main_v73 (F := Ideal) x0 x1 x2 x3 x4 x5 x6 x7 x8 x9 x10 x11 x12 x13 x14 x15) (val_main_v74 (F := Ideal) x0 x1 x2 x3 x4 x5 x6 x7 x8 x9 x10 x11 x12 x13 x14 x15 x16) (val_main_v76 (F := Ideal) x0 x1 x2 x3 x4 x5 x6 x7 x8 x9 x10 x11 x12 x13 x14 x15 x16 x17)
    (fun r c => (val_main_v71_apply x0 x1 x2 x3 x4 x5 x6 x7 x8 x9 x10 x11 x12 x13 x14 (ix2 r c)).trans (Finset.sum_congr rfl fun k _ => by
      rw [show lidx_main_v71 (ix2 r c) k = ix2 r k from by idx2, show ridx_main_v71 (ix2 r c) k = ix2 k c from by idx2]))
    (fun r c => (val_main_v73_apply x0 x1 x2 x3 x4 x5 x6 x7 x8 x9 x10 x11 x12 x13 x14 x15 (ix2 r c)).trans (by
      rw [Ideal.addf_def, val_main_v72_apply, show idx_main_v72 (ix2 r c) = ix1 c from by idx1]))
    (fun r c => (val_main_v74_apply x0 x1 x2 x3 x4 x5 x6 x7 x8 x9 x10 x11 x12 x13 x14 x15 x16 (ix2 r c)).trans (Finset.sum_congr rfl fun k _ => by
      rw [show lidx_main_v74 (ix2 r c) k = ix2 r k from by idx2, show ridx_main_v74 (ix2 r c) k = ix2 k c from by idx2]))
    (fun r c => (val_main_v76_apply x0 x1 x2 x3 x4 x5 x6 x7 x8 x9 x10 x11 x12 x13 x14 x15 x16 x17 (ix2 r c)).trans (by
      rw [Ideal.addf_def, val_main_v75_apply, show idx_main_v75 (ix2 r c) = ix1 c from by idx1]))

/-! ## The result -/

/-- The reference's result, as a function of its eighteen arguments, is the specification's network with the two
    neighbour sums above. -/
theorem ref_result (x0 : (⟨S100000x165, .f32⟩ : BufTy).Contents (Elt Ideal)) (x1 : (⟨S2x1600000, .i32⟩ : BufTy).Contents (Elt Ideal)) (x2 : (⟨S165x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x2, .f32⟩ : BufTy).Contents (Elt Ideal)) (x17 : (⟨S2, .f32⟩ : BufTy).Contents (Elt Ideal)) :
    val_main_v76 (F := Ideal) x0 x1 x2 x3 x4 x5 x6 x7 x8 x9 x10 x11 x12 x13 x14 x15 x16 x17
      = Cert.Spec.net agg165 agg128 x0 x1 x2 x3 x4 x5 x6 x7 x8 x9 x10 x11 x12 x13 x14 x15 x16 x17 := by
  rw [classified, pooled, layer3, layer2, layer1]
  rfl

end Cert.RefValue

end
-- ==== Proof.LibRowCast.lean ====
/-
  A vector reshaped to a one-row matrix, read at an entry.

  The reshape `[n] → [1, n]` keeps the row-major position, so entry `(0, q)` of the one-row matrix is entry `q` of the
  vector: the companion of the one-column form `[n] → [n, 1]`, for a column norm or any per-column quantity that a body
  broadcasts down the rows.
-/
import Idealize.ShloMosaic.Lib.ValueIdx
import Idealize.ShloMosaic.Lib.Pipeline.Value

noncomputable section

namespace Cert.RowCast

open Idealize.ShloMosaic Idealize.ShloMosaic.ValueIdx

/-- A vector reshaped to a one-row matrix: entry `(0, q)` is entry `q`. -/
theorem shapeCast_row_apply {α : Type} {n : Nat} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_one, Shape.rowMajor_val_two]
    show q.val = 0 * n + q.val
    omega)

end Cert.RowCast

end
-- ==== Proof.KI.KRunA.lean ====
/-
  The kernel program's buffers through its first host stretch and its first region.

  The launch contents of the eighteen arguments are named; the first host stretch computes from them the two rows of
  the edge list, the neighbour sum of the node features and the two bias rows of the first layer, and leaves every
  argument as it was; the first region overwrites its output array and nothing else.
-/
import proofs.«115216_j652835029484_1_alg».proof.Proof.KI.Fold
import proofs.«115216_j652835029484_1_alg».proof.Proof.KI.Val0
import proofs.«115216_j652835029484_1_alg».proof.Proof.Spec
import proofs.«115216_j652835029484_1_alg».proof.Proof.RefValue
import proofs.«115216_j652835029484_1_alg».proof.Proof.RefSteps
import proofs.«115216_j652835029484_1_alg».proof.Proof.LibRowCast
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

/-! ## The arguments at launch -/
/-- Argument 0 of the program as core `c` finds it at launch. -/
def x0 : FVec Ideal S100000x165 .f32 := W0 (F := Ideal) m ρ c (Proc.devRef .tc main_arg0)
/-- Argument 1 of the program as core `c` finds it at launch. -/
def x1 : IVec S2x1600000 32 := W0 (F := Ideal) m ρ c (Proc.devRef .tc main_arg1)
/-- Argument 2 of the program as core `c` finds it at launch. -/
def x2 : FVec Ideal S165x128 .f32 := W0 (F := Ideal) m ρ c (Proc.devRef .tc main_arg2)
/-- Argument 3 of the program as core `c` finds it at launch. -/
def x3 : FVec Ideal S128 .f32 := W0 (F := Ideal) m ρ c (Proc.devRef .tc main_arg3)
/-- Argument 4 of the program as core `c` finds it at launch. -/
def x4 : FVec Ideal S128x128 .f32 := W0 (F := Ideal) m ρ c (Proc.devRef .tc main_arg4)
/-- Argument 5 of the program as core `c` finds it at launch. -/
def x5 : FVec Ideal S128 .f32 := W0 (F := Ideal) m ρ c (Proc.devRef .tc main_arg5)
/-- Argument 6 of the program as core `c` finds it at launch. -/
def x6 : FVec Ideal S128x128 .f32 := W0 (F := Ideal) m ρ c (Proc.devRef .tc main_arg6)
/-- Argument 7 of the program as core `c` finds it at launch. -/
def x7 : FVec Ideal S128 .f32 := W0 (F := Ideal) m ρ c (Proc.devRef .tc main_arg7)
/-- Argument 8 of the program as core `c` finds it at launch. -/
def x8 : FVec Ideal S128x128 .f32 := W0 (F := Ideal) m ρ c (Proc.devRef .tc main_arg8)
/-- Argument 9 of the program as core `c` finds it at launch. -/
def x9 : FVec Ideal S128 .f32 := W0 (F := Ideal) m ρ c (Proc.devRef .tc main_arg9)
/-- Argument 10 of the program as core `c` finds it at launch. -/
def x10 : FVec Ideal S128x128 .f32 := W0 (F := Ideal) m ρ c (Proc.devRef .tc main_arg10)
/-- Argument 11 of the program as core `c` finds it at launch. -/
def x11 : FVec Ideal S128 .f32 := W0 (F := Ideal) m ρ c (Proc.devRef .tc main_arg11)
/-- Argument 12 of the program as core `c` finds it at launch. -/
def x12 : FVec Ideal S128x128 .f32 := W0 (F := Ideal) m ρ c (Proc.devRef .tc main_arg12)
/-- Argument 13 of the program as core `c` finds it at launch. -/
def x13 : FVec Ideal S128 .f32 := W0 (F := Ideal) m ρ c (Proc.devRef .tc main_arg13)
/-- Argument 14 of the program as core `c` finds it at launch. -/
def x14 : FVec Ideal S128x128 .f32 := W0 (F := Ideal) m ρ c (Proc.devRef .tc main_arg14)
/-- Argument 15 of the program as core `c` finds it at launch. -/
def x15 : FVec Ideal S128 .f32 := W0 (F := Ideal) m ρ c (Proc.devRef .tc main_arg15)
/-- Argument 16 of the program as core `c` finds it at launch. -/
def x16 : FVec Ideal S128x2 .f32 := W0 (F := Ideal) m ρ c (Proc.devRef .tc main_arg16)
/-- Argument 17 of the program as core `c` finds it at launch. -/
def x17 : FVec Ideal S2 .f32 := W0 (F := Ideal) m ρ c (Proc.devRef .tc main_arg17)

/-- The first layer's output: the specification's layer of the node features. -/
def h1 : FVec Ideal S100000x128 .f32 :=
  Cert.Spec.mlp (x0 m ρ c) (Cert.RefValue.agg165 (x0 m ρ c) (x1 m ρ c)) (x2 m ρ c) (x3 m ρ c) (x4 m ρ c) (x5 m ρ c)
/-- The second layer's output. -/
def h2 : FVec Ideal S100000x128 .f32 :=
  Cert.Spec.mlp (h1 m ρ c) (Cert.RefValue.agg128 (h1 m ρ c) (x1 m ρ c)) (x6 m ρ c) (x7 m ρ c) (x8 m ρ c) (x9 m ρ c)
/-- The third layer's output. -/
def h3 : FVec Ideal S100000x128 .f32 :=
  Cert.Spec.mlp (h2 m ρ c) (Cert.RefValue.agg128 (h2 m ρ c) (x1 m ρ c)) (x10 m ρ c) (x11 m ρ c) (x12 m ρ c) (x13 m ρ c)

/-! ## A bias vector reshaped to a row -/

/-- A one-row matrix whose entry `(0, q)` is entry `q` of a vector is the vector as a row. -/
theorem eq_row_of_apply (v : FVec Ideal S128 .f32) (y : FVec Ideal S1x128 .f32)
    (hy : ∀ q : Fin 128, y (ix2 (0 : Fin 1) q) = v (ix1 q)) : y = Cert.Spec.row v := by
  funext i
  obtain ⟨r, q, rfl⟩ : ∃ (r : Fin 1) (q : Fin 128), i = ix2 r q := ⟨i 0, i 1, eq_ix2 i⟩
  obtain rfl : r = 0 := Subsingleton.elim r 0
  exact hy q

/-! ## After the first host stretch -/

theorem w1_arg0 : W1 (F := Ideal) m ρ c (Proc.devRef .tc main_arg0) = x0 m ρ c := by
  dsimp only [W1, hostOps0]
  after_results
  rfl
theorem w1_arg2 : W1 (F := Ideal) m ρ c (Proc.devRef .tc main_arg2) = x2 m ρ c := by
  dsimp only [W1, hostOps0]
  after_results
  rfl
theorem w1_arg4 : W1 (F := Ideal) m ρ c (Proc.devRef .tc main_arg4) = x4 m ρ c := by
  dsimp only [W1, hostOps0]
  after_results
  rfl
theorem w1_arg6 : W1 (F := Ideal) m ρ c (Proc.devRef .tc main_arg6) = x6 m ρ c := by
  dsimp only [W1, hostOps0]
  after_results
  rfl
theorem w1_arg7 : W1 (F := Ideal) m ρ c (Proc.devRef .tc main_arg7) = x7 m ρ c := by
  dsimp only [W1, hostOps0]
  after_results
  rfl
theorem w1_arg8 : W1 (F := Ideal) m ρ c (Proc.devRef .tc main_arg8) = x8 m ρ c := by
  dsimp only [W1, hostOps0]
  after_results
  rfl
theorem w1_arg9 : W1 (F := Ideal) m ρ c (Proc.devRef .tc main_arg9) = x9 m ρ c := by
  dsimp only [W1, hostOps0]
  after_results
  rfl
theorem w1_arg10 : W1 (F := Ideal) m ρ c (Proc.devRef .tc main_arg10) = x10 m ρ c := by
  dsimp only [W1, hostOps0]
  after_results
  rfl
theorem w1_arg11 : W1 (F := Ideal) m ρ c (Proc.devRef .tc main_arg11) = x11 m ρ c := by
  dsimp only [W1, hostOps0]
  after_results
  rfl
theorem w1_arg12 : W1 (F := Ideal) m ρ c (Proc.devRef .tc main_arg12) = x12 m ρ c := by
  dsimp only [W1, hostOps0]
  after_results
  rfl
theorem w1_arg13 : W1 (F := Ideal) m ρ c (Proc.devRef .tc main_arg13) = x13 m ρ c := by
  dsimp only [W1, hostOps0]
  after_results
  rfl
theorem w1_arg14 : W1 (F := Ideal) m ρ c (Proc.devRef .tc main_arg14) = x14 m ρ c := by
  dsimp only [W1, hostOps0]
  after_results
  rfl
theorem w1_arg15 : W1 (F := Ideal) m ρ c (Proc.devRef .tc main_arg15) = x15 m ρ c := by
  dsimp only [W1, hostOps0]
  after_results
  rfl
theorem w1_arg16 : W1 (F := Ideal) m ρ c (Proc.devRef .tc main_arg16) = x16 m ρ c := by
  dsimp only [W1, hostOps0]
  after_results
  rfl
theorem w1_arg17 : W1 (F := Ideal) m ρ c (Proc.devRef .tc main_arg17) = x17 m ρ c := by
  dsimp only [W1, hostOps0]
  after_results
  rfl

/-- Row 0 of the edge list. -/
theorem w1_v1 : W1 (F := Ideal) m ρ c (Proc.devRef .tc main_v1) = Cert.RefValue.srcRow (x1 m ρ c) := by
  dsimp only [W1, hostOps0]
  after_results
  rfl

/-- Row 1 of the edge list. -/
theorem w1_v3 : W1 (F := Ideal) m ρ c (Proc.devRef .tc main_v3) = Cert.RefValue.dstRow (x1 m ρ c) := by
  dsimp only [W1, hostOps0]
  after_results
  rfl

/-- The neighbour sum of the node features. -/
theorem w1_v13 : W1 (F := Ideal) m ρ c (Proc.devRef .tc main_v13) = Cert.RefValue.agg165 (x0 m ρ c) (x1 m ρ c) := by
  dsimp only [W1, hostOps0]
  after_results
  rfl

/-- The first bias of the first layer, as a row. -/
theorem w1_v14 : W1 (F := Ideal) m ρ c (Proc.devRef .tc main_v14) = Cert.Spec.row (x3 m ρ c) := by
  dsimp only [W1, hostOps0]
  after_results
  exact eq_row_of_apply _ _ fun q => Cert.RowCast.shapeCast_row_apply (x3 m ρ c) shapeCasts_S128_S1x128 q

/-- The second bias of the first layer, as a row. -/
theorem w1_v15 : W1 (F := Ideal) m ρ c (Proc.devRef .tc main_v15) = Cert.Spec.row (x5 m ρ c) := by
  dsimp only [W1, hostOps0]
  after_results
  exact eq_row_of_apply _ _ fun q => Cert.RowCast.shapeCast_row_apply (x5 m ρ c) shapeCasts_S128_S1x128 q

/-! ## After the first region -/

theorem w2_v1 : W2 (F := Ideal) m ρ c (Proc.devRef .tc main_v1) = Cert.RefValue.srcRow (x1 m ρ c) :=
  (W2_of_ne (F := Ideal) m ρ c main_v1 (by decide)).trans (w1_v1 m ρ c)
theorem w2_v3 : W2 (F := Ideal) m ρ c (Proc.devRef .tc main_v3) = Cert.RefValue.dstRow (x1 m ρ c) :=
  (W2_of_ne (F := Ideal) m ρ c main_v3 (by decide)).trans (w1_v3 m ρ c)
theorem w2_arg6 : W2 (F := Ideal) m ρ c (Proc.devRef .tc main_arg6) = x6 m ρ c :=
  (W2_of_ne (F := Ideal) m ρ c main_arg6 (by decide)).trans (w1_arg6 m ρ c)
theorem w2_arg7 : W2 (F := Ideal) m ρ c (Proc.devRef .tc main_arg7) = x7 m ρ c :=
  (W2_of_ne (F := Ideal) m ρ c main_arg7 (by decide)).trans (w1_arg7 m ρ c)
theorem w2_arg8 : W2 (F := Ideal) m ρ c (Proc.devRef .tc main_arg8) = x8 m ρ c :=
  (W2_of_ne (F := Ideal) m ρ c main_arg8 (by decide)).trans (w1_arg8 m ρ c)
theorem w2_arg9 : W2 (F := Ideal) m ρ c (Proc.devRef .tc main_arg9) = x9 m ρ c :=
  (W2_of_ne (F := Ideal) m ρ c main_arg9 (by decide)).trans (w1_arg9 m ρ c)
theorem w2_arg10 : W2 (F := Ideal) m ρ c (Proc.devRef .tc main_arg10) = x10 m ρ c :=
  (W2_of_ne (F := Ideal) m ρ c main_arg10 (by decide)).trans (w1_arg10 m ρ c)
theorem w2_arg11 : W2 (F := Ideal) m ρ c (Proc.devRef .tc main_arg11) = x11 m ρ c :=
  (W2_of_ne (F := Ideal) m ρ c main_arg11 (by decide)).trans (w1_arg11 m ρ c)
theorem w2_arg12 : W2 (F := Ideal) m ρ c (Proc.devRef .tc main_arg12) = x12 m ρ c :=
  (W2_of_ne (F := Ideal) m ρ c main_arg12 (by decide)).trans (w1_arg12 m ρ c)
theorem w2_arg13 : W2 (F := Ideal) m ρ c (Proc.devRef .tc main_arg13) = x13 m ρ c :=
  (W2_of_ne (F := Ideal) m ρ c main_arg13 (by decide)).trans (w1_arg13 m ρ c)
theorem w2_arg14 : W2 (F := Ideal) m ρ c (Proc.devRef .tc main_arg14) = x14 m ρ c :=
  (W2_of_ne (F := Ideal) m ρ c main_arg14 (by decide)).trans (w1_arg14 m ρ c)
theorem w2_arg15 : W2 (F := Ideal) m ρ c (Proc.devRef .tc main_arg15) = x15 m ρ c :=
  (W2_of_ne (F := Ideal) m ρ c main_arg15 (by decide)).trans (w1_arg15 m ρ c)
theorem w2_arg16 : W2 (F := Ideal) m ρ c (Proc.devRef .tc main_arg16) = x16 m ρ c :=
  (W2_of_ne (F := Ideal) m ρ c main_arg16 (by decide)).trans (w1_arg16 m ρ c)
theorem w2_arg17 : W2 (F := Ideal) m ρ c (Proc.devRef .tc main_arg17) = x17 m ρ c :=
  (W2_of_ne (F := Ideal) m ρ c main_arg17 (by decide)).trans (w1_arg17 m ρ c)

/-- The first region leaves in its output array the first layer's output. -/
theorem out0 :
    W2 (F := Ideal) m ρ c (Proc.devRef .tc main_v16) = h1 m ρ c := by
  refine (W2_arr (F := Ideal) m ρ c 6).trans ?_
  rw [final0 (V1 (F := Ideal) m ρ) c,
    show V1 (F := Ideal) m ρ c main_arg0 = _ from w1_arg0 m ρ c, show V1 (F := Ideal) m ρ c main_v13 = _ from w1_v13 m ρ c,
    show V1 (F := Ideal) m ρ c main_arg2 = _ from w1_arg2 m ρ c, show V1 (F := Ideal) m ρ c main_v14 = _ from w1_v14 m ρ c,
    show V1 (F := Ideal) m ρ c main_arg4 = _ from w1_arg4 m ρ c, show V1 (F := Ideal) m ρ c main_v15 = _ from w1_v15 m ρ c]
  rfl

end Cert.KernelIdeal.KVal

end
-- ==== Proof.KI.Pay1.lean ====
/-
  Region 1's payload is the layer update of the tile.

  The body's stored value is `max ((max ((x + a) · Wa + ba) 0) · Wb + bb) 0`, the two products taken into a zero
  accumulator after a change of float format (the identity on extended reals) and each bias row broadcast down the
  rows. Entry by entry this is `Spec.mlpRow` of the six blocks: one dense half at an index, used twice.
-/
import proofs.«115216_j652835029484_1_alg».proof.Proof.KI.Defs1
import proofs.«115216_j652835029484_1_alg».proof.Proof.KI.Pay0
import proofs.«115216_j652835029484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.ValueIdx
open Cert.KernelIdeal Cert.KernelIdeal.Gen Cert.KernelIdeal.Hand
open Cert.Dense

/-- The payload of region 1 is the layer update of its six operands. -/
theorem pay1_eq (x0 x1 : Vec Ideal S4000x128 .f32) (x2 : Vec Ideal S128x128 .f32) (x3 : Vec Ideal S1x128 .f32)
    (x4 : Vec Ideal S128x128 .f32) (x5 : Vec Ideal S1x128 .f32) :
    k1_pay1 (F := Ideal) x0 x1 x2 x3 x4 x5 = Spec.mlpRow x0 x1 x2 x3 x4 x5 := by
  unfold k1_pay1 Spec.mlpRow
  dsimp only
  rw [shapeCast_self, shapeCast_self]
  rw [half_eq (M := 4000) (K := 128) dot_S4000x128_S128x128_S4000x128_1_0_0_1_n_n rfl]
  rw [half_eq (M := 4000) (K := 128) dot_S4000x128_S128x128_S4000x128_1_0_0_1_n_n rfl]
  rfl

end Cert.KernelIdeal.KVal

end
-- ==== Proof.KI.Val1.lean ====
/-
  Region 1: from the tiles to the array.

  Tile `t` of the two row-tiled windows (features and neighbour sums) is rows `4000·t … 4000·t + 3999` of its array;
  the four weight and bias windows are their arrays whole at every tile; the output's tile `t` is rows
  `4000·t … 4000·t + 3999` of its array. The layer update acts row by row, so what tile `t` writes back is tile `t`
  of the update of the whole arrays; the 25 tiles cover the 100000 rows (row `r` is in tile `r / 4000`), so the output
  array ends holding the update of the arrays the region found.
-/
import proofs.«115216_j652835029484_1_alg».proof.Proof.KI.Defs1
import proofs.«115216_j652835029484_1_alg».proof.Proof.KI.Pay1
import proofs.«115216_j652835029484_1_alg».proof.Proof.KI.MlpRows
import proofs.«115216_j652835029484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-tiled windows are at block `(t, 0)`, the weight and bias
    windows at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The features' tile `t` is rows `4000·t …` of the array. -/
theorem iblk1_0_apply (c : Dev nD) (t : Fin cfg1.N) (y : S4000x128.Idx) (k : S100000x128.Idx)
    (hk0 : (k 0).val = 4000 * t.val + (y 0).val) (hk1 : (k 1).val = (y 1).val) :
    (iblk1 V c 0 t : Vec Ideal S4000x128 .f32) y = (V c main_v16 : S100000x128.Idx → Elt Ideal .f32) k := by
  obtain ⟨e0, e1, -⟩ := idx_facts1 t
  unfold iblk1
  rw [View.read_apply]
  show V c main_v16 _ = V c main_v16 _
  congr 1
  funext a
  apply Fin.ext
  match a with
  | ⟨0, _⟩ => show win1_0.index t 0 * 4000 + 1 * (y 0).val = (k 0).val; rw [e0, hk0]; omega
  | ⟨1, _⟩ => show win1_0.index t 1 * 128 + 1 * (y 1).val = (k 1).val; rw [e1, hk1]; omega

/-- The neighbour sums' tile `t` is rows `4000·t …` of the array. -/
theorem iblk1_1_apply (c : Dev nD) (t : Fin cfg1.N) (y : S4000x128.Idx) (k : S100000x128.Idx)
    (hk0 : (k 0).val = 4000 * t.val + (y 0).val) (hk1 : (k 1).val = (y 1).val) :
    (iblk1 V c 1 t : Vec Ideal S4000x128 .f32) y = (V c main_v26 : S100000x128.Idx → Elt Ideal .f32) k := by
  obtain ⟨-, -, e0, e1, -⟩ := idx_facts1 t
  unfold iblk1
  rw [View.read_apply]
  show V c main_v26 _ = V c main_v26 _
  congr 1
  funext a
  apply Fin.ext
  match a with
  | ⟨0, _⟩ => show win1_1.index t 0 * 4000 + 1 * (y 0).val = (k 0).val; rw [e0, hk0]; omega
  | ⟨1, _⟩ => show win1_1.index t 1 * 128 + 1 * (y 1).val = (k 1).val; rw [e1, hk1]; omega

/-! The weight and bias windows hold their arrays whole at every tile. -/

theorem iblk1_2_eq (c : Dev nD) (t : Fin cfg1.N) :
    (iblk1 V c 2 t : Vec Ideal S128x128 .f32) = (V c main_arg6 : S128x128.Idx → Elt Ideal .f32) := by
  obtain ⟨-, -, -, -, e20, e21, e30, e31, e40, e41, e50, e51, -⟩ := idx_facts1 t
  funext y
  unfold iblk1
  rw [View.read_apply]
  show V c main_arg6 _ = V c main_arg6 _
  congr 1
  funext a
  apply Fin.ext
  match a with
  | ⟨0, _⟩ => show win1_2.index t 0 * 128 + 1 * (y 0).val = (y 0).val; rw [e20]; omega
  | ⟨1, _⟩ => show win1_2.index t 1 * 128 + 1 * (y 1).val = (y 1).val; rw [e21]; omega

theorem iblk1_3_eq (c : Dev nD) (t : Fin cfg1.N) :
    (iblk1 V c 3 t : Vec Ideal S1x128 .f32) = (V c main_v27 : S1x128.Idx → Elt Ideal .f32) := by
  obtain ⟨-, -, -, -, e20, e21, e30, e31, e40, e41, e50, e51, -⟩ := idx_facts1 t
  funext y
  unfold iblk1
  rw [View.read_apply]
  show V c main_v27 _ = V c main_v27 _
  congr 1
  funext a
  apply Fin.ext
  match a with
  | ⟨0, _⟩ => show win1_3.index t 0 * 1 + 1 * (y 0).val = (y 0).val; rw [e30]; omega
  | ⟨1, _⟩ => show win1_3.index t 1 * 128 + 1 * (y 1).val = (y 1).val; rw [e31]; omega

theorem iblk1_4_eq (c : Dev nD) (t : Fin cfg1.N) :
    (iblk1 V c 4 t : Vec Ideal S128x128 .f32) = (V c main_arg8 : S128x128.Idx → Elt Ideal .f32) := by
  obtain ⟨-, -, -, -, e20, e21, e30, e31, e40, e41, e50, e51, -⟩ := idx_facts1 t
  funext y
  unfold iblk1
  rw [View.read_apply]
  show V c main_arg8 _ = V c main_arg8 _
  congr 1
  funext a
  apply Fin.ext
  match a with
  | ⟨0, _⟩ => show win1_4.index t 0 * 128 + 1 * (y 0).val = (y 0).val; rw [e40]; omega
  | ⟨1, _⟩ => show win1_4.index t 1 * 128 + 1 * (y 1).val = (y 1).val; rw [e41]; omega

theorem iblk1_5_eq (c : Dev nD) (t : Fin cfg1.N) :
    (iblk1 V c 5 t : Vec Ideal S1x128 .f32) = (V c main_v28 : S1x128.Idx → Elt Ideal .f32) := by
  obtain ⟨-, -, -, -, e20, e21, e30, e31, e40, e41, e50, e51, -⟩ := idx_facts1 t
  funext y
  unfold iblk1
  rw [View.read_apply]
  show V c main_v28 _ = V c main_v28 _
  congr 1
  funext a
  apply Fin.ext
  match a with
  | ⟨0, _⟩ => show win1_5.index t 0 * 1 + 1 * (y 0).val = (y 0).val; rw [e50]; omega
  | ⟨1, _⟩ => show win1_5.index t 1 * 128 + 1 * (y 1).val = (y 1).val; rw [e51]; omega

/-- The layer update of the arrays the region finds. -/
abbrev G1 (c : Dev nD) : S100000x128.Idx → Elt Ideal .f32 :=
  Spec.mlpRow (V c main_v16 : S100000x128.Idx → Elt Ideal .f32) (V c main_v26 : S100000x128.Idx → Elt Ideal .f32)
    (V c main_arg6 : S128x128.Idx → Elt Ideal .f32) (V c main_v27 : S1x128.Idx → Elt Ideal .f32)
    (V c main_arg8 : S128x128.Idx → Elt Ideal .f32) (V c main_v28 : S1x128.Idx → Elt Ideal .f32)

/-- What tile `t` writes back is tile `t` of the layer update of the whole arrays. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S4000x128) hz1, View.ld_unit_zero (S := S128x128) hz1,
    View.ld_unit_zero (S := S1x128) hz1, View.ld_unit_zero (S := S128x128) hz1]
  rw [pay1_eq, iblk1_2_eq, iblk1_3_eq, iblk1_4_eq, iblk1_5_eq]
  obtain ⟨-, -, -, -, -, -, -, -, -, -, -, -, e60, e61⟩ := idx_facts1 t
  funext j
  rw [View.read_apply]
  have hj0 : (((cfg1.win 6).blk t).view.emb j (0 : Fin 2)).val = 4000 * t.val + (j 0).val := by
    show win1_6.index t 0 * 4000 + 1 * (j 0).val = _; rw [e60]; omega
  have hj1 : (((cfg1.win 6).blk t).view.emb j (1 : Fin 2)).val = (j 1).val := by
    show win1_6.index t 1 * 128 + 1 * (j 1).val = _; rw [e61]; omega
  refine Spec.mlpRow_idx _ _ (iblk1 V c 0 t) (iblk1 V c 1 t) _ _ _ _ j _ hj1 (fun k => ?_) (fun k => ?_)
  · exact iblk1_0_apply V c t _ _ hj0 rfl
  · exact iblk1_1_apply V c t _ _ hj0 rfl

/-- An index of the output array is in tile `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v29).slice (win1_6.rect t)).set ↔ _
  rw [View.set_slice_whole, Rect.mem_set_unit]
  exact Iff.rfl

/-- Row `r` is in tile `r / 4000`: the 25 tiles cover the array. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, -, -, e60, e61⟩ := idx_facts1 t
  have ht : t.val = (i 0).val / 4000 := rfl
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; rw [e60, ht]; omega
  | ⟨1, _⟩ => show win1_6.index t (1 : Fin 2) * 128 ≤ (i 1).val ∧ (i 1).val < win1_6.index t (1 : Fin 2) * 128 + 128; rw [e61]; omega

/-- The output array after the region: the layer update of the arrays the region found. -/
theorem final1 (c : Dev nD) :
    (dat1 (F := Ideal) V c).arrAt 6 cfg1.N
      = Spec.mlpRow (V c main_v16) (V c main_v26) (V c main_arg6) (V c main_v27) (V c main_arg8) (V c main_v28) :=
  (dat1 (F := Ideal) V c).arrAt_eq_of_cover 6 (G1 V c) (fun t _ => flushed1_eq V c t) (cover1)

end Cert.KernelIdeal.KVal

end
-- ==== Proof.KI.KRunB.lean ====
/-
  The kernel program's buffers through its second host stretch and its second region: the stretch computes the
  neighbour sum of the first layer's output and the second layer's two bias rows and leaves everything else alone;
  the region overwrites its output array with the second layer's output.
-/
import proofs.«115216_j652835029484_1_alg».proof.Proof.KI.KRunA
import proofs.«115216_j652835029484_1_alg».proof.Proof.KI.Val1
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

/-! ## After the host stretch -/

theorem w3_v1 : W3 (F := Ideal) m ρ c (Proc.devRef .tc main_v1) = Cert.RefValue.srcRow (x1 m ρ c) := by
  dsimp only [W3, hostOps1]
  after_results
  exact w2_v1 m ρ c
theorem w3_v3 : W3 (F := Ideal) m ρ c (Proc.devRef .tc main_v3) = Cert.RefValue.dstRow (x1 m ρ c) := by
  dsimp only [W3, hostOps1]
  after_results
  exact w2_v3 m ρ c
theorem w3_arg6 : W3 (F := Ideal) m ρ c (Proc.devRef .tc main_arg6) = x6 m ρ c := by
  dsimp only [W3, hostOps1]
  after_results
  exact w2_arg6 m ρ c
theorem w3_arg7 : W3 (F := Ideal) m ρ c (Proc.devRef .tc main_arg7) = x7 m ρ c := by
  dsimp only [W3, hostOps1]
  after_results
  exact w2_arg7 m ρ c
theorem w3_arg8 : W3 (F := Ideal) m ρ c (Proc.devRef .tc main_arg8) = x8 m ρ c := by
  dsimp only [W3, hostOps1]
  after_results
  exact w2_arg8 m ρ c
theorem w3_arg9 : W3 (F := Ideal) m ρ c (Proc.devRef .tc main_arg9) = x9 m ρ c := by
  dsimp only [W3, hostOps1]
  after_results
  exact w2_arg9 m ρ c
theorem w3_arg10 : W3 (F := Ideal) m ρ c (Proc.devRef .tc main_arg10) = x10 m ρ c := by
  dsimp only [W3, hostOps1]
  after_results
  exact w2_arg10 m ρ c
theorem w3_arg11 : W3 (F := Ideal) m ρ c (Proc.devRef .tc main_arg11) = x11 m ρ c := by
  dsimp only [W3, hostOps1]
  after_results
  exact w2_arg11 m ρ c
theorem w3_arg12 : W3 (F := Ideal) m ρ c (Proc.devRef .tc main_arg12) = x12 m ρ c := by
  dsimp only [W3, hostOps1]
  after_results
  exact w2_arg12 m ρ c
theorem w3_arg13 : W3 (F := Ideal) m ρ c (Proc.devRef .tc main_arg13) = x13 m ρ c := by
  dsimp only [W3, hostOps1]
  after_results
  exact w2_arg13 m ρ c
theorem w3_arg14 : W3 (F := Ideal) m ρ c (Proc.devRef .tc main_arg14) = x14 m ρ c := by
  dsimp only [W3, hostOps1]
  after_results
  exact w2_arg14 m ρ c
theorem w3_arg15 : W3 (F := Ideal) m ρ c (Proc.devRef .tc main_arg15) = x15 m ρ c := by
  dsimp only [W3, hostOps1]
  after_results
  exact w2_arg15 m ρ c
theorem w3_arg16 : W3 (F := Ideal) m ρ c (Proc.devRef .tc main_arg16) = x16 m ρ c := by
  dsimp only [W3, hostOps1]
  after_results
  exact w2_arg16 m ρ c
theorem w3_arg17 : W3 (F := Ideal) m ρ c (Proc.devRef .tc main_arg17) = x17 m ρ c := by
  dsimp only [W3, hostOps1]
  after_results
  exact w2_arg17 m ρ c

/-- The stretch leaves the previous layer's output where it is. -/
theorem w3_v16 : W3 (F := Ideal) m ρ c (Proc.devRef .tc main_v16) = W2 (F := Ideal) m ρ c (Proc.devRef .tc main_v16) := by
  dsimp only [W3, hostOps1]
  after_results
  try rfl

/-- The neighbour sum of the previous layer's output. -/
theorem w3_v26 : W3 (F := Ideal) m ρ c (Proc.devRef .tc main_v26) = Cert.RefValue.agg128 (W2 (F := Ideal) m ρ c (Proc.devRef .tc main_v16)) (x1 m ρ c) := by
  dsimp only [W3, hostOps1]
  after_results
  rw [w2_v1 m ρ c, w2_v3 m ρ c]
  rfl

/-- The layer's first bias, as a row. -/
theorem w3_v27 : W3 (F := Ideal) m ρ c (Proc.devRef .tc main_v27) = Cert.Spec.row (x7 m ρ c) := by
  dsimp only [W3, hostOps1]
  after_results
  rw [w2_arg7 m ρ c]
  exact eq_row_of_apply _ _ fun q => Cert.RowCast.shapeCast_row_apply (x7 m ρ c) shapeCasts_S128_S1x128 q

/-- The layer's second bias, as a row. -/
theorem w3_v28 : W3 (F := Ideal) m ρ c (Proc.devRef .tc main_v28) = Cert.Spec.row (x9 m ρ c) := by
  dsimp only [W3, hostOps1]
  after_results
  rw [w2_arg9 m ρ c]
  exact eq_row_of_apply _ _ fun q => Cert.RowCast.shapeCast_row_apply (x9 m ρ c) shapeCasts_S128_S1x128 q

/-! ## After the region -/

theorem w4_v1 : W4 (F := Ideal) m ρ c (Proc.devRef .tc main_v1) = Cert.RefValue.srcRow (x1 m ρ c) :=
  (W4_of_ne (F := Ideal) m ρ c main_v1 (by decide)).trans (w3_v1 m ρ c)
theorem w4_v3 : W4 (F := Ideal) m ρ c (Proc.devRef .tc main_v3) = Cert.RefValue.dstRow (x1 m ρ c) :=
  (W4_of_ne (F := Ideal) m ρ c main_v3 (by decide)).trans (w3_v3 m ρ c)
theorem w4_arg10 : W4 (F := Ideal) m ρ c (Proc.devRef .tc main_arg10) = x10 m ρ c :=
  (W4_of_ne (F := Ideal) m ρ c main_arg10 (by decide)).trans (w3_arg10 m ρ c)
theorem w4_arg11 : W4 (F := Ideal) m ρ c (Proc.devRef .tc main_arg11) = x11 m ρ c :=
  (W4_of_ne (F := Ideal) m ρ c main_arg11 (by decide)).trans (w3_arg11 m ρ c)
theorem w4_arg12 : W4 (F := Ideal) m ρ c (Proc.devRef .tc main_arg12) = x12 m ρ c :=
  (W4_of_ne (F := Ideal) m ρ c main_arg12 (by decide)).trans (w3_arg12 m ρ c)
theorem w4_arg13 : W4 (F := Ideal) m ρ c (Proc.devRef .tc main_arg13) = x13 m ρ c :=
  (W4_of_ne (F := Ideal) m ρ c main_arg13 (by decide)).trans (w3_arg13 m ρ c)
theorem w4_arg14 : W4 (F := Ideal) m ρ c (Proc.devRef .tc main_arg14) = x14 m ρ c :=
  (W4_of_ne (F := Ideal) m ρ c main_arg14 (by decide)).trans (w3_arg14 m ρ c)
theorem w4_arg15 : W4 (F := Ideal) m ρ c (Proc.devRef .tc main_arg15) = x15 m ρ c :=
  (W4_of_ne (F := Ideal) m ρ c main_arg15 (by decide)).trans (w3_arg15 m ρ c)
theorem w4_arg16 : W4 (F := Ideal) m ρ c (Proc.devRef .tc main_arg16) = x16 m ρ c :=
  (W4_of_ne (F := Ideal) m ρ c main_arg16 (by decide)).trans (w3_arg16 m ρ c)
theorem w4_arg17 : W4 (F := Ideal) m ρ c (Proc.devRef .tc main_arg17) = x17 m ρ c :=
  (W4_of_ne (F := Ideal) m ρ c main_arg17 (by decide)).trans (w3_arg17 m ρ c)

/-- The region leaves in its output array the layer's output. -/
theorem out1 :
    W4 (F := Ideal) m ρ c (Proc.devRef .tc main_v29) = h2 m ρ c := by
  refine (W4_arr (F := Ideal) m ρ c 6).trans ?_
  rw [final1 (V3 (F := Ideal) m ρ) c,
    show V3 (F := Ideal) m ρ c main_v16 = _ from w3_v16 m ρ c, show V3 (F := Ideal) m ρ c main_v26 = _ from w3_v26 m ρ c,
    show V3 (F := Ideal) m ρ c main_arg6 = _ from w3_arg6 m ρ c, show V3 (F := Ideal) m ρ c main_v27 = _ from w3_v27 m ρ c,
    show V3 (F := Ideal) m ρ c main_arg8 = _ from w3_arg8 m ρ c, show V3 (F := Ideal) m ρ c main_v28 = _ from w3_v28 m ρ c,
    out0 m ρ c]
  rfl

end Cert.KernelIdeal.KVal

end
-- ==== Proof.KI.Pay2.lean ====
/-
  Region 2's payload is the layer update of the tile.

  The body's stored value is `max ((max ((x + a) · Wa + ba) 0) · Wb + bb) 0`, the two products taken into a zero
  accumulator after a change of float format (the identity on extended reals) and each bias row broadcast down the
  rows. Entry by entry this is `Spec.mlpRow` of the six blocks: one dense half at an index, used twice.
-/
import proofs.«115216_j652835029484_1_alg».proof.Proof.KI.Defs2
import proofs.«115216_j652835029484_1_alg».proof.Proof.KI.Pay0
import proofs.«115216_j652835029484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.ValueIdx
open Cert.KernelIdeal Cert.KernelIdeal.Gen Cert.KernelIdeal.Hand
open Cert.Dense

/-- The payload of region 2 is the layer update of its six operands. -/
theorem pay2_eq (x0 x1 : Vec Ideal S4000x128 .f32) (x2 : Vec Ideal S128x128 .f32) (x3 : Vec Ideal S1x128 .f32)
    (x4 : Vec Ideal S128x128 .f32) (x5 : Vec Ideal S1x128 .f32) :
    k2_pay1 (F := Ideal) x0 x1 x2 x3 x4 x5 = Spec.mlpRow x0 x1 x2 x3 x4 x5 := by
  unfold k2_pay1 Spec.mlpRow
  dsimp only
  rw [shapeCast_self, shapeCast_self]
  rw [half_eq (M := 4000) (K := 128) dot_S4000x128_S128x128_S4000x128_1_0_0_1_n_n rfl]
  rw [half_eq (M := 4000) (K := 128) dot_S4000x128_S128x128_S4000x128_1_0_0_1_n_n rfl]
  rfl

end Cert.KernelIdeal.KVal

end
-- ==== Proof.KI.Val2.lean ====
/-
  Region 2: from the tiles to the array.

  Tile `t` of the two row-tiled windows (features and neighbour sums) is rows `4000·t … 4000·t + 3999` of its array;
  the four weight and bias windows are their arrays whole at every tile; the output's tile `t` is rows
  `4000·t … 4000·t + 3999` of its array. The layer update acts row by row, so what tile `t` writes back is tile `t`
  of the update of the whole arrays; the 25 tiles cover the 100000 rows (row `r` is in tile `r / 4000`), so the output
  array ends holding the update of the arrays the region found.
-/
import proofs.«115216_j652835029484_1_alg».proof.Proof.KI.Defs2
import proofs.«115216_j652835029484_1_alg».proof.Proof.KI.Pay2
import proofs.«115216_j652835029484_1_alg».proof.Proof.KI.MlpRows
import proofs.«115216_j652835029484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row-tiled windows are at block `(t, 0)`, the weight and bias
    windows at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The features' tile `t` is rows `4000·t …` of the array. -/
theorem iblk2_0_apply (c : Dev nD) (t : Fin cfg2.N) (y : S4000x128.Idx) (k : S100000x128.Idx)
    (hk0 : (k 0).val = 4000 * t.val + (y 0).val) (hk1 : (k 1).val = (y 1).val) :
    (iblk2 V c 0 t : Vec Ideal S4000x128 .f32) y = (V c main_v29 : S100000x128.Idx → Elt Ideal .f32) k := by
  obtain ⟨e0, e1, -⟩ := idx_facts2 t
  unfold iblk2
  rw [View.read_apply]
  show V c main_v29 _ = V c main_v29 _
  congr 1
  funext a
  apply Fin.ext
  match a with
  | ⟨0, _⟩ => show win2_0.index t 0 * 4000 + 1 * (y 0).val = (k 0).val; rw [e0, hk0]; omega
  | ⟨1, _⟩ => show win2_0.index t 1 * 128 + 1 * (y 1).val = (k 1).val; rw [e1, hk1]; omega

/-- The neighbour sums' tile `t` is rows `4000·t …` of the array. -/
theorem iblk2_1_apply (c : Dev nD) (t : Fin cfg2.N) (y : S4000x128.Idx) (k : S100000x128.Idx)
    (hk0 : (k 0).val = 4000 * t.val + (y 0).val) (hk1 : (k 1).val = (y 1).val) :
    (iblk2 V c 1 t : Vec Ideal S4000x128 .f32) y = (V c main_v39 : S100000x128.Idx → Elt Ideal .f32) k := by
  obtain ⟨-, -, e0, e1, -⟩ := idx_facts2 t
  unfold iblk2
  rw [View.read_apply]
  show V c main_v39 _ = V c main_v39 _
  congr 1
  funext a
  apply Fin.ext
  match a with
  | ⟨0, _⟩ => show win2_1.index t 0 * 4000 + 1 * (y 0).val = (k 0).val; rw [e0, hk0]; omega
  | ⟨1, _⟩ => show win2_1.index t 1 * 128 + 1 * (y 1).val = (k 1).val; rw [e1, hk1]; omega

/-! The weight and bias windows hold their arrays whole at every tile. -/

theorem iblk2_2_eq (c : Dev nD) (t : Fin cfg2.N) :
    (iblk2 V c 2 t : Vec Ideal S128x128 .f32) = (V c main_arg10 : S128x128.Idx → Elt Ideal .f32) := by
  obtain ⟨-, -, -, -, e20, e21, e30, e31, e40, e41, e50, e51, -⟩ := idx_facts2 t
  funext y
  unfold iblk2
  rw [View.read_apply]
  show V c main_arg10 _ = V c main_arg10 _
  congr 1
  funext a
  apply Fin.ext
  match a with
  | ⟨0, _⟩ => show win2_2.index t 0 * 128 + 1 * (y 0).val = (y 0).val; rw [e20]; omega
  | ⟨1, _⟩ => show win2_2.index t 1 * 128 + 1 * (y 1).val = (y 1).val; rw [e21]; omega

theorem iblk2_3_eq (c : Dev nD) (t : Fin cfg2.N) :
    (iblk2 V c 3 t : Vec Ideal S1x128 .f32) = (V c main_v40 : S1x128.Idx → Elt Ideal .f32) := by
  obtain ⟨-, -, -, -, e20, e21, e30, e31, e40, e41, e50, e51, -⟩ := idx_facts2 t
  funext y
  unfold iblk2
  rw [View.read_apply]
  show V c main_v40 _ = V c main_v40 _
  congr 1
  funext a
  apply Fin.ext
  match a with
  | ⟨0, _⟩ => show win2_3.index t 0 * 1 + 1 * (y 0).val = (y 0).val; rw [e30]; omega
  | ⟨1, _⟩ => show win2_3.index t 1 * 128 + 1 * (y 1).val = (y 1).val; rw [e31]; omega

theorem iblk2_4_eq (c : Dev nD) (t : Fin cfg2.N) :
    (iblk2 V c 4 t : Vec Ideal S128x128 .f32) = (V c main_arg12 : S128x128.Idx → Elt Ideal .f32) := by
  obtain ⟨-, -, -, -, e20, e21, e30, e31, e40, e41, e50, e51, -⟩ := idx_facts2 t
  funext y
  unfold iblk2
  rw [View.read_apply]
  show V c main_arg12 _ = V c main_arg12 _
  congr 1
  funext a
  apply Fin.ext
  match a with
  | ⟨0, _⟩ => show win2_4.index t 0 * 128 + 1 * (y 0).val = (y 0).val; rw [e40]; omega
  | ⟨1, _⟩ => show win2_4.index t 1 * 128 + 1 * (y 1).val = (y 1).val; rw [e41]; omega

theorem iblk2_5_eq (c : Dev nD) (t : Fin cfg2.N) :
    (iblk2 V c 5 t : Vec Ideal S1x128 .f32) = (V c main_v41 : S1x128.Idx → Elt Ideal .f32) := by
  obtain ⟨-, -, -, -, e20, e21, e30, e31, e40, e41, e50, e51, -⟩ := idx_facts2 t
  funext y
  unfold iblk2
  rw [View.read_apply]
  show V c main_v41 _ = V c main_v41 _
  congr 1
  funext a
  apply Fin.ext
  match a with
  | ⟨0, _⟩ => show win2_5.index t 0 * 1 + 1 * (y 0).val = (y 0).val; rw [e50]; omega
  | ⟨1, _⟩ => show win2_5.index t 1 * 128 + 1 * (y 1).val = (y 1).val; rw [e51]; omega

/-- The layer update of the arrays the region finds. -/
abbrev G2 (c : Dev nD) : S100000x128.Idx → Elt Ideal .f32 :=
  Spec.mlpRow (V c main_v29 : S100000x128.Idx → Elt Ideal .f32) (V c main_v39 : S100000x128.Idx → Elt Ideal .f32)
    (V c main_arg10 : S128x128.Idx → Elt Ideal .f32) (V c main_v40 : S1x128.Idx → Elt Ideal .f32)
    (V c main_arg12 : S128x128.Idx → Elt Ideal .f32) (V c main_v41 : S1x128.Idx → Elt Ideal .f32)

/-- What tile `t` writes back is tile `t` of the layer update of the whole arrays. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S4000x128) hz2, View.ld_unit_zero (S := S128x128) hz2,
    View.ld_unit_zero (S := S1x128) hz2, View.ld_unit_zero (S := S128x128) hz2]
  rw [pay2_eq, iblk2_2_eq, iblk2_3_eq, iblk2_4_eq, iblk2_5_eq]
  obtain ⟨-, -, -, -, -, -, -, -, -, -, -, -, e60, e61⟩ := idx_facts2 t
  funext j
  rw [View.read_apply]
  have hj0 : (((cfg2.win 6).blk t).view.emb j (0 : Fin 2)).val = 4000 * t.val + (j 0).val := by
    show win2_6.index t 0 * 4000 + 1 * (j 0).val = _; rw [e60]; omega
  have hj1 : (((cfg2.win 6).blk t).view.emb j (1 : Fin 2)).val = (j 1).val := by
    show win2_6.index t 1 * 128 + 1 * (j 1).val = _; rw [e61]; omega
  refine Spec.mlpRow_idx _ _ (iblk2 V c 0 t) (iblk2 V c 1 t) _ _ _ _ j _ hj1 (fun k => ?_) (fun k => ?_)
  · exact iblk2_0_apply V c t _ _ hj0 rfl
  · exact iblk2_1_apply V c t _ _ hj0 rfl

/-- An index of the output array is in tile `t`'s block iff each coordinate is in the block's range on its axis. -/
theorem mem_blk2 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v42).slice (win2_6.rect t)).set ↔ _
  rw [View.set_slice_whole, Rect.mem_set_unit]
  exact Iff.rfl

/-- Row `r` is in tile `r / 4000`: the 25 tiles cover the array. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨-, -, -, -, -, -, -, -, -, -, -, -, e60, e61⟩ := idx_facts2 t
  have ht : t.val = (i 0).val / 4000 := rfl
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; rw [e60, ht]; omega
  | ⟨1, _⟩ => show win2_6.index t (1 : Fin 2) * 128 ≤ (i 1).val ∧ (i 1).val < win2_6.index t (1 : Fin 2) * 128 + 128; rw [e61]; omega

/-- The output array after the region: the layer update of the arrays the region found. -/
theorem final2 (c : Dev nD) :
    (dat2 (F := Ideal) V c).arrAt 6 cfg2.N
      = Spec.mlpRow (V c main_v29) (V c main_v39) (V c main_arg10) (V c main_v40) (V c main_arg12) (V c main_v41) :=
  (dat2 (F := Ideal) V c).arrAt_eq_of_cover 6 (G2 V c) (fun t _ => flushed2_eq V c t) (cover2)

end Cert.KernelIdeal.KVal

end
-- ==== Proof.KI.KRunC.lean ====
/-
  The kernel program's buffers through its third host stretch and its third region: the stretch computes the
  neighbour sum of the second layer's output and the third layer's two bias rows and leaves everything else alone;
  the region overwrites its output array with the third layer's output.
-/
import proofs.«115216_j652835029484_1_alg».proof.Proof.KI.KRunB
import proofs.«115216_j652835029484_1_alg».proof.Proof.KI.Val2
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

/-! ## After the host stretch -/

theorem w5_v1 : W5 (F := Ideal) m ρ c (Proc.devRef .tc main_v1) = Cert.RefValue.srcRow (x1 m ρ c) := by
  dsimp only [W5, hostOps2]
  after_results
  exact w4_v1 m ρ c
theorem w5_v3 : W5 (F := Ideal) m ρ c (Proc.devRef .tc main_v3) = Cert.RefValue.dstRow (x1 m ρ c) := by
  dsimp only [W5, hostOps2]
  after_results
  exact w4_v3 m ρ c
theorem w5_arg10 : W5 (F := Ideal) m ρ c (Proc.devRef .tc main_arg10) = x10 m ρ c := by
  dsimp only [W5, hostOps2]
  after_results
  exact w4_arg10 m ρ c
theorem w5_arg11 : W5 (F := Ideal) m ρ c (Proc.devRef .tc main_arg11) = x11 m ρ c := by
  dsimp only [W5, hostOps2]
  after_results
  exact w4_arg11 m ρ c
theorem w5_arg12 : W5 (F := Ideal) m ρ c (Proc.devRef .tc main_arg12) = x12 m ρ c := by
  dsimp only [W5, hostOps2]
  after_results
  exact w4_arg12 m ρ c
theorem w5_arg13 : W5 (F := Ideal) m ρ c (Proc.devRef .tc main_arg13) = x13 m ρ c := by
  dsimp only [W5, hostOps2]
  after_results
  exact w4_arg13 m ρ c
theorem w5_arg14 : W5 (F := Ideal) m ρ c (Proc.devRef .tc main_arg14) = x14 m ρ c := by
  dsimp only [W5, hostOps2]
  after_results
  exact w4_arg14 m ρ c
theorem w5_arg15 : W5 (F := Ideal) m ρ c (Proc.devRef .tc main_arg15) = x15 m ρ c := by
  dsimp only [W5, hostOps2]
  after_results
  exact w4_arg15 m ρ c
theorem w5_arg16 : W5 (F := Ideal) m ρ c (Proc.devRef .tc main_arg16) = x16 m ρ c := by
  dsimp only [W5, hostOps2]
  after_results
  exact w4_arg16 m ρ c
theorem w5_arg17 : W5 (F := Ideal) m ρ c (Proc.devRef .tc main_arg17) = x17 m ρ c := by
  dsimp only [W5, hostOps2]
  after_results
  exact w4_arg17 m ρ c

/-- The stretch leaves the previous layer's output where it is. -/
theorem w5_v29 : W5 (F := Ideal) m ρ c (Proc.devRef .tc main_v29) = W4 (F := Ideal) m ρ c (Proc.devRef .tc main_v29) := by
  dsimp only [W5, hostOps2]
  after_results
  try rfl

/-- The neighbour sum of the previous layer's output. -/
theorem w5_v39 : W5 (F := Ideal) m ρ c (Proc.devRef .tc main_v39) = Cert.RefValue.agg128 (W4 (F := Ideal) m ρ c (Proc.devRef .tc main_v29)) (x1 m ρ c) := by
  dsimp only [W5, hostOps2]
  after_results
  rw [w4_v1 m ρ c, w4_v3 m ρ c]
  rfl

/-- The layer's first bias, as a row. -/
theorem w5_v40 : W5 (F := Ideal) m ρ c (Proc.devRef .tc main_v40) = Cert.Spec.row (x11 m ρ c) := by
  dsimp only [W5, hostOps2]
  after_results
  rw [w4_arg11 m ρ c]
  exact eq_row_of_apply _ _ fun q => Cert.RowCast.shapeCast_row_apply (x11 m ρ c) shapeCasts_S128_S1x128 q

/-- The layer's second bias, as a row. -/
theorem w5_v41 : W5 (F := Ideal) m ρ c (Proc.devRef .tc main_v41) = Cert.Spec.row (x13 m ρ c) := by
  dsimp only [W5, hostOps2]
  after_results
  rw [w4_arg13 m ρ c]
  exact eq_row_of_apply _ _ fun q => Cert.RowCast.shapeCast_row_apply (x13 m ρ c) shapeCasts_S128_S1x128 q

/-! ## After the region -/

theorem w6_arg14 : W6 (F := Ideal) m ρ c (Proc.devRef .tc main_arg14) = x14 m ρ c :=
  (W6_of_ne (F := Ideal) m ρ c main_arg14 (by decide)).trans (w5_arg14 m ρ c)
theorem w6_arg15 : W6 (F := Ideal) m ρ c (Proc.devRef .tc main_arg15) = x15 m ρ c :=
  (W6_of_ne (F := Ideal) m ρ c main_arg15 (by decide)).trans (w5_arg15 m ρ c)
theorem w6_arg16 : W6 (F := Ideal) m ρ c (Proc.devRef .tc main_arg16) = x16 m ρ c :=
  (W6_of_ne (F := Ideal) m ρ c main_arg16 (by decide)).trans (w5_arg16 m ρ c)
theorem w6_arg17 : W6 (F := Ideal) m ρ c (Proc.devRef .tc main_arg17) = x17 m ρ c :=
  (W6_of_ne (F := Ideal) m ρ c main_arg17 (by decide)).trans (w5_arg17 m ρ c)

/-- The region leaves in its output array the layer's output. -/
theorem out2 :
    W6 (F := Ideal) m ρ c (Proc.devRef .tc main_v42) = h3 m ρ c := by
  refine (W6_arr (F := Ideal) m ρ c 6).trans ?_
  rw [final2 (V5 (F := Ideal) m ρ) c,
    show V5 (F := Ideal) m ρ c main_v29 = _ from w5_v29 m ρ c, show V5 (F := Ideal) m ρ c main_v39 = _ from w5_v39 m ρ c,
    show V5 (F := Ideal) m ρ c main_arg10 = _ from w5_arg10 m ρ c, show V5 (F := Ideal) m ρ c main_v40 = _ from w5_v40 m ρ c,
    show V5 (F := Ideal) m ρ c main_arg12 = _ from w5_arg12 m ρ c, show V5 (F := Ideal) m ρ c main_v41 = _ from w5_v41 m ρ c,
    out1 m ρ c]
  rfl

end Cert.KernelIdeal.KVal

end
-- ==== Proof.KI.Pay3.lean ====
/-
  Region 3's payloads, entry by entry.

  The scratch row starts at the zero row; each tile adds to it, column by column, the sum of the tile's 4000 entries of
  that column; the last tile stores the row times the named constant, which denotes `1/100000`.
-/
import proofs.«115216_j652835029484_1_alg».proof.Proof.KI.Defs3
import proofs.«115216_j652835029484_1_alg».proof.Proof.LibRowCast
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.KVal

open Idealize.ShloMosaic Idealize.ShloMosaic.ValueIdx
open Cert.KernelIdeal Cert.KernelIdeal.Gen Cert.KernelIdeal.Hand

/-- Reducing along the rows, the index of column `q` with the row `p` put back is `(p, q)`. -/
theorem lift_col {n m : Nat} (h : (⟨2, ![n, m]⟩ : Shape).Reduces [0] ⟨1, ![m]⟩) (q : Fin m) (p : Fin n) :
    h.lift (ix1 q) p = ix2 p q :=
  funext fun a => Fin.ext (by match a with | ⟨0, _⟩ => rfl | ⟨1, _⟩ => rfl)

/-- A column's sum: `∑ p, v (p, q)`. -/
theorem colSum_apply {n m : Nat} (v : FVec Ideal ⟨2, ![n, m]⟩ .f32) (acc : BitVec (FTy.bits .f32))
    (h : (⟨2, ![n, m]⟩ : Shape).Reduces [0] ⟨1, ![m]⟩) (hφ : FKind.Formats .f32) (hacc : acc = FKind.add.neutral .f32 hφ)
    (q : Fin m) :
    multiReduction .add [0] ⟨1, ![m]⟩ v acc h hφ hacc (ix1 q) = ∑ p : Fin n, v (ix2 p q) :=
  (Ideal.multiReduction_add_single v acc h hφ hacc (ix1 q)).trans
    (Finset.sum_congr rfl fun p _ => congrArg v (lift_col h q p))

/-- The scratch row starts at zero. -/
theorem pay3_1_apply (q : Fin 128) : k3_pay1 (F := Ideal) (ix2 (0 : Fin 1) q) = 0 := by
  unfold k3_pay1
  rw [shapeCast_self, broadcast_apply]
  exact Ideal.ofBits_zero_f32

/-- A tile adds its column sums to the scratch row. -/
theorem pay3_2_apply (v3 : Vec Ideal S1x128 .f32) (v4 : Vec Ideal S4000x128 .f32) (q : Fin 128) :
    k3_pay2 (F := Ideal) v3 v4 (ix2 (0 : Fin 1) q) = v3 (ix2 (0 : Fin 1) q) + ∑ p : Fin 4000, v4 (ix2 p q) := by
  unfold k3_pay2
  dsimp only
  rw [shapeCast_self, addf_apply, shapeCast_self]
  refine congrArg (fun x => v3 (ix2 (0 : Fin 1) q) + x) ?_
  refine (Cert.RowCast.shapeCast_row_apply _ _ q).trans ?_
  exact colSum_apply v4 _ _ _ _ q

/-- The named constant denotes `1/100000`. -/
theorem inv_n : Named.named (F := Ideal) κ "inv_100000" (φ := .f32) 0x3727C5AC#32 = ((1 / 100000 : ℝ) : EReal) :=
  IdealRules.named_const.ideal_named_scalar _ _ _ _ rfl

/-- The stored row is the scratch row times `1/100000`. -/
theorem pay3_3_apply (v : Vec Ideal S1x128 .f32) (q : Fin 128) :
    k3_pay3 (F := Ideal) v (ix2 (0 : Fin 1) q) = v (ix2 (0 : Fin 1) q) * ((1 / 100000 : ℝ) : EReal) := by
  unfold k3_pay3
  rw [mulf_apply, broadcast_apply, inv_n]

end Cert.KernelIdeal.KVal

end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.KI.Val3.lean ====
/-
  Region 3: the mean over the rows.

  Tile `t` of the input window is rows `4000·t … 4000·t + 3999` of the array; the scratch row starts at zero and after
  tile `t` holds, column by column, zero plus the first `t + 1` tile sums; after the last of the 25 tiles that is the sum of
  the column's 100000 entries. Only the last tile writes back, the whole one-row array: the scratch row times `1/100000`.
-/
import proofs.«115216_j652835029484_1_alg».proof.Proof.KI.Defs3
import proofs.«115216_j652835029484_1_alg».proof.Proof.KI.Pay3
import proofs.«115216_j652835029484_1_alg».proof.Proof.Spec
import proofs.«115216_j652835029484_1_alg».proof.Proof.LibBlockSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The printed index maps, decided over the grid: the input window is at block `(t, 0)`, the output at `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- The input's tile `t` is rows `4000·t …` of the array. -/
theorem iblk3_0_apply (c : Dev nD) (t : Fin cfg3.N) (y : S4000x128.Idx) (k : S100000x128.Idx)
    (hk0 : (k 0).val = 4000 * t.val + (y 0).val) (hk1 : (k 1).val = (y 1).val) :
    (iblk3 V c 0 t : Vec Ideal S4000x128 .f32) y = (V c main_v42 : S100000x128.Idx → Elt Ideal .f32) k := by
  obtain ⟨e0, e1, -⟩ := idx_facts3 t
  unfold iblk3
  rw [View.read_apply]
  show V c main_v42 _ = V c main_v42 _
  congr 1
  funext a
  apply Fin.ext
  match a with
  | ⟨0, _⟩ => show win3_0.index t 0 * 4000 + 1 * (y 0).val = (k 0).val; rw [e0, hk0]; omega
  | ⟨1, _⟩ => show win3_0.index t 1 * 128 + 1 * (y 1).val = (k 1).val; rw [e1, hk1]; omega

/-- Column `q` of an array of 100000 rows as a sequence (zero past the end). -/
def colf (h : S100000x128.Idx → EReal) (q : Fin 128) (r : ℕ) : EReal :=
  if hr : r < 100000 then h (ix2 (⟨r, hr⟩ : Fin 100000) q) else 0

/-- One tile's step on a column: the scratch entry plus the tile's block sum of the column's sequence. -/
theorem step3 (a : Vec Ideal S1x128 .f32) (x : Vec Ideal S4000x128 .f32) (h : FVec Ideal S100000x128 .f32) (q : Fin 128)
    (b : ℕ) (hb : b < 25) (s : EReal) (ha : a (ix2 (0 : Fin 1) q) = s)
    (hx : ∀ (p : Fin 4000) (hr : 4000 * b + p.val < 100000), x (ix2 p q) = h (ix2 (⟨4000 * b + p.val, hr⟩ : Fin 100000) q)) :
    k3_pay2 (F := Ideal) a x (ix2 (0 : Fin 1) q) = s + ∑ p : Fin 4000, colf h q (4000 * b + p.val) := by
  rw [pay3_2_apply, ha]
  refine congrArg (fun z => s + z) (Finset.sum_congr rfl fun p _ => ?_)
  have hp : p.val < 4000 := p.isLt
  have hr : 4000 * b + p.val < 100000 := by omega
  unfold colf
  rw [dif_pos hr]
  exact hx p hr

/-- The scratch row after tile `n`: zero plus the first `n + 1` tile sums, column by column. -/
theorem acc3_apply (c : Dev nD) (q : Fin 128) : ∀ (n : ℕ) (hn : n < cfg3.N),
    (acc3 (F := Ideal) V c (n + 1) : Vec Ideal S1x128 .f32) (ix2 (0 : Fin 1) q)
      = Cert.BlockSum.acc (fun b => ∑ p : Fin 4000, colf (V c main_v42) q (4000 * b + p.val)) n
  | 0, hn => by
    rw [acc3_succ V c ⟨0, hn⟩, Cert.BlockSum.acc_zero]
    exact step3 _ _ _ q 0 (by omega) 0 (by rw [acc3_zero]; exact pay3_1_apply q)
      (fun p hr => iblk3_0_apply V c ⟨0, hn⟩ _ _ rfl rfl)
  | n + 1, hn => by
    have hn' : n + 1 < 25 := by rw [show cfg3.N = 25 from N_3] at hn; exact hn
    rw [acc3_succ V c ⟨n + 1, hn⟩, Cert.BlockSum.acc_succ]
    exact step3 _ _ _ q (n + 1) hn' _ (acc3_apply c q n (by omega))
      (fun p hr => iblk3_0_apply V c ⟨n + 1, hn⟩ _ _ rfl rfl)

/-- The column's sequence summed over the 25 blocks of 4000 is the column's sum. -/
theorem colf_sum (h : FVec Ideal S100000x128 .f32) (q : Fin 128) :
    ∑ k : Fin ((24 + 1) * 4000), colf h q k.val = ∑ r : Fin 100000, h (ix2 r q) := by
  rw [show (24 + 1) * 4000 = 100000 from by norm_num]
  refine Finset.sum_congr rfl fun r _ => ?_
  unfold colf
  rw [dif_pos r.isLt]

/-- After the last tile the scratch row holds the 25 block sums of each column's sequence. -/
theorem acc3_last (c : Dev nD) (q : Fin 128) :
    (acc3 (F := Ideal) V c (24 + 1) : Vec Ideal S1x128 .f32) (ix2 (0 : Fin 1) q)
      = ∑ k : Fin ((24 + 1) * 4000), colf (V c main_v42) q k.val := by
  rw [acc3_apply V c q 24 (by rw [show cfg3.N = 25 from N_3]; omega)]
  exact Cert.BlockSum.acc_last_blocks 24 4000 _

/-- The stored row, given the scratch row's entries, is the mean row. -/
theorem pool_row (h : FVec Ideal S100000x128 .f32) (a : Vec Ideal S1x128 .f32)
    (ha : ∀ q : Fin 128, a (ix2 (0 : Fin 1) q) = ∑ r : Fin 100000, h (ix2 r q)) (j i : S1x128.Idx) (hji : i = j) :
    k3_pay3 (F := Ideal) a j = Spec.pool h i := by
  subst hji
  obtain ⟨u, q, rfl⟩ : ∃ (u : Fin 1) (q : Fin 128), i = ix2 u q := ⟨i 0, i 1, eq_ix2 i⟩
  obtain rfl : u = 0 := Subsingleton.elim u 0
  rw [pay3_3_apply, Spec.pool_apply, ha]

/-- What the last tile writes back is the whole mean row. -/
theorem flushed3_eq (c : Dev nD) (t : Fin cfg3.N) (hf : (cfg3.win 1).flush t = true) :
    (dat3 (F := Ideal) V c).flushed 1 t
      = ((cfg3.win 1).blk t).view.read (Elt Ideal) (Spec.pool (V c main_v42 : S100000x128.Idx → Elt Ideal .f32)) := by
  have hN : cfg3.N = 25 := N_3
  have h1 : t.val + 1 = 24 + 1 := by have := (flush3_1 t).mp hf; have := t.isLt; omega
  obtain ⟨-, -, e0, e1⟩ := idx_facts3 t
  show (cfg3.win 1).cut (grid3.coords t) ((dat3 V c).after 1 t) = _
  rw [after3_1, h1]
  funext j
  rw [View.read_apply]
  refine pool_row (V c main_v42) (acc3 (F := Ideal) V c (24 + 1)) (fun q => (acc3_last V c q).trans (colf_sum _ q)) j _ ?_
  funext a
  apply Fin.ext
  match a with
  | ⟨0, _⟩ => show win3_1.index t 0 * 1 + 1 * (j 0).val = (j 0).val; rw [e0]; omega
  | ⟨1, _⟩ => show win3_1.index t 1 * 128 + 1 * (j 1).val = (j 1).val; rw [e1]; omega

/-- The last tile's block is the whole one-row array. -/
theorem cover3 (i : S1x128.Idx) : ∃ t : Fin cfg3.N, (cfg3.win 1).flush t = true ∧ i ∈ ((cfg3.win 1).blk t).view.set := by
  have hi0 : (i 0).val < 1 := (i 0).isLt
  have hi1 : (i 1).val < 128 := (i 1).isLt
  have hN : cfg3.N = 25 := N_3
  let t : Fin cfg3.N := ⟨24, by rw [hN]; omega⟩
  obtain ⟨-, -, e0, e1⟩ := idx_facts3 t
  refine ⟨t, (flush3_1 t).mpr rfl, ?_⟩
  show i ∈ ((View.whole main_v43).slice (win3_1.rect t)).set
  rw [View.set_slice_whole, Rect.mem_set_unit]
  intro a
  match a with
  | ⟨0, _⟩ => show win3_1.index t (0 : Fin 2) * 1 ≤ (i 0).val ∧ (i 0).val < win3_1.index t (0 : Fin 2) * 1 + 1; rw [e0]; omega
  | ⟨1, _⟩ => show win3_1.index t (1 : Fin 2) * 128 ≤ (i 1).val ∧ (i 1).val < win3_1.index t (1 : Fin 2) * 128 + 128; rw [e1]; omega

/-- The output array after the region: the mean row of the array the region found. -/
theorem final3 (c : Dev nD) : (dat3 (F := Ideal) V c).arrAt 1 cfg3.N = Spec.pool (V c main_v42) :=
  (dat3 (F := Ideal) V c).arrAt_eq_of_cover 1 (Spec.pool (V c main_v42 : S100000x128.Idx → Elt Ideal .f32))
    (fun t hf => flushed3_eq V c t hf) (cover3)

end Cert.KernelIdeal.KVal

end
-- ==== Proof.KI.KRun.lean ====
/-
  The kernel program's result: the specification's network of the launch arguments.

  After the three layer regions the pooling region leaves the column means of the third layer's output in its output
  row; the last host stretch takes two matrix products with their biases of that row, which is the specification's
  classifier. Composed with the three layers, the result buffer holds the network of the eighteen arguments as core
  `c` found them at launch.
-/
import proofs.«115216_j652835029484_1_alg».proof.Proof.KI.KRunC
import proofs.«115216_j652835029484_1_alg».proof.Proof.KI.Val3
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

/-! ## After the pooling region -/

theorem w7_arg14 : W7 (F := Ideal) m ρ c (Proc.devRef .tc main_arg14) = x14 m ρ c :=
  (W7_of_ne (F := Ideal) m ρ c main_arg14 (by decide)).trans (w6_arg14 m ρ c)
theorem w7_arg15 : W7 (F := Ideal) m ρ c (Proc.devRef .tc main_arg15) = x15 m ρ c :=
  (W7_of_ne (F := Ideal) m ρ c main_arg15 (by decide)).trans (w6_arg15 m ρ c)
theorem w7_arg16 : W7 (F := Ideal) m ρ c (Proc.devRef .tc main_arg16) = x16 m ρ c :=
  (W7_of_ne (F := Ideal) m ρ c main_arg16 (by decide)).trans (w6_arg16 m ρ c)
theorem w7_arg17 : W7 (F := Ideal) m ρ c (Proc.devRef .tc main_arg17) = x17 m ρ c :=
  (W7_of_ne (F := Ideal) m ρ c main_arg17 (by decide)).trans (w6_arg17 m ρ c)

/-- The pooling region leaves in its output row the column means of the third layer's output. -/
theorem out3 : W7 (F := Ideal) m ρ c (Proc.devRef .tc main_v43) = Cert.Spec.pool (h3 m ρ c) := by
  refine (W7_arr (F := Ideal) m ρ c 1).trans ?_
  rw [final3 (V6 (F := Ideal) m ρ) c, show V6 (F := Ideal) m ρ c main_v42 = _ from out2 m ρ c]

/-! ## The last host stretch -/

/-- A vector of 128 entries broadcast along the columns of a one-row matrix: entry `(r, q)` is entry `q`. -/
theorem bias128_apply (b : FVec Ideal S128 .f32) (r : Fin 1) (q : Fin 128) :
    broadcastInDim S1x128 ![1] bcast_S128_S1x128_1 b (ix2 r q) = b (ix1 q) :=
  broadcastInDim_apply _ bcast_S128_S1x128_1 b (ix2 r q) (ix1 q) (fun a => match a with
    | ⟨0, _⟩ => by show q.val = if (128 : Nat) = 1 then 0 else q.val; rw [if_neg (by decide)])

/-- A vector of 2 entries broadcast along the columns of a one-row matrix: entry `(r, q)` is entry `q`. -/
theorem bias2_apply (b : FVec Ideal S2 .f32) (r : Fin 1) (q : Fin 2) :
    broadcastInDim S1x2 ![1] bcast_S2_S1x2_1 b (ix2 r q) = b (ix1 q) :=
  broadcastInDim_apply _ bcast_S2_S1x2_1 b (ix2 r q) (ix1 q) (fun a => match a with
    | ⟨0, _⟩ => by show q.val = if (2 : Nat) = 1 then 0 else q.val; rw [if_neg (by decide)])

/-- The first product's dimension numbers are the plain ones of a 1 × 128 by 128 × 128 product. -/
theorem dd1 : dot_S1x128_S128x128_S1x128_1_0_0_1_n_n = DotDims.plain 1 128 128 := rfl
/-- The second product's are those of a 1 × 128 by 128 × 2 product. -/
theorem dd2 : dot_S1x128_S128x2_S1x2_1_0_0_1_n_n = DotDims.plain 1 128 2 := rfl

/-- The first product at `(r, q)`. -/
theorem dot1_apply (p : FVec Ideal S1x128 .f32) (Wc : FVec Ideal S128x128 .f32) (r : Fin 1) (q : Fin 128) :
    Host.dotGeneral dot_S1x128_S128x128_S1x128_1_0_0_1_n_n none p Wc (ix2 r q) = ∑ k : Fin 128, p (ix2 r k) * Wc (ix2 k q) := by
  rw [dd1]
  exact PlainDot.dotGeneral_apply 1 128 128 none .single p Wc r q

/-- The second product at `(r, q)`. -/
theorem dot2_apply (p : FVec Ideal S1x128 .f32) (Wf : FVec Ideal S128x2 .f32) (r : Fin 1) (q : Fin 2) :
    Host.dotGeneral dot_S1x128_S128x2_S1x2_1_0_0_1_n_n none p Wf (ix2 r q) = ∑ k : Fin 128, p (ix2 r k) * Wf (ix2 k q) := by
  rw [dd2]
  exact PlainDot.dotGeneral_apply 1 128 2 none .single p Wf r q

/-- A row with a bias of 128 entries added, at `(r, q)`. -/
theorem add1_apply (a : FVec Ideal S1x128 .f32) (b : FVec Ideal S128 .f32) (r : Fin 1) (q : Fin 128) :
    addf a (broadcastInDim S1x128 ![1] bcast_S128_S1x128_1 b) (ix2 r q) = a (ix2 r q) + b (ix1 q) := by
  rw [addf_apply, bias128_apply]

/-- A row with a bias of 2 entries added, at `(r, q)`. -/
theorem add2_apply (a : FVec Ideal S1x2 .f32) (b : FVec Ideal S2 .f32) (r : Fin 1) (q : Fin 2) :
    addf a (broadcastInDim S1x2 ![1] bcast_S2_S1x2_1 b) (ix2 r q) = a (ix2 r q) + b (ix1 q) := by
  rw [addf_apply, bias2_apply]

/-- Two products with their biases are the specification's classifier. -/
theorem tail_eq (p : FVec Ideal S1x128 .f32) (Wc : FVec Ideal S128x128 .f32) (bc : FVec Ideal S128 .f32)
    (Wf : FVec Ideal S128x2 .f32) (bf : FVec Ideal S2 .f32) :
    addf (Host.dotGeneral dot_S1x128_S128x2_S1x2_1_0_0_1_n_n none
        (addf (Host.dotGeneral dot_S1x128_S128x128_S1x128_1_0_0_1_n_n none p Wc) (broadcastInDim S1x128 ![1] bcast_S128_S1x128_1 bc)) Wf)
      (broadcastInDim S1x2 ![1] bcast_S2_S1x2_1 bf)
    = Cert.Spec.head p Wc bc Wf bf := by
  generalize hd1 : Host.dotGeneral dot_S1x128_S128x128_S1x128_1_0_0_1_n_n none p Wc = e1
  generalize ha1 : addf e1 (broadcastInDim S1x128 ![1] bcast_S128_S1x128_1 bc) = f1
  generalize hd2 : Host.dotGeneral dot_S1x128_S128x2_S1x2_1_0_0_1_n_n none f1 Wf = e2
  refine Cert.RefSteps.head_of_steps p Wc bc Wf bf e1 f1 e2 _ ?_ ?_ ?_ ?_
  · intro r q; rw [← hd1]; exact dot1_apply p Wc r q
  · intro r q; rw [← ha1]; exact add1_apply e1 bc r q
  · intro r q; rw [← hd2]; exact dot2_apply f1 Wf r q
  · intro r q; exact add2_apply e2 bf r q

/-- The result buffer at the end, over the launch arguments by name. -/
theorem result_named :
    W8 (F := Ideal) m ρ c (Proc.devRef .tc main_v49)
      = Cert.Spec.net Cert.RefValue.agg165 Cert.RefValue.agg128 (x0 m ρ c) (x1 m ρ c) (x2 m ρ c) (x3 m ρ c) (x4 m ρ c) (x5 m ρ c) (x6 m ρ c) (x7 m ρ c) (x8 m ρ c) (x9 m ρ c) (x10 m ρ c) (x11 m ρ c) (x12 m ρ c) (x13 m ρ c) (x14 m ρ c) (x15 m ρ c) (x16 m ρ c) (x17 m ρ c) := by
  dsimp only [W8, hostOps4]
  after_results
  rw [w7_arg14 m ρ c, w7_arg15 m ρ c, w7_arg16 m ρ c, w7_arg17 m ρ c, out3 m ρ c, tail_eq]
  rfl

/-- The kernel program's result buffer holds the specification's network of the launch contents of its arguments. -/
theorem kernel_result (m : (ℓ : Loc nD τ sig) → Buf (Elt Ideal) ℓ) (ρ : Dev nD → PrngReg) (c : Dev nD) :
    W8 (F := Ideal) m ρ c (Proc.devRef .tc main_v49)
      = Cert.Spec.net Cert.RefValue.agg165 Cert.RefValue.agg128
          (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17)) :=
  result_named m ρ c

end Cert.KernelIdeal.KVal

end
-- ==== Proof.Algebraic.lean ====
/-
  The two idealized programs compute one function. From memories that agree on the eighteen arguments, the kernel
  program ends with its result buffer at the last boundary's contents, which is the network of the specification applied to the
  arguments (three layer updates over the shared neighbour sums, the mean over the nodes, the classifier); the
  reference ends with its result at its operations' composed term, which is the same network of the same arguments.
-/
import proofs.«115216_j652835029484_1_alg».proof.Defs
import proofs.«115216_j652835029484_1_alg».proof.Proof.Frames
import proofs.«115216_j652835029484_1_alg».proof.Proof.KI.KRun
import proofs.«115216_j652835029484_1_alg».proof.Proof.RefValue

noncomputable section

namespace Cert.Proof.Algebraic

open Idealize.ShloMosaic Idealize.ShloMosaic.TcCoe Idealize.SL.Sem
open Cert.KernelIdeal Cert.KernelIdeal.Gen Cert.KernelIdeal.Hand

/-- The kernel program's run at the extended reals: the result buffer at the network of the arguments, the arguments as
    launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49) = W8 (F := Ideal) m ρ c (Proc.devRef .tc main_v49)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (defs (F := Ideal)) _ _).mono (fun r h c =>
    ⟨h c _ (mem_uc main_v49 (by decide)),
      (h c _ (mem_uc main_arg1 (by decide))).trans (W8_main_arg1 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c)⟩)
    (run_all m ρ Cert.Proof.Frames.oblKI)

end Cert.Proof.Algebraic

namespace Cert.Proof.Algebraic

open Idealize.ShloMosaic Idealize.ShloMosaic.TcCoe Idealize.SL.Sem

/-- Both idealized programs, from memories agreeing on the arguments, end with equal results and unchanged arguments. -/
theorem algebraic : Cert.algebraic_KernelIdeal_ReferenceIdeal := by
  intro m ρ m' ρ' _ hagree
  refine ⟨fun c => Cert.KernelIdeal.Hand.W8 (F := Ideal) m ρ c (Proc.devRef .tc Cert.KernelIdeal.main_v49),
    fun c => m ((c.tc : Thread Cert.KernelIdeal.nD Cert.KernelIdeal.τ).loc Cert.KernelIdeal.main_arg1), kernel_run m ρ, ?_⟩
  refine (θ_run Cert.ReferenceIdeal.defs _ _).mono (fun r h c => ⟨?_, (h c).2.1.trans (hagree c).2.1, (h c).2.2⟩)
    (Cert.ReferenceIdeal.Value.run (F := Ideal) m' ρ')
  obtain ⟨e0, e1, e2, e3, e4, e5, e6, e7, e8, e9, e10, e11, e12, e13, e14, e15, e16, e17⟩ := hagree c
  refine (h c).1.trans ?_
  rw [Cert.ReferenceIdeal.Read.val_main_v76_eq, Cert.RefValue.ref_result, e0, e1, e2, e3, e4, e5, e6, e7, e8, e9, e10, e11, e12, e13, e14, e15, e16, e17]
  exact (Cert.KernelIdeal.KVal.kernel_result m ρ c).symm

end Cert.Proof.Algebraic

end
-- ==== Proof.lean ====
/-
  The certificate's claims, assembled. The three frames: each program terminates on every weakly fair execution,
  faults nowhere and leaves its eighteen argument arrays as launched — for the two kernel programs by running @main
  as its eight segments (four stretches of host operations, four kernel regions) over the buffer contents folded from
  the launch memory, for the reference by its operations' run. The idealization names one constant, 1/100000. And
  the two idealized programs compute one function of the arguments: three graph-isomorphism layers
  `relu (relu ((h + agg h) · Wa + ba) · Wb + bb)` over the shared neighbour sums, the mean over the 100000 nodes, two
  affine maps.
-/
import proofs.«115216_j652835029484_1_alg».proof.Defs
import proofs.«115216_j652835029484_1_alg».proof.Proof.Gen.Kernel
import proofs.«115216_j652835029484_1_alg».proof.Proof.Gen.KernelIdeal
import proofs.«115216_j652835029484_1_alg».proof.Proof.Gen.ReferenceIdeal
import proofs.«115216_j652835029484_1_alg».proof.Proof.Gen.Pre_finite_inputs
import proofs.«115216_j652835029484_1_alg».proof.Proof.Frames
import proofs.«115216_j652835029484_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Frames.frame_K, Cert.Proof.Frames.frame_KI, Cert.Proof.Frames.frame_R, Cert.Proof.Frames.preserves,
  Cert.Proof.Algebraic.algebraic⟩

end Cert.Proof

end
